-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S64x128 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S64x128 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S1x64 : Shape := ⟨2, ![1, 64]⟩
abbrev S100000x64 : Shape := ⟨2, ![100000, 64]⟩
abbrev S5000x64 : Shape := ⟨2, ![5000, 64]⟩
abbrev S128x64 : Shape := ⟨2, ![128, 64]⟩
abbrev S5000 : Shape := ⟨1, ![5000]⟩

abbrev nBuf : Space → Nat
  | .hbm => 67
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S64x128, .f32⟩
  | .hbm, ⟨9, _⟩ => ⟨S64, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000x128, .f32⟩
  | .hbm, ⟨42, _⟩ => ⟨S_, .f32⟩
  | .hbm, ⟨43, _⟩ => ⟨S100000x128, .f32⟩
  | .hbm, ⟨44, _⟩ => ⟨S1700000x1, .i32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S1x128, .f32⟩
  | .hbm, ⟨65, _⟩ => ⟨S1x64, .f32⟩
  | .hbm, ⟨66, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S64x128, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  shapeCasts_S64_S1x64 : S64.ShapeCasts S1x64
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v41) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v42) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S64x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v43) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v44) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩
abbrev S100000x1 : Shape := ⟨2, ![100000, 1]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S64x128, .f32⟩
  | 9 => ⟨S64, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S128x128, .f32⟩
  | 52 => ⟨S100000x128, .f32⟩
  | 53 => ⟨S1700000x1, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S128x128, .f32⟩
  | 76 => ⟨S100000x128, .f32⟩
  | 77 => ⟨S1700000x1, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x128, .f32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S1x128, .f32⟩
  | 94 => ⟨S100000x128, .f32⟩
  | 95 => ⟨S100000x128, .f32⟩
  | 96 => ⟨S128x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .i1⟩
  | 104 => ⟨S_, .f32⟩
  | 105 => ⟨S100000x128, .f32⟩
  | 106 => ⟨S100000x128, .i1⟩
  | 107 => ⟨S_, .f32⟩
  | 108 => ⟨S_, .f32⟩
  | 109 => ⟨S100000x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S100000x128, .f32⟩
  | 116 => ⟨S128x64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x64, .f32⟩
  | _ => ⟨S100000x128, .f32⟩

abbrev hbmTy0_1 (i : Nat) : BufTy := match i % 128 with
  | 0 => ⟨S100000x64, .f32⟩
  | 1 => ⟨S100000x64, .f32⟩
  | 2 => ⟨S_, .f32⟩
  | 3 => ⟨S100000, .f32⟩
  | 4 => ⟨S100000x1, .f32⟩
  | 5 => ⟨S100000x1, .f32⟩
  | 6 => ⟨S100000x64, .f32⟩
  | 7 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_cst_0 : Ref sig .tc := ⟨.hbm, 104, rfl⟩
abbrev main_call2_v2 : Ref sig .tc := ⟨.hbm, 105, rfl⟩
abbrev main_call2_v3 : Ref sig .tc := ⟨.hbm, 106, rfl⟩
abbrev main_call2_cst_1 : Ref sig .tc := ⟨.hbm, 107, rfl⟩
abbrev main_call2_call0_v0 : Ref sig .tc := ⟨.hbm, 108, rfl⟩
abbrev main_call2_call0_v1 : Ref sig .tc := ⟨.hbm, 109, rfl⟩
abbrev main_call2_v4 : Ref sig .tc := ⟨.hbm, 110, rfl⟩
abbrev main_call2_v5 : Ref sig .tc := ⟨.hbm, 111, rfl⟩
abbrev main_call2_cst_2 : Ref sig .tc := ⟨.hbm, 112, rfl⟩
abbrev main_call2_v6 : Ref sig .tc := ⟨.hbm, 113, rfl⟩
abbrev main_call2_v7 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_call3_cst : Ref sig .tc := ⟨.hbm, 121, rfl⟩
abbrev main_call3_v0 : Ref sig .tc := ⟨.hbm, 122, rfl⟩
abbrev main_call3_cst_0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_v6 : Ref sig .tc := ⟨.hbm, 129, rfl⟩
abbrev main_call3_cst_1 : Ref sig .tc := ⟨.hbm, 130, rfl⟩
abbrev main_call3_v7 : Ref sig .tc := ⟨.hbm, 131, rfl⟩
abbrev main_call3_v8 : Ref sig .tc := ⟨.hbm, 132, rfl⟩
abbrev main_call3_v9 : Ref sig .tc := ⟨.hbm, 133, rfl⟩
abbrev main_call3_v10 : Ref sig .tc := ⟨.hbm, 134, rfl⟩
abbrev main_v79 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The row-wise functions both programs compute, over the extended reals.

  A node's feature row is mapped linearly and scaled by the node's normalisation factor (`preRow`); an aggregated
  row is scaled by the destination node's factor and shifted by the bias (`postRow`), optionally clipped below at
  zero (`postReluRow`). The whole-array forms apply the row-wise function at every row.
-/
import Idealize.ShloMosaic.Lib.ValueIdx
import Idealize.ShloMosaic.PureOps.Ideal

noncomputable section

open scoped BigOperators

namespace Cert.Spec

open Idealize.ShloMosaic Idealize.ShloMosaic.ValueIdx

/-- A float array of two axes, at the ideal instance. -/
abbrev Arr2 (a b : Nat) : Type := FVec Ideal (⟨2, ![a, b]⟩ : Shape) .f32

/-- Entry `j` of the row `zrow · Wᵀ`, scaled by `sr`: `(∑ₖ zrow k · W[j, k]) · sr`. -/
def preRow (zrow : Fin 128 → EReal) (W : Arr2 128 128) (sr : EReal) (j : Fin 128) : EReal :=
  (∑ k : Fin 128, zrow k * W (ix2 j k)) * sr

/-- An aggregated entry scaled by the destination's factor, plus the bias entry. -/
def postRow (a sr bj : EReal) : EReal := a * sr + bj

/-- The same, clipped below at zero. -/
def postReluRow (a sr bj : EReal) : EReal := max (a * sr + bj) 0

/-- `preRow` at every row of `z`, the scale read from the one-column array `s`. -/
def pre (z : Arr2 100000 128) (W : Arr2 128 128) (s : Arr2 100000 1) : Arr2 100000 128 :=
  fun i => preRow (fun k => z (ix2 (⟨(i 0).val, idx2_lt0 i⟩ : Fin 100000) k)) W
    (s (ix2 (⟨(i 0).val, idx2_lt0 i⟩ : Fin 100000) (0 : Fin 1))) ⟨(i 1).val, idx2_lt1 i⟩

/-- `postRow` at every entry of `agg`, the scale read from `s`, the bias from the one-row array `b`. -/
def post (agg : Arr2 100000 128) (s : Arr2 100000 1) (b : Arr2 1 128) : Arr2 100000 128 :=
  fun i => postRow (agg i) (s (ix2 (⟨(i 0).val, idx2_lt0 i⟩ : Fin 100000) (0 : Fin 1)))
    (b (ix2 (0 : Fin 1) (⟨(i 1).val, idx2_lt1 i⟩ : Fin 128)))

/-- `postReluRow` at every entry. -/
def postRelu (agg : Arr2 100000 128) (s : Arr2 100000 1) (b : Arr2 1 128) : Arr2 100000 128 :=
  fun i => postReluRow (agg i) (s (ix2 (⟨(i 0).val, idx2_lt0 i⟩ : Fin 100000) (0 : Fin 1)))
    (b (ix2 (0 : Fin 1) (⟨(i 1).val, idx2_lt1 i⟩ : Fin 128)))

/-- A vector read as a one-row array. -/
def rowOf {n : Nat} (b : FVec Ideal (⟨1, ![n]⟩ : Shape) .f32) : Arr2 1 n :=
  fun i => b (ix1 (⟨(i 1).val, idx2_lt1 i⟩ : Fin n))

/-- A vector read as a one-column array. -/
def colOf {n : Nat} (d : FVec Ideal (⟨1, ![n]⟩ : Shape) .f32) : Arr2 n 1 :=
  fun i => d (ix1 (⟨(i 0).val, idx2_lt0 i⟩ : Fin n))

theorem rowOf_ix2 {n : Nat} (b : FVec Ideal (⟨1, ![n]⟩ : Shape) .f32) (a : Fin 1) (j : Fin n) :
    rowOf b (ix2 a j) = b (ix1 j) := rfl

theorem colOf_ix2 {n : Nat} (d : FVec Ideal (⟨1, ![n]⟩ : Shape) .f32) (r : Fin n) (a : Fin 1) :
    colOf d (ix2 r a) = d (ix1 r) := rfl

theorem pre_ix2 (z : Arr2 100000 128) (W : Arr2 128 128) (s : Arr2 100000 1) (r : Fin 100000) (j : Fin 128) :
    pre z W s (ix2 r j) = preRow (fun k => z (ix2 r k)) W (s (ix2 r (0 : Fin 1))) j := rfl

theorem post_ix2 (agg : Arr2 100000 128) (s : Arr2 100000 1) (b : Arr2 1 128) (r : Fin 100000) (j : Fin 128) :
    post agg s b (ix2 r j) = postRow (agg (ix2 r j)) (s (ix2 r (0 : Fin 1))) (b (ix2 (0 : Fin 1) j)) := rfl

theorem postRelu_ix2 (agg : Arr2 100000 128) (s : Arr2 100000 1) (b : Arr2 1 128) (r : Fin 100000) (j : Fin 128) :
    postRelu agg s b (ix2 r j) = postReluRow (agg (ix2 r j)) (s (ix2 r (0 : Fin 1))) (b (ix2 (0 : Fin 1) j)) := rfl

end Cert.Spec

end
-- ==== Proof.SpecProj.lean ====
/-
  The projection head both programs compute, row by row, over the extended reals.

  A feature row is mapped linearly and shifted (`preact`), passed through the exponential linear unit
  (`elu`: the value itself where it is positive, `exp a - 1` elsewhere), mapped linearly and shifted again
  (`logit`), and normalised by the logarithm of the softmax: with `m` the largest logit of the row,
  each logit minus `m`, minus the logarithm of the sum of the exponentials of those differences.
-/
import proofs.«152069_j90555090468876_2_alg».proof.Proof.Spec
import Idealize.ShloMosaic.PureOps.Ideal.Laws

noncomputable section

open scoped BigOperators

namespace Cert.SpecProj

open Idealize.ShloMosaic Idealize.ShloMosaic.ValueIdx Cert.Spec

/-- The exponential linear unit: `a` where `a > 0`, `exp a - 1` elsewhere; the choice is spelt by the
    comparison bit, as both programs spell it. -/
def elu (a : EReal) : EReal :=
  Scalar.select (FloatOps.cmpf (F := Ideal) (φ := .f32) .ogt a 0) a (Ideal.exp a - 1)

/-- Entry `k` of the first affine map: `(∑ᵢ zrow i · W1[k, i]) + b1[k]`. -/
def preact (zrow : Fin 128 → EReal) (W1 : Arr2 128 128) (b1 : Arr2 1 128) (k : Fin 128) : EReal :=
  (∑ i : Fin 128, zrow i * W1 (ix2 k i)) + b1 (ix2 (0 : Fin 1) k)

/-- Entry `k` of the hidden row: the unit applied to the first affine map. -/
def hidden (zrow : Fin 128 → EReal) (W1 : Arr2 128 128) (b1 : Arr2 1 128) (k : Fin 128) : EReal :=
  elu (preact zrow W1 b1 k)

/-- Entry `o` of the second affine map of a hidden row `h`: `(∑ₖ h k · W2[o, k]) + b2[o]`. -/
def logit (h : Fin 128 → EReal) (W2 : Arr2 64 128) (b2 : Arr2 1 64) (o : Fin 64) : EReal :=
  (∑ k : Fin 128, h k * W2 (ix2 o k)) + b2 (ix2 (0 : Fin 1) o)

/-- The largest entry of a row of 64, as a fold of `max` from the bottom element. -/
def rowMax (y : Fin 64 → EReal) : EReal := (Finset.univ : Finset (Fin 64)).fold max ⊥ y

/-- The logarithm of the softmax of a row `y`, at entry `o`. -/
def logSoftmaxRow (y : Fin 64 → EReal) (o : Fin 64) : EReal :=
  (y o - rowMax y) - Ideal.log (∑ o' : Fin 64, Ideal.exp (y o' - rowMax y))

/-- One row of the projection head, at output entry `o`. -/
def projRow (zrow : Fin 128 → EReal) (W1 : Arr2 128 128) (b1 : Arr2 1 128) (W2 : Arr2 64 128) (b2 : Arr2 1 64)
    (o : Fin 64) : EReal :=
  logSoftmaxRow (logit (hidden zrow W1 b1) W2 b2) o

/-- `projRow` at every row of `zs`. -/
def proj (zs : Arr2 100000 128) (W1 : Arr2 128 128) (b1 : Arr2 1 128) (W2 : Arr2 64 128) (b2 : Arr2 1 64) :
    Arr2 100000 64 :=
  fun i => projRow (fun k => zs (ix2 (⟨(i 0).val, idx2_lt0 i⟩ : Fin 100000) k)) W1 b1 W2 b2 ⟨(i 1).val, idx2_lt1 i⟩

theorem proj_ix2 (zs : Arr2 100000 128) (W1 : Arr2 128 128) (b1 : Arr2 1 128) (W2 : Arr2 64 128) (b2 : Arr2 1 64)
    (r : Fin 100000) (o : Fin 64) :
    proj zs W1 b1 W2 b2 (ix2 r o) = projRow (fun k => zs (ix2 r k)) W1 b1 W2 b2 o := rfl

end Cert.SpecProj

end
-- ==== Proof.KerVal.lean ====
/-
  The values the kernel's program computes, array by array, over the extended reals.

  From the edge list (two rows of node numbers: sources and destinations) the program appends one self loop per node,
  counts each node's incoming edges, and takes the reciprocal square root of the positive counts (zero elsewhere): the
  normalisation factors. A layer maps every node's feature row linearly and scales it by the node's factor, sums over
  each node's incoming edges the rows of the edges' sources, scales the sum by the node's factor and adds the bias
  (clipped below at zero in the first layer). The second result is the projection of the second layer's rows.
-/
import proofs.«152069_j90555090468876_2_alg».proof.KernelIdeal
import proofs.«152069_j90555090468876_2_alg».proof.Proof.Spec
import proofs.«152069_j90555090468876_2_alg».proof.Proof.SpecProj
import Idealize.ShloMosaic.PureOps.Ideal

noncomputable section

namespace Cert.KernelIdeal.KerVal

open Idealize.ShloMosaic Cert.KernelIdeal Cert.KernelIdeal.Facts₀ Cert.KernelIdeal.Facts

variable [Cert.KernelIdeal.Facts]

/-! ## The index vectors and the normalisation factors -/

/-- Every edge's source: the edge list's first row, then the node numbers (the self loops). -/
def rowV (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
     ⟨S100000, iotaInDim S100000 32 0⟩] concatenates_S1600000_S100000_S1700000_d0

/-- Every edge's destination: the edge list's second row, then the node numbers. -/
def colV (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩,
     ⟨S100000, iotaInDim S100000 32 0⟩] concatenates_S1600000_S100000_S1700000_d0

/-- A vector of node numbers as a one-column array of scatter (or gather) positions. -/
def colIdxOf (cv : IVec S1700000 32) : IVec S1700000x1 32 :=
  broadcastInDim S1700000x1 ![0] bcast_S1700000_S1700000x1_0 cv

/-- The same after a negative number is moved up by the number of nodes. -/
def rowIdxOf (rv : IVec S1700000 32) : IVec S1700000x1 32 :=
  broadcastInDim S1700000x1 ![0] bcast_S1700000_S1700000x1_0
    (select (cmpi .slt rv (broadcastInDim S1700000 ![] bcast_S_S1700000 (constantI S_ 32 0#32)))
      (addi rv (broadcastInDim S1700000 ![] bcast_S_S1700000 (constantI S_ 32 100000#32))) rv)

/-- The gather positions: the edges' sources. -/
def rowIdx (ei : IVec S2x1600000 32) : IVec S1700000x1 32 := rowIdxOf (rowV ei)

/-- The scatter positions: the edges' destinations. -/
def colIdx (ei : IVec S2x1600000 32) : IVec S1700000x1 32 := colIdxOf (colV ei)

/-- Each node's number of incoming edges, the self loop counted: ones summed at the destinations. -/
def degV (ei : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32))
    (colIdxOf (colV ei))
    (broadcastInDim S1700000 ![] bcast_S_S1700000 (constant (F := Ideal) S_ .f32 0x3F800000#32))

/-- The normalisation factors: the reciprocal square root of a positive count, zero otherwise. -/
def dinvV (ei : IVec S2x1600000 32) : FVec Ideal S100000 .f32 :=
  select
    (cmpf .ogt (degV ei) (broadcastInDim S100000 ![] bcast_S_S100000 (constant (F := Ideal) S_ .f32 0x00000000#32)))
    (Host.rsqrt (degV ei))
    (broadcastInDim S100000 ![] bcast_S_S100000 (constant (F := Ideal) S_ .f32 0x00000000#32))

/-- The factors as a one-column array. -/
def dinv2 (ei : IVec S2x1600000 32) : FVec Ideal S100000x1 .f32 :=
  shapeCast S100000x1 (dinvV ei) shapeCasts_S100000_S100000x1

/-! ## The aggregation over incoming edges -/

/-- For every node the sum, over the edges arriving at it, of the rows of `zp` at the edges' sources: the rows gathered
    at `ri`, added at `ci` into zeros. -/
def aggWith (zp : FVec Ideal S100000x128 .f32) (ri ci : IVec S1700000x1 32) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    ci
    (Host.gather gather_S100000x128_S1700000x1_S1700000x128_1_0_n_n_0_1_1128 zp ri)

/-- The aggregation along the edge list `ei`. -/
def aggOf (zp : FVec Ideal S100000x128 .f32) (ei : IVec S2x1600000 32) : FVec Ideal S100000x128 .f32 :=
  aggWith zp (rowIdx ei) (colIdx ei)

theorem aggOf_eq (zp : FVec Ideal S100000x128 .f32) (ei : IVec S2x1600000 32) :
    aggOf zp ei = Host.scatterAdd (F := Ideal) scatter_S100000x128_S1700000x1_S1700000x128_1_0_0_1
      (broadcastInDim S100000x128 ![] bcast_S_S100000x128 (constant (F := Ideal) S_ .f32 0x00000000#32))
      (colIdx ei)
      (Host.gather gather_S100000x128_S1700000x1_S1700000x128_1_0_n_n_0_1_1128 zp (rowIdx ei)) := rfl

/-! ## The bias vectors as one-row arrays -/

/-- A vector of 128 entries as an array of one row. -/
def biasRow (b : FVec Ideal S128 .f32) : FVec Ideal S1x128 .f32 := shapeCast S1x128 b shapeCasts_S128_S1x128

/-- A vector of 64 entries as an array of one row. -/
def biasRow64 (b : FVec Ideal S64 .f32) : FVec Ideal S1x64 .f32 := shapeCast S1x64 b shapeCasts_S64_S1x64

/-! ## The layers and the two results -/

/-- The first layer's output: rows mapped by `W1` and scaled, aggregated, scaled again, shifted by `b1`, clipped at zero. -/
def z1T (x : FVec Ideal S100000x128 .f32) (ei : IVec S2x1600000 32) (W1 : FVec Ideal S128x128 .f32)
    (b1 : FVec Ideal S128 .f32) : FVec Ideal S100000x128 .f32 :=
  Cert.Spec.postRelu (aggOf (Cert.Spec.pre x W1 (dinv2 ei)) ei) (dinv2 ei) (biasRow b1)

/-- The second layer's output (the first result): the same over the first layer's output, not clipped. -/
def zsT (x : FVec Ideal S100000x128 .f32) (ei : IVec S2x1600000 32) (W1 : FVec Ideal S128x128 .f32)
    (b1 : FVec Ideal S128 .f32) (W2 : FVec Ideal S128x128 .f32) (b2 : FVec Ideal S128 .f32) :
    FVec Ideal S100000x128 .f32 :=
  Cert.Spec.post (aggOf (Cert.Spec.pre (z1T x ei W1 b1) W2 (dinv2 ei)) ei) (dinv2 ei) (biasRow b2)

/-- The second result: the projection of the second layer's rows. -/
def resT (x : FVec Ideal S100000x128 .f32) (ei : IVec S2x1600000 32) (W1 : FVec Ideal S128x128 .f32)
    (b1 : FVec Ideal S128 .f32) (W2 : FVec Ideal S128x128 .f32) (b2 : FVec Ideal S128 .f32)
    (fcW1 : FVec Ideal S128x128 .f32) (fcb1 : FVec Ideal S128 .f32) (fcW2 : FVec Ideal S64x128 .f32)
    (fcb2 : FVec Ideal S64 .f32) : FVec Ideal S100000x64 .f32 :=
  Cert.SpecProj.proj (zsT x ei W1 b1 W2 b2) fcW1 (biasRow fcb1) fcW2 (biasRow64 fcb2)

end Cert.KernelIdeal.KerVal

end
-- ==== Proof.KerHost.lean ====
/-
  The host operations between the kernel regions, stretch by stretch: what each stretch leaves in the buffers the
  regions read, as a function of what the buffers held when the stretch began.

  Every statement is about an arbitrary assignment `X` of contents to the buffers: the stretch's operations are folded
  over `X`, and the buffer in question then holds the named array-level function of `X` at the buffers the stretch
  read (or, for a buffer the stretch does not write, what `X` held there).
-/
import proofs.«152069_j90555090468876_2_alg».proof.Proof.Gen.KernelIdeal.Launch
import proofs.«152069_j90555090468876_2_alg».proof.Proof.KerVal
import Idealize.ShloMosaic.Lib.StableHlo.Run

noncomputable section

namespace Cert.KernelIdeal.KerHost

open Idealize.ShloMosaic Idealize.ShloMosaic.TcCoe
open Cert.KernelIdeal Cert.KernelIdeal.Gen

variable (X : Valuation τ sig (Elt Ideal))

/-! ## The first stretch: the index vectors, the edge counts, their reciprocal square roots -/

theorem s0_v3 : StableHlo.after (hostOps0 (F := Ideal)) X (Proc.devRef .tc main_v3) = KerVal.rowV (X (Proc.devRef .tc main_arg1)) := by
  after_results; rfl
theorem s0_v6 : StableHlo.after (hostOps0 (F := Ideal)) X (Proc.devRef .tc main_v6) = KerVal.colV (X (Proc.devRef .tc main_arg1)) := by
  after_results; rfl
/-- Where the edge count is positive. -/
theorem s0_v12 : StableHlo.after (hostOps0 (F := Ideal)) X (Proc.devRef .tc main_v12)
    = cmpf .ogt (KerVal.degV (X (Proc.devRef .tc main_arg1))) (broadcastInDim S100000 ![] bcast_S_S100000 (constant (F := Ideal) S_ .f32 0x00000000#32)) := by
  after_results; rfl
/-- The reciprocal square roots of the edge counts. -/
theorem s0_v13 : StableHlo.after (hostOps0 (F := Ideal)) X (Proc.devRef .tc main_v13)
    = Host.rsqrt (KerVal.degV (X (Proc.devRef .tc main_arg1))) := by
  after_results; rfl
/-- The zero the factors take where the count is not positive. -/
theorem s0_cst2 : StableHlo.after (hostOps0 (F := Ideal)) X (Proc.devRef .tc main_cst_2)
    = constant (F := Ideal) S_ .f32 0x00000000#32 := by
  after_results
theorem s0_arg0 : StableHlo.after (hostOps0 (F := Ideal)) X (Proc.devRef .tc main_arg0) = X (Proc.devRef .tc main_arg0) := by
  after_results
theorem s0_arg2 : StableHlo.after (hostOps0 (F := Ideal)) X (Proc.devRef .tc main_arg2) = X (Proc.devRef .tc main_arg2) := by
  after_results
theorem s0_arg3 : StableHlo.after (hostOps0 (F := Ideal)) X (Proc.devRef .tc main_arg3) = X (Proc.devRef .tc main_arg3) := by
  after_results
theorem s0_arg4 : StableHlo.after (hostOps0 (F := Ideal)) X (Proc.devRef .tc main_arg4) = X (Proc.devRef .tc main_arg4) := by
  after_results
theorem s0_arg5 : StableHlo.after (hostOps0 (F := Ideal)) X (Proc.devRef .tc main_arg5) = X (Proc.devRef .tc main_arg5) := by
  after_results
theorem s0_arg6 : StableHlo.after (hostOps0 (F := Ideal)) X (Proc.devRef .tc main_arg6) = X (Proc.devRef .tc main_arg6) := by
  after_results
theorem s0_arg7 : StableHlo.after (hostOps0 (F := Ideal)) X (Proc.devRef .tc main_arg7) = X (Proc.devRef .tc main_arg7) := by
  after_results
theorem s0_arg8 : StableHlo.after (hostOps0 (F := Ideal)) X (Proc.devRef .tc main_arg8) = X (Proc.devRef .tc main_arg8) := by
  after_results
theorem s0_arg9 : StableHlo.after (hostOps0 (F := Ideal)) X (Proc.devRef .tc main_arg9) = X (Proc.devRef .tc main_arg9) := by
  after_results

/-! ## The second stretch: the selection between the two -/

theorem s01_v14 : StableHlo.after (hostOps0_1 (F := Ideal)) X (Proc.devRef .tc main_v14)
    = select (X (Proc.devRef .tc main_v12)) (X (Proc.devRef .tc main_v13))
        (broadcastInDim S100000 ![] bcast_S_S100000 (X (Proc.devRef .tc main_cst_2))) := by
  after_results; rfl
theorem s01_v3 : StableHlo.after (hostOps0_1 (F := Ideal)) X (Proc.devRef .tc main_v3) = X (Proc.devRef .tc main_v3) := by
  after_results
theorem s01_v6 : StableHlo.after (hostOps0_1 (F := Ideal)) X (Proc.devRef .tc main_v6) = X (Proc.devRef .tc main_v6) := by
  after_results
theorem s01_arg0 : StableHlo.after (hostOps0_1 (F := Ideal)) X (Proc.devRef .tc main_arg0) = X (Proc.devRef .tc main_arg0) := by
  after_results
theorem s01_arg2 : StableHlo.after (hostOps0_1 (F := Ideal)) X (Proc.devRef .tc main_arg2) = X (Proc.devRef .tc main_arg2) := by
  after_results
theorem s01_arg3 : StableHlo.after (hostOps0_1 (F := Ideal)) X (Proc.devRef .tc main_arg3) = X (Proc.devRef .tc main_arg3) := by
  after_results
theorem s01_arg4 : StableHlo.after (hostOps0_1 (F := Ideal)) X (Proc.devRef .tc main_arg4) = X (Proc.devRef .tc main_arg4) := by
  after_results
theorem s01_arg5 : StableHlo.after (hostOps0_1 (F := Ideal)) X (Proc.devRef .tc main_arg5) = X (Proc.devRef .tc main_arg5) := by
  after_results
theorem s01_arg6 : StableHlo.after (hostOps0_1 (F := Ideal)) X (Proc.devRef .tc main_arg6) = X (Proc.devRef .tc main_arg6) := by
  after_results
theorem s01_arg7 : StableHlo.after (hostOps0_1 (F := Ideal)) X (Proc.devRef .tc main_arg7) = X (Proc.devRef .tc main_arg7) := by
  after_results
theorem s01_arg8 : StableHlo.after (hostOps0_1 (F := Ideal)) X (Proc.devRef .tc main_arg8) = X (Proc.devRef .tc main_arg8) := by
  after_results
theorem s01_arg9 : StableHlo.after (hostOps0_1 (F := Ideal)) X (Proc.devRef .tc main_arg9) = X (Proc.devRef .tc main_arg9) := by
  after_results

/-! ## The third stretch: the factors as a column -/

theorem s02_v15 : StableHlo.after (hostOps0_2 (F := Ideal)) X (Proc.devRef .tc main_v15)
    = shapeCast S100000x1 (X (Proc.devRef .tc main_v14)) shapeCasts_S100000_S100000x1 := by
  after_results; rfl
theorem s02_v3 : StableHlo.after (hostOps0_2 (F := Ideal)) X (Proc.devRef .tc main_v3) = X (Proc.devRef .tc main_v3) := by
  after_results
theorem s02_v6 : StableHlo.after (hostOps0_2 (F := Ideal)) X (Proc.devRef .tc main_v6) = X (Proc.devRef .tc main_v6) := by
  after_results
theorem s02_arg0 : StableHlo.after (hostOps0_2 (F := Ideal)) X (Proc.devRef .tc main_arg0) = X (Proc.devRef .tc main_arg0) := by
  after_results
theorem s02_arg2 : StableHlo.after (hostOps0_2 (F := Ideal)) X (Proc.devRef .tc main_arg2) = X (Proc.devRef .tc main_arg2) := by
  after_results
theorem s02_arg3 : StableHlo.after (hostOps0_2 (F := Ideal)) X (Proc.devRef .tc main_arg3) = X (Proc.devRef .tc main_arg3) := by
  after_results
theorem s02_arg4 : StableHlo.after (hostOps0_2 (F := Ideal)) X (Proc.devRef .tc main_arg4) = X (Proc.devRef .tc main_arg4) := by
  after_results
theorem s02_arg5 : StableHlo.after (hostOps0_2 (F := Ideal)) X (Proc.devRef .tc main_arg5) = X (Proc.devRef .tc main_arg5) := by
  after_results
theorem s02_arg6 : StableHlo.after (hostOps0_2 (F := Ideal)) X (Proc.devRef .tc main_arg6) = X (Proc.devRef .tc main_arg6) := by
  after_results
theorem s02_arg7 : StableHlo.after (hostOps0_2 (F := Ideal)) X (Proc.devRef .tc main_arg7) = X (Proc.devRef .tc main_arg7) := by
  after_results
theorem s02_arg8 : StableHlo.after (hostOps0_2 (F := Ideal)) X (Proc.devRef .tc main_arg8) = X (Proc.devRef .tc main_arg8) := by
  after_results
theorem s02_arg9 : StableHlo.after (hostOps0_2 (F := Ideal)) X (Proc.devRef .tc main_arg9) = X (Proc.devRef .tc main_arg9) := by
  after_results

/-! ## Between the first layer's two regions: the aggregation, the bias as a row -/

theorem s1_v26 : StableHlo.after (hostOps1 (F := Ideal)) X (Proc.devRef .tc main_v26)
    = KerVal.aggWith (X (Proc.devRef .tc main_v16)) (KerVal.rowIdxOf (X (Proc.devRef .tc main_v3))) (KerVal.colIdxOf (X (Proc.devRef .tc main_v6))) := by
  after_results; rfl
theorem s1_v27 : StableHlo.after (hostOps1 (F := Ideal)) X (Proc.devRef .tc main_v27) = KerVal.biasRow (X (Proc.devRef .tc main_arg3)) := by
  after_results; rfl
theorem s1_v15 : StableHlo.after (hostOps1 (F := Ideal)) X (Proc.devRef .tc main_v15) = X (Proc.devRef .tc main_v15) := by
  after_results
theorem s1_v3 : StableHlo.after (hostOps1 (F := Ideal)) X (Proc.devRef .tc main_v3) = X (Proc.devRef .tc main_v3) := by
  after_results
theorem s1_v6 : StableHlo.after (hostOps1 (F := Ideal)) X (Proc.devRef .tc main_v6) = X (Proc.devRef .tc main_v6) := by
  after_results
theorem s1_arg4 : StableHlo.after (hostOps1 (F := Ideal)) X (Proc.devRef .tc main_arg4) = X (Proc.devRef .tc main_arg4) := by
  after_results
theorem s1_arg5 : StableHlo.after (hostOps1 (F := Ideal)) X (Proc.devRef .tc main_arg5) = X (Proc.devRef .tc main_arg5) := by
  after_results
theorem s1_arg6 : StableHlo.after (hostOps1 (F := Ideal)) X (Proc.devRef .tc main_arg6) = X (Proc.devRef .tc main_arg6) := by
  after_results
theorem s1_arg7 : StableHlo.after (hostOps1 (F := Ideal)) X (Proc.devRef .tc main_arg7) = X (Proc.devRef .tc main_arg7) := by
  after_results
theorem s1_arg8 : StableHlo.after (hostOps1 (F := Ideal)) X (Proc.devRef .tc main_arg8) = X (Proc.devRef .tc main_arg8) := by
  after_results
theorem s1_arg9 : StableHlo.after (hostOps1 (F := Ideal)) X (Proc.devRef .tc main_arg9) = X (Proc.devRef .tc main_arg9) := by
  after_results

/-! ## Between the second layer's two regions -/

theorem s3_v39 : StableHlo.after (hostOps3 (F := Ideal)) X (Proc.devRef .tc main_v39)
    = KerVal.aggWith (X (Proc.devRef .tc main_v29)) (KerVal.rowIdxOf (X (Proc.devRef .tc main_v3))) (KerVal.colIdxOf (X (Proc.devRef .tc main_v6))) := by
  after_results; rfl
theorem s3_v40 : StableHlo.after (hostOps3 (F := Ideal)) X (Proc.devRef .tc main_v40) = KerVal.biasRow (X (Proc.devRef .tc main_arg5)) := by
  after_results; rfl
theorem s3_v15 : StableHlo.after (hostOps3 (F := Ideal)) X (Proc.devRef .tc main_v15) = X (Proc.devRef .tc main_v15) := by
  after_results
theorem s3_arg6 : StableHlo.after (hostOps3 (F := Ideal)) X (Proc.devRef .tc main_arg6) = X (Proc.devRef .tc main_arg6) := by
  after_results
theorem s3_arg7 : StableHlo.after (hostOps3 (F := Ideal)) X (Proc.devRef .tc main_arg7) = X (Proc.devRef .tc main_arg7) := by
  after_results
theorem s3_arg8 : StableHlo.after (hostOps3 (F := Ideal)) X (Proc.devRef .tc main_arg8) = X (Proc.devRef .tc main_arg8) := by
  after_results
theorem s3_arg9 : StableHlo.after (hostOps3 (F := Ideal)) X (Proc.devRef .tc main_arg9) = X (Proc.devRef .tc main_arg9) := by
  after_results

/-! ## Before the projection: its two biases as rows -/

theorem s4_v42 : StableHlo.after (hostOps4 (F := Ideal)) X (Proc.devRef .tc main_v42) = KerVal.biasRow (X (Proc.devRef .tc main_arg7)) := by
  after_results; rfl
theorem s4_v43 : StableHlo.after (hostOps4 (F := Ideal)) X (Proc.devRef .tc main_v43) = KerVal.biasRow64 (X (Proc.devRef .tc main_arg9)) := by
  after_results; rfl
theorem s4_v41 : StableHlo.after (hostOps4 (F := Ideal)) X (Proc.devRef .tc main_v41) = X (Proc.devRef .tc main_v41) := by
  after_results
theorem s4_arg6 : StableHlo.after (hostOps4 (F := Ideal)) X (Proc.devRef .tc main_arg6) = X (Proc.devRef .tc main_arg6) := by
  after_results
theorem s4_arg8 : StableHlo.after (hostOps4 (F := Ideal)) X (Proc.devRef .tc main_arg8) = X (Proc.devRef .tc main_arg8) := by
  after_results

end Cert.KernelIdeal.KerHost

end
-- ==== Proof.KerRegions.lean ====
/-
  The kernel's first four tiled regions as whole-array functions.

  Each region walks twenty blocks of 5000 rows. At a block it reads the matching rows of its row-wise operands and
  the whole of its small operand (a weight matrix or a bias row), computes one function row by row, and writes the
  rows back. Because that function of row `r` depends only on row `r` of the row-wise operands, the twenty
  write-backs together leave ONE function of the arrays the region found: `Spec.pre` for the two scaled linear
  maps, `Spec.postRelu` and `Spec.post` for the two scale-and-shift steps. First the stored value at an index
  (a contraction into a zero accumulator, format changes being the identity over the extended reals, times or plus
  broadcast rows and columns), then, per region, the block reads, the write-back at a point, the cover of the array
  by the blocks, and the array after the region.
-/
import proofs.«152069_j90555090468876_2_alg».proof.Proof.Gen.KernelIdeal.Frame
import proofs.«152069_j90555090468876_2_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.KerRegions

open Cert.KernelIdeal Cert.KernelIdeal.Gen Idealize.ShloMosaic Idealize.ShloMosaic.TcCoe Idealize.ShloMosaic.ValueIdx Idealize.SL.Sem
open Idealize.ShloMosaic.Pipeline (Dat)

/-- A one-column array broadcast along the columns reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The contraction's operand indices, axis by axis: the left operand is read at (output row, contraction position), -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right one at (contraction position, output column). -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product of a row block by the transposed weight block, accumulated into zero, at `(p, j)`:
    `∑ₖ x[p, k] · w[j, k]`. -/
theorem matmulT_at (x : FVec Ideal S5000x128 .bf16) (w : FVec Ideal S128x128 .bf16) (p : Fin 5000) (j : Fin 128) :
    matmul dot_S5000x128_S128x128_S5000x128_1_0_0_1_n_n none x
        (transpose S128x128 [1, 0] w transposes_S128x128_p1_0_S128x128) (constant S5000x128 .f32 0x00000000#32) (ix2 p j)
      = ∑ k : Fin 128, x (ix2 p k) * w (ix2 j k) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j)
      ((contrEquiv1 dot_S5000x128_S128x128_S5000x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S5000x128_S128x128_S5000x128_1_0_0_1_n_n.rhsIdx (ix2 p j)
      ((contrEquiv1 dot_S5000x128_S128x128_S5000x128_1_0_0_1_n_n 128 rfl rfl).symm k) = ix2 k j :=
    funext fun a => Fin.ext (by
      match a with
      | ⟨0, _⟩ => exact (rhs_0 _ _).trans hk
      | ⟨1, _⟩ => exact rhs_1 _ _)
  rw [el, er, transpose_ix2_apply]

/-- Region 0's stored value at `(p, j)`: the row's linear image, scaled by the row's factor. -/
theorem k0_pay1_at (x0 : Vec Ideal S5000x128 .f32) (x1 : Vec Ideal S128x128 .f32) (x2 : Vec Ideal S5000x1 .f32)
    (p : Fin 5000) (j : Fin 128) :
    Gen.k0_pay1 (F := Ideal) x0 x1 x2 (ix2 p j)
      = Cert.Spec.preRow (fun k => x0 (ix2 p k)) x1 (x2 (ix2 p (0 : Fin 1))) j := by
  unfold Gen.k0_pay1
  show matmul dot_S5000x128_S128x128_S5000x128_1_0_0_1_n_n none _ _ _ (ix2 p j) * broadcastTo S5000x128 _ _ (ix2 p j) = _
  rw [matmulT_at, shapeCast_self, shapeCast_self, broadcastTo_a1_ab_apply]
  rfl

/-- Region 2's stored value at `(p, j)`: the same function of its blocks. -/
theorem k2_pay1_at (x0 : Vec Ideal S5000x128 .f32) (x1 : Vec Ideal S128x128 .f32) (x2 : Vec Ideal S5000x1 .f32)
    (p : Fin 5000) (j : Fin 128) :
    Gen.k2_pay1 (F := Ideal) x0 x1 x2 (ix2 p j)
      = Cert.Spec.preRow (fun k => x0 (ix2 p k)) x1 (x2 (ix2 p (0 : Fin 1))) j := by
  unfold Gen.k2_pay1
  show matmul dot_S5000x128_S128x128_S5000x128_1_0_0_1_n_n none _ _ _ (ix2 p j) * broadcastTo S5000x128 _ _ (ix2 p j) = _
  rw [matmulT_at, shapeCast_self, shapeCast_self, shapeCast_self, broadcastTo_a1_ab_apply]
  rfl

/-- Region 1's stored value at `(p, j)`: the aggregated entry scaled by the row's factor, plus the bias entry,
    clipped below at zero. -/
theorem k1_pay1_at (x0 : Vec Ideal S5000x1 .f32) (x1 : Vec Ideal S1x128 .f32) (x2 : Vec Ideal S5000x128 .f32)
    (p : Fin 5000) (j : Fin 128) :
    Gen.k1_pay1 (F := Ideal) x0 x1 x2 (ix2 p j)
      = Cert.Spec.postReluRow (x2 (ix2 p j)) (x0 (ix2 p (0 : Fin 1))) (x1 (ix2 (0 : Fin 1) j)) := by
  unfold Gen.k1_pay1
  show max (shapeCast S5000x128 x2 _ (ix2 p j) * broadcastTo S5000x128 _ _ (ix2 p j) + broadcastTo S5000x128 _ _ (ix2 p j))
      (Ideal.ofBits .f32 0x00000000#32) = _
  rw [shapeCast_self, shapeCast_self, shapeCast_self, shapeCast_self, shapeCast_self, broadcastTo_a1_ab_apply,
    broadcastTo_1b_ab_apply, Ideal.ofBits_zero_f32]
  rfl

/-- Region 3's stored value at `(p, j)`: the same without the clipping. -/
theorem k3_pay1_at (x0 : Vec Ideal S5000x1 .f32) (x1 : Vec Ideal S1x128 .f32) (x2 : Vec Ideal S5000x128 .f32)
    (p : Fin 5000) (j : Fin 128) :
    Gen.k3_pay1 (F := Ideal) x0 x1 x2 (ix2 p j)
      = Cert.Spec.postRow (x2 (ix2 p j)) (x0 (ix2 p (0 : Fin 1))) (x1 (ix2 (0 : Fin 1) j)) := by
  unfold Gen.k3_pay1
  show shapeCast S5000x128 x2 _ (ix2 p j) * broadcastTo S5000x128 _ _ (ix2 p j) + broadcastTo S5000x128 _ _ (ix2 p j) = _
  rw [shapeCast_self, shapeCast_self, shapeCast_self, shapeCast_self, shapeCast_self, broadcastTo_a1_ab_apply,
    broadcastTo_1b_ab_apply]
  rfl

section Regions
variable (V : (c : Dev nD) → (b : Ref sig .tc) → Buf (Elt Ideal) ((c : Thread nD τ).loc b))

theorem hz : (![0, 0] : Fin 2 → Nat) = fun _ => 0 := funext fun a => by fin_cases a <;> rfl

/-! ## Region 0: the first layer's scaled linear map -/

/-- The printed index maps over the grid: the row windows are at block `(t, 0)`, the weight window at `(0, 0)`. -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)

/-- The stored block, on blocks that are rows `5000 b …` of `Z` and of `S` and all of `W`, is the block of
    `Spec.pre Z W S` at those rows. -/
theorem pre_of_blocks0 (Z : Cert.Spec.Arr2 100000 128) (W : Cert.Spec.Arr2 128 128) (S : Cert.Spec.Arr2 100000 1)
    (x0 : Vec Ideal S5000x128 .f32) (x1 : Vec Ideal S128x128 .f32) (x2 : Vec Ideal S5000x1 .f32) (b : Nat)
    (h0 : ∀ (y : S5000x128.Idx) (i : S100000x128.Idx), (i 0).val = b * 5000 + (y 0).val → (i 1).val = (y 1).val → x0 y = Z i)
    (h1 : x1 = W)
    (h2 : ∀ (y : S5000x1.Idx) (i : S100000x1.Idx), (i 0).val = b * 5000 + (y 0).val → x2 y = S i)
    (y : S5000x128.Idx) (i : S100000x128.Idx) (hi0 : (i 0).val = b * 5000 + (y 0).val) (hi1 : (i 1).val = (y 1).val) :
    Gen.k0_pay1 (F := Ideal) x0 x1 x2 y = Cert.Spec.pre Z W S i := by
  obtain ⟨p, j, rfl⟩ : ∃ (p : Fin 5000) (j : Fin 128), y = ix2 p j := ⟨y 0, y 1, eq_ix2 y⟩
  obtain ⟨r, j', rfl⟩ : ∃ (r : Fin 100000) (j' : Fin 128), i = ix2 r j' := ⟨i 0, i 1, eq_ix2 i⟩
  obtain rfl : j' = j := Fin.ext hi1
  rw [k0_pay1_at, Cert.Spec.pre_ix2]
  have e0 : (fun k => x0 (ix2 p k)) = fun k => Z (ix2 r k) := funext fun k => h0 _ _ hi0 rfl
  have e2 : x2 (ix2 p (0 : Fin 1)) = S (ix2 r (0 : Fin 1)) := h2 _ _ hi0
  rw [e0, e2, h1]

/-- Window 0's block at point `t` is rows `5000 t …` of the feature array. -/
theorem iblk0_0_read (c : Dev nD) (t : Fin cfg0.N) (y : S5000x128.Idx) (i : S100000x128.Idx)
    (hi0 : (i 0).val = t.val * 5000 + (y 0).val) (hi1 : (i 1).val = (y 1).val) :
    (iblk0 V c 0 t : Vec Ideal S5000x128 .f32) y = (V c main_arg0 : Cert.Spec.Arr2 100000 128) i := by
  obtain ⟨e0, e1⟩ := idx0_0 t
  show V c main_arg0 (((cfg0.win 0).blk t).view.emb y) = V c main_arg0 i
  refine congrArg _ (funext fun a => Fin.ext ?_)
  match a with
  | ⟨0, _⟩ => show win0_0.index t (0 : Fin 2) * 5000 + 1 * (y 0).val = (i 0).val; rw [e0, hi0]; omega
  | ⟨1, _⟩ => show win0_0.index t (1 : Fin 2) * 128 + 1 * (y 1).val = (i 1).val; rw [e1, hi1]; omega

/-- Window 1's block at every point is the whole of the weight array. -/
theorem iblk0_1_read (c : Dev nD) (t : Fin cfg0.N) :
    (iblk0 V c 1 t : Vec Ideal S128x128 .f32) = (V c main_arg2 : Cert.Spec.Arr2 128 128) := by
  obtain ⟨e0, e1⟩ := idx0_1 t
  funext y
  show V c main_arg2 (((cfg0.win 1).blk t).view.emb y) = V c main_arg2 y
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- Window 2's block at point `t` is rows `5000 t …` of the scale column. -/
theorem iblk0_2_read (c : Dev nD) (t : Fin cfg0.N) (y : S5000x1.Idx) (i : S100000x1.Idx)
    (hi0 : (i 0).val = t.val * 5000 + (y 0).val) :
    (iblk0 V c 2 t : Vec Ideal S5000x1 .f32) y = (V c main_v15 : Cert.Spec.Arr2 100000 1) i := by
  obtain ⟨e0, e1⟩ := idx0_2 t
  show V c main_v15 (((cfg0.win 2).blk t).view.emb y) = V c main_v15 i
  refine congrArg _ (funext fun a => Fin.ext ?_)
  match a with
  | ⟨0, _⟩ => show win0_2.index t (0 : Fin 2) * 5000 + 1 * (y 0).val = (i 0).val; rw [e0, hi0]; omega
  | ⟨1, _⟩ =>
    show win0_2.index t (1 : Fin 2) * 1 + 1 * (y 1).val = (i 1).val
    have h1 : (y 1).val < 1 := (y 1).isLt
    have h2 : (i 1).val < 1 := (i 1).isLt
    rw [e1]; omega

/-- What point `t` writes back is block `t` of `Spec.pre` of the arrays the region found. -/
theorem flushed0_eq (c : Dev nD) (t : Fin cfg0.N) :
    (dat0 V c).flushed 3 t = ((cfg0.win 3).blk t).view.read (Elt Ideal)
      (Cert.Spec.pre (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e0, e1⟩ := idx0_3 t
  funext y
  show Gen.k0_pay1 (F := Ideal) (iblk0 V c 0 t) (iblk0 V c 1 t) (iblk0 V c 2 t) ((cfg0.win 3).xinj (grid0.coords t) y)
    = Cert.Spec.pre (V c main_arg0) (V c main_arg2) (V c main_v15) (((cfg0.win 3).blk t).view.emb y)
  refine pre_of_blocks0 _ _ _ _ _ _ t.val (fun y i h0 h1 => iblk0_0_read V c t y i h0 h1) (iblk0_1_read V c t)
    (fun y i h0 => iblk0_2_read V c t y i h0) _ _ ?_ ?_
  · show win0_3.index t (0 : Fin 2) * 5000 + 1 * (y 0).val = t.val * 5000 + (y 0).val; rw [e0]; omega
  · show win0_3.index t (1 : Fin 2) * 128 + 1 * (y 1).val = (y 1).val; rw [e1]; omega

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Row `r` is in the block of point `r / 5000`: the twenty blocks of 5000 rows tile the array. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨e0, e1⟩ := idx0_3 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e1]; omega

/-- The array after region 0: `Spec.pre` of the arrays the region found. -/
theorem arr0 (c : Dev nD) : (Gen.dat0 (F := Ideal) V c).arrAt 3 cfg0.N
    = Cert.Spec.pre (V c main_arg0) (V c main_arg2) (V c main_v15) :=
  (dat0 V c).arrAt_eq_of_cover 3 _ (fun t _ => flushed0_eq V c t) cover0

/-! ## Region 1: the first layer's scale, shift and clip -/

/-- The printed index maps over the grid: the row windows are at block `(t, 0)`, the bias window at `(0, 0)`. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)

/-- The stored block, on blocks that are rows `5000 b …` of `A` and of `S` and all of `B`, is the block of
    `Spec.postRelu A S B` at those rows. -/
theorem postRelu_of_blocks1 (A : Cert.Spec.Arr2 100000 128) (S : Cert.Spec.Arr2 100000 1) (B : Cert.Spec.Arr2 1 128)
    (x0 : Vec Ideal S5000x1 .f32) (x1 : Vec Ideal S1x128 .f32) (x2 : Vec Ideal S5000x128 .f32) (b : Nat)
    (h0 : ∀ (y : S5000x1.Idx) (i : S100000x1.Idx), (i 0).val = b * 5000 + (y 0).val → x0 y = S i)
    (h1 : x1 = B)
    (h2 : ∀ (y : S5000x128.Idx) (i : S100000x128.Idx), (i 0).val = b * 5000 + (y 0).val → (i 1).val = (y 1).val → x2 y = A i)
    (y : S5000x128.Idx) (i : S100000x128.Idx) (hi0 : (i 0).val = b * 5000 + (y 0).val) (hi1 : (i 1).val = (y 1).val) :
    Gen.k1_pay1 (F := Ideal) x0 x1 x2 y = Cert.Spec.postRelu A S B i := by
  obtain ⟨p, j, rfl⟩ : ∃ (p : Fin 5000) (j : Fin 128), y = ix2 p j := ⟨y 0, y 1, eq_ix2 y⟩
  obtain ⟨r, j', rfl⟩ : ∃ (r : Fin 100000) (j' : Fin 128), i = ix2 r j' := ⟨i 0, i 1, eq_ix2 i⟩
  obtain rfl : j' = j := Fin.ext hi1
  rw [k1_pay1_at, Cert.Spec.postRelu_ix2, h2 (ix2 p j') (ix2 r j') hi0 rfl, h0 (ix2 p (0 : Fin 1)) (ix2 r (0 : Fin 1)) hi0, h1]

/-- Window 0's block at point `t` is rows `5000 t …` of the aggregated array. -/
theorem iblk1_0_read (c : Dev nD) (t : Fin cfg1.N) (y : S5000x128.Idx) (i : S100000x128.Idx)
    (hi0 : (i 0).val = t.val * 5000 + (y 0).val) (hi1 : (i 1).val = (y 1).val) :
    (iblk1 V c 0 t : Vec Ideal S5000x128 .f32) y = (V c main_v26 : Cert.Spec.Arr2 100000 128) i := by
  obtain ⟨e0, e1⟩ := idx1_0 t
  show V c main_v26 (((cfg1.win 0).blk t).view.emb y) = V c main_v26 i
  refine congrArg _ (funext fun a => Fin.ext ?_)
  match a with
  | ⟨0, _⟩ => show win1_0.index t (0 : Fin 2) * 5000 + 1 * (y 0).val = (i 0).val; rw [e0, hi0]; omega
  | ⟨1, _⟩ => show win1_0.index t (1 : Fin 2) * 128 + 1 * (y 1).val = (i 1).val; rw [e1, hi1]; omega

/-- Window 1's block at point `t` is rows `5000 t …` of the scale column. -/
theorem iblk1_1_read (c : Dev nD) (t : Fin cfg1.N) (y : S5000x1.Idx) (i : S100000x1.Idx)
    (hi0 : (i 0).val = t.val * 5000 + (y 0).val) :
    (iblk1 V c 1 t : Vec Ideal S5000x1 .f32) y = (V c main_v15 : Cert.Spec.Arr2 100000 1) i := by
  obtain ⟨e0, e1⟩ := idx1_1 t
  show V c main_v15 (((cfg1.win 1).blk t).view.emb y) = V c main_v15 i
  refine congrArg _ (funext fun a => Fin.ext ?_)
  match a with
  | ⟨0, _⟩ => show win1_1.index t (0 : Fin 2) * 5000 + 1 * (y 0).val = (i 0).val; rw [e0, hi0]; omega
  | ⟨1, _⟩ =>
    show win1_1.index t (1 : Fin 2) * 1 + 1 * (y 1).val = (i 1).val
    have h1 : (y 1).val < 1 := (y 1).isLt
    have h2 : (i 1).val < 1 := (i 1).isLt
    rw [e1]; omega

/-- Window 2's block at every point is the whole of the bias row. -/
theorem iblk1_2_read (c : Dev nD) (t : Fin cfg1.N) :
    (iblk1 V c 2 t : Vec Ideal S1x128 .f32) = (V c main_v27 : Cert.Spec.Arr2 1 128) := by
  obtain ⟨e0, e1⟩ := idx1_2 t
  funext y
  show V c main_v27 (((cfg1.win 2).blk t).view.emb y) = V c main_v27 y
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- What point `t` writes back is block `t` of `Spec.postRelu` of the arrays the region found. -/
theorem flushed1_eq (c : Dev nD) (t : Fin cfg1.N) :
    (dat1 V c).flushed 3 t = ((cfg1.win 3).blk t).view.read (Elt Ideal)
      (Cert.Spec.postRelu (V c main_v26) (V c main_v15) (V c main_v27)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S5000x1) hz]
  obtain ⟨e0, e1⟩ := idx1_3 t
  funext y
  show Gen.k1_pay1 (F := Ideal) (iblk1 V c 1 t) (iblk1 V c 2 t) (iblk1 V c 0 t) ((cfg1.win 3).xinj (grid1.coords t) y)
    = Cert.Spec.postRelu (V c main_v26) (V c main_v15) (V c main_v27) (((cfg1.win 3).blk t).view.emb y)
  refine postRelu_of_blocks1 _ _ _ _ _ _ t.val (fun y i h0 => iblk1_1_read V c t y i h0) (iblk1_2_read V c t)
    (fun y i h0 h1 => iblk1_0_read V c t y i h0 h1) _ _ ?_ ?_
  · show win1_3.index t (0 : Fin 2) * 5000 + 1 * (y 0).val = t.val * 5000 + (y 0).val; rw [e0]; omega
  · show win1_3.index t (1 : Fin 2) * 128 + 1 * (y 1).val = (y 1).val; rw [e1]; omega

/-- An index of the array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v28).slice (win1_3.rect t)).set ↔ _
  rw [View.set_slice_whole, Rect.mem_set_unit]
  exact Iff.rfl

/-- Row `r` is in the block of point `r / 5000`: the twenty blocks of 5000 rows tile the array. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨e0, e1⟩ := idx1_3 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e1]; omega

/-- The array after region 1: `Spec.postRelu` of the arrays the region found. -/
theorem arr1 (c : Dev nD) : (Gen.dat1 (F := Ideal) V c).arrAt 3 cfg1.N
    = Cert.Spec.postRelu (V c main_v26) (V c main_v15) (V c main_v27) :=
  (dat1 V c).arrAt_eq_of_cover 3 _ (fun t _ => flushed1_eq V c t) cover1

/-! ## Region 2: the second layer's scaled linear map -/

/-- The printed index maps over the grid: the row windows are at block `(t, 0)`, the weight window at `(0, 0)`. -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = t.val ∧ win2_3.index t (1 : Fin 2) = 0 :=
  (by decide +kernel : ∀ t : Fin grid2.N, _)

/-- The stored block, on blocks that are rows `5000 b …` of `Z` and of `S` and all of `W`, is the block of
    `Spec.pre Z W S` at those rows. -/
theorem pre_of_blocks2 (Z : Cert.Spec.Arr2 100000 128) (W : Cert.Spec.Arr2 128 128) (S : Cert.Spec.Arr2 100000 1)
    (x0 : Vec Ideal S5000x128 .f32) (x1 : Vec Ideal S128x128 .f32) (x2 : Vec Ideal S5000x1 .f32) (b : Nat)
    (h0 : ∀ (y : S5000x128.Idx) (i : S100000x128.Idx), (i 0).val = b * 5000 + (y 0).val → (i 1).val = (y 1).val → x0 y = Z i)
    (h1 : x1 = W)
    (h2 : ∀ (y : S5000x1.Idx) (i : S100000x1.Idx), (i 0).val = b * 5000 + (y 0).val → x2 y = S i)
    (y : S5000x128.Idx) (i : S100000x128.Idx) (hi0 : (i 0).val = b * 5000 + (y 0).val) (hi1 : (i 1).val = (y 1).val) :
    Gen.k2_pay1 (F := Ideal) x0 x1 x2 y = Cert.Spec.pre Z W S i := by
  obtain ⟨p, j, rfl⟩ : ∃ (p : Fin 5000) (j : Fin 128), y = ix2 p j := ⟨y 0, y 1, eq_ix2 y⟩
  obtain ⟨r, j', rfl⟩ : ∃ (r : Fin 100000) (j' : Fin 128), i = ix2 r j' := ⟨i 0, i 1, eq_ix2 i⟩
  obtain rfl : j' = j := Fin.ext hi1
  rw [k2_pay1_at, Cert.Spec.pre_ix2]
  have e0 : (fun k => x0 (ix2 p k)) = fun k => Z (ix2 r k) := funext fun k => h0 _ _ hi0 rfl
  have e2 : x2 (ix2 p (0 : Fin 1)) = S (ix2 r (0 : Fin 1)) := h2 _ _ hi0
  rw [e0, e2, h1]

/-- Window 0's block at point `t` is rows `5000 t …` of the feature array. -/
theorem iblk2_0_read (c : Dev nD) (t : Fin cfg2.N) (y : S5000x128.Idx) (i : S100000x128.Idx)
    (hi0 : (i 0).val = t.val * 5000 + (y 0).val) (hi1 : (i 1).val = (y 1).val) :
    (iblk2 V c 0 t : Vec Ideal S5000x128 .f32) y = (V c main_v28 : Cert.Spec.Arr2 100000 128) i := by
  obtain ⟨e0, e1⟩ := idx2_0 t
  show V c main_v28 (((cfg2.win 0).blk t).view.emb y) = V c main_v28 i
  refine congrArg _ (funext fun a => Fin.ext ?_)
  match a with
  | ⟨0, _⟩ => show win2_0.index t (0 : Fin 2) * 5000 + 1 * (y 0).val = (i 0).val; rw [e0, hi0]; omega
  | ⟨1, _⟩ => show win2_0.index t (1 : Fin 2) * 128 + 1 * (y 1).val = (i 1).val; rw [e1, hi1]; omega

/-- Window 1's block at every point is the whole of the weight array. -/
theorem iblk2_1_read (c : Dev nD) (t : Fin cfg2.N) :
    (iblk2 V c 1 t : Vec Ideal S128x128 .f32) = (V c main_arg4 : Cert.Spec.Arr2 128 128) := by
  obtain ⟨e0, e1⟩ := idx2_1 t
  funext y
  show V c main_arg4 (((cfg2.win 1).blk t).view.emb y) = V c main_arg4 y
  refine congrArg _ (funext fun a => Fin.ext ?_)
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- Window 2's block at point `t` is rows `5000 t …` of the scale column. -/
theorem iblk2_2_read (c : Dev nD) (t : Fin cfg2.N) (y : S5000x1.Idx) (i : S100000x1.Idx)
    (hi0 : (i 0).val = t.val * 5000 + (y 0).val) :
    (iblk2 V c 2 t : Vec Ideal S5000x1 .f32) y = (V c main_v15 : Cert.Spec.Arr2 100000 1) i := by
  obtain ⟨e0, e1⟩ := idx2_2 t
  show V c main_v15 (((cfg2.win 2).blk t).view.emb y) = V c main_v15 i
  refine congrArg _ (funext fun a => Fin.ext ?_)
  match a with
  | ⟨0, _⟩ => show win2_2.index t (0 : Fin 2) * 5000 + 1 * (y 0).val = (i 0).val; rw [e0, hi0]; omega
  | ⟨1, _⟩ =>
    show win2_2.index t (1 : Fin 2) * 1 + 1 * (y 1).val = (i 1).val
    have h1 : (y 1).val < 1 := (y 1).isLt
    have h2 : (i 1).val < 1 := (i 1).isLt
    rw [e1]; omega

/-- What point `t` writes back is block `t` of `Spec.pre` of the arrays the region found. -/
theorem flushed2_eq (c : Dev nD) (t : Fin cfg2.N) :
    (dat2 V c).flushed 3 t = ((cfg2.win 3).blk t).view.read (Elt Ideal)
      (Cert.Spec.pre (V c main_v28) (V c main_arg4) (V c main_v15)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S5000x1) hz]
  obtain ⟨e0, e1⟩ := idx2_3 t
  funext y
  show Gen.k2_pay1 (F := Ideal) (iblk2 V c 0 t) (iblk2 V c 1 t) (iblk2 V c 2 t) ((cfg2.win 3).xinj (grid2.coords t) y)
    = Cert.Spec.pre (V c main_v28) (V c main_arg4) (V c main_v15) (((cfg2.win 3).blk t).view.emb y)
  refine pre_of_blocks2 _ _ _ _ _ _ t.val (fun y i h0 h1 => iblk2_0_read V c t y i h0 h1) (iblk2_1_read V c t)
    (fun y i h0 => iblk2_2_read V c t y i h0) _ _ ?_ ?_
  · show win2_3.index t (0 : Fin 2) * 5000 + 1 * (y 0).val = t.val * 5000 + (y 0).val; rw [e0]; omega
  · show win2_3.index t (1 : Fin 2) * 128 + 1 * (y 1).val = (y 1).val; rw [e1]; omega

/-- An index of the array is in point `t`'s block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v29).slice (win2_3.rect t)).set ↔ _
  rw [View.set_slice_whole, Rect.mem_set_unit]
  exact Iff.rfl

/-- Row `r` is in the block of point `r / 5000`: the twenty blocks of 5000 rows tile the array. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨e0, e1⟩ := idx2_3 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    rw [e1]; omega

/-- The array after region 2: `Spec.pre` of the arrays the region found. -/
theorem arr2 (c : Dev nD) : (Gen.dat2 (F := Ideal) V c).arrAt 3 cfg2.N
    = Cert.Spec.pre (V c main_v28) (V c main_arg4) (V c main_v15) :=
  (dat2 V c).arrAt_eq_of_cover 3 _ (fun t _ => flushed2_eq V c t) cover2

/-! ## Region 3: the second layer's scale and shift -/

/-- The printed index maps over the grid: the row windows are at block `(t, 0)`, the bias window at `(0, 0)`. -/
theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = t.val ∧ win3_3.index t (1 : Fin 2) = 0 :=
  (by decide +kernel : ∀ t : Fin grid3.N, _)

/-- The stored block, on blocks that are rows `5000 b …` of `A` and of `S` and all of `B`, is the block of
    `Spec.post A S B` at those rows. -/
theorem post_of_blocks3 (A : Cert.Spec.Arr2 100000 128) (S : Cert.Spec.Arr2 100000 1) (B : Cert.Spec.Arr2 1 128)
    (x0 : Vec Ideal S5000x1 .f32) (x1 : Vec Ideal S1x128 .f32) (x2 : Vec Ideal S5000x128 .f32) (b : Nat)
    (h0 : ∀ (y : S5000x1.Idx) (i : S100000x1.Idx), (i 0).val = b * 5000 + (y 0).val → x0 y = S i)
    (h1 : x1 = B)
    (h2 : ∀ (y : S5000x128.Idx) (i : S100000x128.Idx), (i 0).val = b * 5000 + (y 0).val → (i 1).val = (y 1).val → x2 y = A i)
    (y : S5000x128.Idx) (i : S100000x128.Idx) (hi0 : (i 0).val = b * 5000 + (y 0).val) (hi1 : (i 1).val = (y 1).val) :
    Gen.k3_pay1 (F := Ideal) x0 x1 x2 y = Cert.Spec.post A S B i := by
  obtain ⟨p, j, rfl⟩ : ∃ (p : Fin 5000) (j : Fin 128), y = ix2 p j := ⟨y 0, y 1, eq_ix2 y⟩
  obtain ⟨r, j', rfl⟩ : ∃ (r : Fin 100000) (j' : Fin 128), i = ix2 r j' := ⟨i 0, i 1, eq_ix2 i⟩
  obtain rfl : j' = j := Fin.ext hi1
  rw [k3_pay1_at, Cert.Spec.post_ix2, h2 (ix2 p j') (ix2 r j') hi0 rfl, h0 (ix2 p (0 : Fin 1)) (ix2 r (0 : Fin 1)) hi0, h1]

/-- Window 0's block at point `t` is rows `5000 t …` of the aggregated array. -/
theorem iblk3_0_read (c : Dev nD) (t : Fin cfg3.N) (y : S5000x128.Idx) (i : S100000x128.Idx)
    (hi0 : (i 0).val = t.val * 5000 + (y 0).val) (hi1 : (i 1).val = (y 1).val) :
    (iblk3 V c 0 t : Vec Ideal S5000x128 .f32) y = (V c main_v39 : Cert.Spec.Arr2 100000 128) i := by
  obtain ⟨e0, e1⟩ := idx3_0 t
  show V c main_v39 (((cfg3.win 0).blk t).view.emb y) = V c main_v39 i
  refine congrArg _ (funext fun a => Fin.ext ?_)
  match a with
  | ⟨0, _⟩ => show win3_0.index t (0 : Fin 2) * 5000 + 1 * (y 0).val = (i 0).val; rw [e0, hi0]; omega
  | ⟨1, _⟩ => show win3_0.index t (1 : Fin 2) * 128 + 1 * (y 1).val = (i 1).val; rw [e1, hi1]; omega

/-- Window 1's block at point `t` is rows `5000 t …` of the scale column. -/
theorem iblk3_1_read (c : Dev nD) (t : Fin cfg3.N) (y : S5000x1.Idx) (i : S100000x1.Idx)
    (hi0 : (i 0).val = t.val * 5000 + (y 0).val) :
    (iblk3 V c 1 t : Vec Ideal S5000x1 .f32) y = (V c main_v15 : Cert.Spec.Arr2 100000 1) i := by
  obtain ⟨e0, e1⟩ := idx3_1 t
  show V c main_v15 (((cfg3.win 1).blk t).view.emb y) = V c main_v15 i
  refine congrArg _ (funext fun a => Fin.ext ?_)
  match a with
  | ⟨0, _⟩ => show win3_1.index t (0 : Fin 2) * 5000 + 1 * (y 0).val = (i 0).val; rw [e0, hi0]; omega
  | ⟨1, _⟩ =>
    show win3_1.index t (1 : Fin 2) * 1 + 1 * (y 1).val = (i 1).val
    have h1 : (y 1).val < 1 := (y 1).isLt
    have h2 : (i 1).val < 1 := (i 1).isLt
    rw [e1]; omega

/-- Window 2's block at every point is the whole of the bias row. -/
theorem iblk3_2_read (c : Dev nD) (t : Fin cfg3.N) :
    (iblk3 V c 2 t : Vec Ideal S1x128 .f32) = (V c main_v40 : Cert.Spec.Arr2 1 128) := by
  obtain ⟨e0, e1⟩ := idx3_2 t
  funext y
  show V c main_v40 (((cfg3.win 2).blk t).view.emb y) = V c main_v40 y
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- What point `t` writes back is block `t` of `Spec.post` of the arrays the region found. -/
theorem flushed3_eq (c : Dev nD) (t : Fin cfg3.N) :
    (dat3 V c).flushed 3 t = ((cfg3.win 3).blk t).view.read (Elt Ideal)
      (Cert.Spec.post (V c main_v39) (V c main_v15) (V c main_v40)) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz, View.ld_unit_zero (S := S5000x1) hz]
  obtain ⟨e0, e1⟩ := idx3_3 t
  funext y
  show Gen.k3_pay1 (F := Ideal) (iblk3 V c 1 t) (iblk3 V c 2 t) (iblk3 V c 0 t) ((cfg3.win 3).xinj (grid3.coords t) y)
    = Cert.Spec.post (V c main_v39) (V c main_v15) (V c main_v40) (((cfg3.win 3).blk t).view.emb y)
  refine post_of_blocks3 _ _ _ _ _ _ t.val (fun y i h0 => iblk3_1_read V c t y i h0) (iblk3_2_read V c t)
    (fun y i h0 h1 => iblk3_0_read V c t y i h0 h1) _ _ ?_ ?_
  · show win3_3.index t (0 : Fin 2) * 5000 + 1 * (y 0).val = t.val * 5000 + (y 0).val; rw [e0]; omega
  · show win3_3.index t (1 : Fin 2) * 128 + 1 * (y 1).val = (y 1).val; rw [e1]; omega

/-- An index of the array is in point `t`'s block iff each coordinate is in the block's range on its axis. -/
theorem mem_blk3 (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v41).slice (win3_3.rect t)).set ↔ _
  rw [View.set_slice_whole, Rect.mem_set_unit]
  exact Iff.rfl

/-- Row `r` is in the block of point `r / 5000`: the twenty blocks of 5000 rows tile the array. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨e0, e1⟩ := idx3_3 ⟨(i 0).val / 5000, ht⟩
  refine ⟨⟨(i 0).val / 5000, ht⟩, flush3_3 _, ?_⟩
  rw [mem_blk3]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    rw [e1]; omega

/-- The array after region 3: `Spec.post` of the arrays the region found. -/
theorem arr3 (c : Dev nD) : (Gen.dat3 (F := Ideal) V c).arrAt 3 cfg3.N
    = Cert.Spec.post (V c main_v39) (V c main_v15) (V c main_v40) :=
  (dat3 V c).arrAt_eq_of_cover 3 _ (fun t _ => flushed3_eq V c t) cover3

end Regions

end Cert.KernelIdeal.KerRegions
end
-- ==== Proof.ProjKernel.lean ====
/-
  The projection kernel's stored value, read at one entry.

  The stored block is a composition of five maps on whole blocks: the first affine map (a contraction with the
  transposed first weight matrix, plus the first bias row broadcast down the rows), the exponential linear unit
  entry by entry, the second affine map, the subtraction of each row's maximum, and the subtraction of the
  logarithm of each row's sum of exponentials. Each map is read at an entry `(p, o)` in turn: a contraction as
  the sum over its one contracted coordinate, a transposed matrix at the swapped entry, a row's maximum as the
  fold of `max` from the bottom element, a row's sum as the sum over the row's 64 entries, and the column of
  row-wise results as constant along each row. Together they give the row-wise specification `projRow` of row
  `p` at entry `o`.
-/
import proofs.«152069_j90555090468876_2_alg».proof.Proof.Gen.KernelIdeal.Skeleton
import proofs.«152069_j90555090468876_2_alg».proof.Proof.SpecProj
import Idealize.ShloMosaic.Lib.ValueLayout
import Idealize.ShloMosaic.Lib.IdealHost
import Idealize.ShloMosaic.PureOps.Ideal.Laws

noncomputable section

open scoped BigOperators

namespace Cert.KernelIdeal.ProjKernel

open Idealize.ShloMosaic Idealize.ShloMosaic.ValueIdx Cert.KernelIdeal Cert.Spec Cert.SpecProj

/-! ## Two layout readings: a vector as a column, and a column broadcast along the rows -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two contractions read at an entry -/

/-- The first contraction's dimension numbers: rows of the left operand against rows of the right. -/
abbrev D1 : DotDims S5000x128 S128x128 S5000x128 := dot_S5000x128_S128x128_S5000x128_1_0_0_1_n_n
/-- The second contraction's dimension numbers. -/
abbrev D2 : DotDims S5000x128 S128x64 S5000x64 := dot_S5000x128_S128x64_S5000x64_1_0_0_1_n_n

theorem lhs1_0 (i : S5000x128.Idx) (q : D1.contr.Idx) : (D1.lhsIdx i q 0).val = (i 0).val := by
  unfold DotDims.lhsIdx
  rw [dif_neg (show ¬(0 : Fin S5000x128.rank) ∈ D1.lhsBatch by decide),
    dif_pos (show (0 : Fin S5000x128.rank) ∈ D1.lhsNonContracting by decide)]
  rfl
theorem lhs1_1 (i : S5000x128.Idx) (q : D1.contr.Idx) : (D1.lhsIdx i q 1).val = (q ⟨0, by decide⟩).val :=
  D1.lhsIdx_val_of_single rfl i q
theorem rhs1_0 (i : S5000x128.Idx) (q : D1.contr.Idx) : (D1.rhsIdx i q 0).val = (q ⟨0, by decide⟩).val :=
  D1.rhsIdx_val_of_single rfl i q
theorem rhs1_1 (i : S5000x128.Idx) (q : D1.contr.Idx) : (D1.rhsIdx i q 1).val = (i 1).val := by
  unfold DotDims.rhsIdx
  rw [dif_neg (show ¬(1 : Fin S128x128.rank) ∈ D1.rhsBatch by decide),
    dif_pos (show (1 : Fin S128x128.rank) ∈ D1.rhsNonContracting by decide)]
  rfl

/-- The first contraction into the zero block, at `(p, k)`: the sum over the contracted coordinate. -/
theorem mm1_at (lhs : FVec Ideal S5000x128 .bf16) (rhs : FVec Ideal S128x128 .bf16) (p : Fin 5000) (k : Fin 128) :
    matmul D1 none lhs rhs (constant S5000x128 .f32 0x00000000#32) (ix2 p k)
      = ∑ i : Fin 128, lhs (ix2 p i) * rhs (ix2 i k) := by
  show FloatOps.matmul D1 none lhs rhs (constant S5000x128 .f32 0x00000000#32) (ix2 p k) = _
  rw [Ideal.matmul_constant_zero_apply, ← Equiv.sum_comp (contrEquiv1 D1 128 rfl rfl).symm]
  refine Finset.sum_congr rfl fun i _ => ?_
  have hk := contrEquiv1_symm_val D1 128 rfl rfl i
  have el : D1.lhsIdx (ix2 p k) ((contrEquiv1 D1 128 rfl rfl).symm i) = ix2 p i := funext fun a => Fin.ext (by
    match a with
    | ⟨0, _⟩ => exact lhs1_0 _ _
    | ⟨1, _⟩ => exact (lhs1_1 _ _).trans hk)
  have er : D1.rhsIdx (ix2 p k) ((contrEquiv1 D1 128 rfl rfl).symm i) = ix2 i k := funext fun a => Fin.ext (by
    match a with
    | ⟨0, _⟩ => exact (rhs1_0 _ _).trans hk
    | ⟨1, _⟩ => exact rhs1_1 _ _)
  rw [el, er]

theorem lhs2_0 (i : S5000x64.Idx) (q : D2.contr.Idx) : (D2.lhsIdx i q 0).val = (i 0).val := by
  unfold DotDims.lhsIdx
  rw [dif_neg (show ¬(0 : Fin S5000x128.rank) ∈ D2.lhsBatch by decide),
    dif_pos (show (0 : Fin S5000x128.rank) ∈ D2.lhsNonContracting by decide)]
  rfl
theorem lhs2_1 (i : S5000x64.Idx) (q : D2.contr.Idx) : (D2.lhsIdx i q 1).val = (q ⟨0, by decide⟩).val :=
  D2.lhsIdx_val_of_single rfl i q
theorem rhs2_0 (i : S5000x64.Idx) (q : D2.contr.Idx) : (D2.rhsIdx i q 0).val = (q ⟨0, by decide⟩).val :=
  D2.rhsIdx_val_of_single rfl i q
theorem rhs2_1 (i : S5000x64.Idx) (q : D2.contr.Idx) : (D2.rhsIdx i q 1).val = (i 1).val := by
  unfold DotDims.rhsIdx
  rw [dif_neg (show ¬(1 : Fin S128x64.rank) ∈ D2.rhsBatch by decide),
    dif_pos (show (1 : Fin S128x64.rank) ∈ D2.rhsNonContracting by decide)]
  rfl

/-- The second contraction into the zero block, at `(p, o)`. -/
theorem mm2_at (lhs : FVec Ideal S5000x128 .bf16) (rhs : FVec Ideal S128x64 .bf16) (p : Fin 5000) (o : Fin 64) :
    matmul D2 none lhs rhs (constant S5000x64 .f32 0x00000000#32) (ix2 p o)
      = ∑ k : Fin 128, lhs (ix2 p k) * rhs (ix2 k o) := by
  show FloatOps.matmul D2 none lhs rhs (constant S5000x64 .f32 0x00000000#32) (ix2 p o) = _
  rw [Ideal.matmul_constant_zero_apply, ← Equiv.sum_comp (contrEquiv1 D2 128 rfl rfl).symm]
  refine Finset.sum_congr rfl fun k _ => ?_
  have hk := contrEquiv1_symm_val D2 128 rfl rfl k
  have el : D2.lhsIdx (ix2 p o) ((contrEquiv1 D2 128 rfl rfl).symm k) = ix2 p k := funext fun a => Fin.ext (by
    match a with
    | ⟨0, _⟩ => exact lhs2_0 _ _
    | ⟨1, _⟩ => exact (lhs2_1 _ _).trans hk)
  have er : D2.rhsIdx (ix2 p o) ((contrEquiv1 D2 128 rfl rfl).symm k) = ix2 k o := funext fun a => Fin.ext (by
    match a with
    | ⟨0, _⟩ => exact (rhs2_0 _ _).trans hk
    | ⟨1, _⟩ => exact rhs2_1 _ _)
  rw [el, er]

/-! ## The five maps on whole blocks -/

/-- The first affine map on a block of rows. -/
def kPre (x0 : FVec Ideal S5000x128 .f32) (x1 : FVec Ideal S128x128 .f32) (x2 : FVec Ideal S1x128 .f32) :
    FVec Ideal S5000x128 .f32 :=
  addf (matmul D1 none
      (truncf .bf16 (shapeCast S5000x128 x0 Facts₀.shapeCasts_S5000x128_S5000x128) Facts₀.bitsLt_bf16_f32)
      (transpose S128x128 [1, 0] (truncf .bf16 x1 Facts₀.bitsLt_bf16_f32) Facts₀.transposes_S128x128_p1_0_S128x128)
      (constant S5000x128 .f32 0x00000000#32))
    (broadcastTo S5000x128 (shapeCast S1x128 x2 Facts₀.shapeCasts_S1x128_S1x128) Facts₀.broadcasts_S1x128_S5000x128)

/-- The exponential linear unit on a block, entry by entry. -/
def kHid (a : FVec Ideal S5000x128 .f32) : FVec Ideal S5000x128 .f32 :=
  select (cmpf .ogt a (broadcast S5000x128 (Scalar.ofBits .f32 0x00000000#32))) a
    (subf (exp a) (broadcast S5000x128 (Scalar.ofBits .f32 0x3F800000#32)))

/-- The second affine map on a block of hidden rows. -/
def kLogit (h : FVec Ideal S5000x128 .f32) (x3 : FVec Ideal S64x128 .f32) (x4 : FVec Ideal S1x64 .f32) :
    FVec Ideal S5000x64 .f32 :=
  addf (matmul D2 none
      (truncf .bf16 h Facts₀.bitsLt_bf16_f32)
      (transpose S128x64 [1, 0] (truncf .bf16 x3 Facts₀.bitsLt_bf16_f32) Facts₀.transposes_S64x128_p1_0_S128x64)
      (constant S5000x64 .f32 0x00000000#32))
    (broadcastTo S5000x64 (shapeCast S1x64 x4 Facts₀.shapeCasts_S1x64_S1x64) Facts₀.broadcasts_S1x64_S5000x64)

/-- Each row minus its maximum. -/
def kShift (y : FVec Ideal S5000x64 .f32) : FVec Ideal S5000x64 .f32 :=
  subf y (broadcastTo S5000x64 (shapeCast S5000x1
    (multiReduction .maximumf [1] S5000 y 0xFF800000#32 Facts₀.reduces_S5000x64_S5000 (.inl rfl) rfl)
    Facts₀.shapeCasts_S5000_S5000x1) Facts₀.broadcasts_S5000x1_S5000x64)

/-- Each row minus the logarithm of the sum of its exponentials. -/
def kNorm (z : FVec Ideal S5000x64 .f32) : FVec Ideal S5000x64 .f32 :=
  subf z (broadcastTo S5000x64 (log (shapeCast S5000x1
    (multiReduction .add [1] S5000 (exp z) 0x00000000#32 Facts₀.reduces_S5000x64_S5000 (.inl rfl) rfl)
    Facts₀.shapeCasts_S5000_S5000x1)) Facts₀.broadcasts_S5000x1_S5000x64)

/-- The stored value is the composition of the five maps. -/
theorem k4_pay1_eq (x0 : Vec Ideal S5000x128 .f32) (x1 : Vec Ideal S128x128 .f32) (x2 : Vec Ideal S1x128 .f32)
    (x3 : Vec Ideal S64x128 .f32) (x4 : Vec Ideal S1x64 .f32) :
    Gen.k4_pay1 (F := Ideal) x0 x1 x2 x3 x4 = kNorm (kShift (kLogit (kHid (kPre x0 x1 x2)) x3 x4)) := rfl

/-! ## Each map read at an entry -/

theorem kPre_at (x0 : FVec Ideal S5000x128 .f32) (x1 : FVec Ideal S128x128 .f32) (x2 : FVec Ideal S1x128 .f32)
    (p : Fin 5000) (k : Fin 128) :
    kPre x0 x1 x2 (ix2 p k) = preact (fun i => x0 (ix2 p i)) x1 x2 k := by
  unfold kPre preact
  rw [addf_apply, mm1_at, broadcastTo_1b_ab_apply, shapeCast_self, shapeCast_self]
  refine congrArg (· + x2 (ix2 (0 : Fin 1) k)) (Finset.sum_congr rfl fun i _ => ?_)
  rw [truncf_apply, transpose_ix2_apply, truncf_apply]

theorem kHid_at (a : FVec Ideal S5000x128 .f32) (p : Fin 5000) (k : Fin 128) :
    kHid a (ix2 p k) = elu (a (ix2 p k)) := by
  unfold kHid elu
  show Scalar.select (FloatOps.cmpf .ogt (a (ix2 p k)) (Ideal.ofBits .f32 0x00000000#32)) (a (ix2 p k))
      (Ideal.exp (a (ix2 p k)) - Ideal.ofBits .f32 0x3F800000#32) = _
  rw [Ideal.ofBits_zero_f32, Ideal.ofBits_one_f32]

theorem kLogit_at (h : FVec Ideal S5000x128 .f32) (x3 : FVec Ideal S64x128 .f32) (x4 : FVec Ideal S1x64 .f32)
    (p : Fin 5000) (o : Fin 64) :
    kLogit h x3 x4 (ix2 p o) = logit (fun k => h (ix2 p k)) x3 x4 o := by
  unfold kLogit logit
  rw [addf_apply, mm2_at, broadcastTo_1b_ab_apply, shapeCast_self]
  refine congrArg (· + x4 (ix2 (0 : Fin 1) o)) (Finset.sum_congr rfl fun k _ => ?_)
  rw [truncf_apply, transpose_ix2_apply, truncf_apply]

/-- The bit pattern of minus infinity is the bottom element. -/
theorem ofBits_negInf_f32 : Ideal.ofBits .f32 0xFF800000#32 = ⊥ := by simp [Ideal.ofBits, Ideal.ieee]

/-- The index over a row index `p` with `k` inserted on the reduced axis is `(p, k)`. -/
theorem lift_row (h : S5000x64.Reduces [1] S5000) (p : Fin 5000) (k : Fin 64) : h.lift (ix1 p) k = ix2 p k :=
  funext fun a => Fin.ext (by
    match a with
    | ⟨0, _⟩ => rfl
    | ⟨1, _⟩ => rfl)

/-- A row's maximum, as the kernel reduces it, is the fold of `max` over the row from the bottom element. -/
theorem kmax_at (y : FVec Ideal S5000x64 .f32) (h : S5000x64.Reduces [1] S5000) (p : Fin 5000) :
    multiReduction .maximumf [1] S5000 y 0xFF800000#32 h (.inl rfl) rfl (ix1 p) = rowMax (fun o => y (ix2 p o)) := by
  refine (Ideal.multiReduction_maximumf_single y 0xFF800000#32 h (.inl rfl) rfl (ix1 p)).trans ?_
  unfold rowMax
  show (Finset.univ : Finset (Fin 64)).fold max (Ideal.ofBits .f32 0xFF800000#32) (fun k => y (h.lift (ix1 p) k)) = _
  rw [ofBits_negInf_f32]
  exact congrArg (fun f => (Finset.univ : Finset (Fin 64)).fold max ⊥ f) (funext fun k => congrArg y (lift_row h p k))

/-- A row's sum, as the kernel reduces it, is the sum over the row's entries. -/
theorem ksum_at (y : FVec Ideal S5000x64 .f32) (h : S5000x64.Reduces [1] S5000) (p : Fin 5000) :
    multiReduction .add [1] S5000 y 0x00000000#32 h (.inl rfl) rfl (ix1 p) = ∑ o : Fin 64, y (ix2 p o) := by
  refine (Ideal.multiReduction_add_single y 0x00000000#32 h (.inl rfl) rfl (ix1 p)).trans ?_
  exact Finset.sum_congr rfl fun k _ => congrArg y (lift_row h p k)

theorem kShift_at (y : FVec Ideal S5000x64 .f32) (p : Fin 5000) (o : Fin 64) :
    kShift y (ix2 p o) = y (ix2 p o) - rowMax (fun o' => y (ix2 p o')) := by
  unfold kShift
  rw [subf_apply, broadcastTo_a1_ab_apply, shapeCast_a_a1_apply, kmax_at]

theorem kNorm_at (z : FVec Ideal S5000x64 .f32) (p : Fin 5000) (o : Fin 64) :
    kNorm z (ix2 p o) = z (ix2 p o) - Ideal.log (∑ o' : Fin 64, Ideal.exp (z (ix2 p o'))) := by
  unfold kNorm
  rw [subf_apply, broadcastTo_a1_ab_apply]
  show z (ix2 p o) - Ideal.log (shapeCast S5000x1 _ _ (ix2 p (0 : Fin 1))) = _
  rw [shapeCast_a_a1_apply, ksum_at]
  rfl

/-! ## The stored value at an entry -/

/-- Entry `(p, o)` of the stored block is the row-wise projection of row `p` of the input block, at `o`. -/
theorem k4_pay1_at (x0 : Vec Ideal S5000x128 .f32) (x1 : Vec Ideal S128x128 .f32) (x2 : Vec Ideal S1x128 .f32)
    (x3 : Vec Ideal S64x128 .f32) (x4 : Vec Ideal S1x64 .f32) (p : Fin 5000) (o : Fin 64) :
    Gen.k4_pay1 (F := Ideal) x0 x1 x2 x3 x4 (ix2 p o)
      = Cert.SpecProj.projRow (fun k => x0 (ix2 p k)) x1 x2 x3 x4 o := by
  have hh : (fun k => kHid (kPre x0 x1 x2) (ix2 p k)) = hidden (fun k => x0 (ix2 p k)) x1 x2 :=
    funext fun k => by rw [kHid_at, kPre_at]; rfl
  have hy : ∀ o' : Fin 64, kLogit (kHid (kPre x0 x1 x2)) x3 x4 (ix2 p o')
      = logit (hidden (fun k => x0 (ix2 p k)) x1 x2) x3 x4 o' := fun o' => by rw [kLogit_at, hh]
  have hz : ∀ o' : Fin 64, kShift (kLogit (kHid (kPre x0 x1 x2)) x3 x4) (ix2 p o')
      = logit (hidden (fun k => x0 (ix2 p k)) x1 x2) x3 x4 o'
        - rowMax (logit (hidden (fun k => x0 (ix2 p k)) x1 x2) x3 x4) := fun o' => by
    rw [kShift_at, hy o', show (fun o'' => kLogit (kHid (kPre x0 x1 x2)) x3 x4 (ix2 p o''))
      = logit (hidden (fun k => x0 (ix2 p k)) x1 x2) x3 x4 from funext hy]
  rw [k4_pay1_eq, kNorm_at]
  unfold projRow logSoftmaxRow
  rw [hz o]
  exact congrArg (fun s => _ - Ideal.log s) (Finset.sum_congr rfl fun o' _ => by rw [hz o'])

end Cert.KernelIdeal.ProjKernel

end
-- ==== Proof.KerRegion4.lean ====
/-
  The kernel's last tiled region, the projection head, as a whole-array function.

  The region walks twenty blocks of 5000 rows. At a block it reads the matching rows of the feature array and the
  whole of the two weight matrices and the two bias rows, computes the head row by row, and writes the rows back.
  The head of row `r` depends only on row `r` of the features, so the twenty write-backs together leave ONE
  function of the arrays the region found: `SpecProj.proj`. The block reads, the write-back at a point, the cover
  of the array by the blocks, and the array after the region.
-/
import proofs.«152069_j90555090468876_2_alg».proof.Proof.Gen.KernelIdeal.Frame
import proofs.«152069_j90555090468876_2_alg».proof.Proof.Spec
import proofs.«152069_j90555090468876_2_alg».proof.Proof.SpecProj
import proofs.«152069_j90555090468876_2_alg».proof.Proof.ProjKernel
import Idealize.ShloMosaic.Lib.Pipeline.Value
import Idealize.ShloMosaic.Lib.ValueLayout
import Idealize.ShloMosaic.PureOps.Ideal.Laws

noncomputable section

open scoped BigOperators

namespace Cert.KernelIdeal.KerRegions

open Cert.KernelIdeal Cert.KernelIdeal.Gen Idealize.ShloMosaic Idealize.ShloMosaic.TcCoe Idealize.ShloMosaic.ValueIdx Idealize.SL.Sem
open Idealize.ShloMosaic.Pipeline (Dat)

section Regions
variable (V : (c : Dev nD) → (b : Ref sig .tc) → Buf (Elt Ideal) ((c : Thread nD τ).loc b))

theorem hz4 : (![0, 0] : Fin 2 → Nat) = fun _ => 0 := funext fun a => by fin_cases a <;> rfl

/-! ## Region 4: the projection head -/

/-- The printed index maps over the grid: the feature and result windows are at block `(t, 0)`, the two weight and
    the two bias windows at `(0, 0)`. -/
theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = t.val ∧ win4_5.index t (1 : Fin 2) = 0 :=
  (by decide +kernel : ∀ t : Fin grid4.N, _)

/-- The stored block, on a block that is rows `5000 b …` of `Z` and the whole of the weights and biases, is the
    block of `SpecProj.proj` at those rows. -/
theorem proj_of_blocks (Z : Cert.Spec.Arr2 100000 128) (W1 : Cert.Spec.Arr2 128 128) (B1 : Cert.Spec.Arr2 1 128)
    (W2 : Cert.Spec.Arr2 64 128) (B2 : Cert.Spec.Arr2 1 64)
    (x0 : Vec Ideal S5000x128 .f32) (x1 : Vec Ideal S128x128 .f32) (x2 : Vec Ideal S1x128 .f32)
    (x3 : Vec Ideal S64x128 .f32) (x4 : Vec Ideal S1x64 .f32) (b : Nat)
    (h0 : ∀ (y : S5000x128.Idx) (i : S100000x128.Idx), (i 0).val = b * 5000 + (y 0).val → (i 1).val = (y 1).val → x0 y = Z i)
    (h1 : x1 = W1) (h2 : x2 = B1) (h3 : x3 = W2) (h4 : x4 = B2)
    (y : S5000x64.Idx) (i : S100000x64.Idx) (hi0 : (i 0).val = b * 5000 + (y 0).val) (hi1 : (i 1).val = (y 1).val) :
    Gen.k4_pay1 (F := Ideal) x0 x1 x2 x3 x4 y = Cert.SpecProj.proj Z W1 B1 W2 B2 i := by
  obtain ⟨p, o, rfl⟩ : ∃ (p : Fin 5000) (o : Fin 64), y = ix2 p o := ⟨y 0, y 1, eq_ix2 y⟩
  obtain ⟨r, o', rfl⟩ : ∃ (r : Fin 100000) (o' : Fin 64), i = ix2 r o' := ⟨i 0, i 1, eq_ix2 i⟩
  obtain rfl : o' = o := Fin.ext hi1
  rw [Cert.KernelIdeal.ProjKernel.k4_pay1_at, Cert.SpecProj.proj_ix2]
  have e0 : (fun k => x0 (ix2 p k)) = fun k => Z (ix2 r k) := funext fun k => h0 _ _ hi0 rfl
  rw [e0, h1, h2, h3, h4]

/-- Window 0's block at point `t` is rows `5000 t …` of the feature array. -/
theorem iblk4_0_read (c : Dev nD) (t : Fin cfg4.N) (y : S5000x128.Idx) (i : S100000x128.Idx)
    (hi0 : (i 0).val = t.val * 5000 + (y 0).val) (hi1 : (i 1).val = (y 1).val) :
    (iblk4 V c 0 t : Vec Ideal S5000x128 .f32) y = (V c main_v41 : Cert.Spec.Arr2 100000 128) i := by
  obtain ⟨e0, e1⟩ := idx4_0 t
  show V c main_v41 (((cfg4.win 0).blk t).view.emb y) = V c main_v41 i
  refine congrArg _ (funext fun a => Fin.ext ?_)
  match a with
  | ⟨0, _⟩ => show win4_0.index t (0 : Fin 2) * 5000 + 1 * (y 0).val = (i 0).val; rw [e0, hi0]; omega
  | ⟨1, _⟩ => show win4_0.index t (1 : Fin 2) * 128 + 1 * (y 1).val = (i 1).val; rw [e1, hi1]; omega

/-- Window 1's block at every point is the whole of the first weight array. -/
theorem iblk4_1_read (c : Dev nD) (t : Fin cfg4.N) :
    (iblk4 V c 1 t : Vec Ideal S128x128 .f32) = (V c main_arg6 : Cert.Spec.Arr2 128 128) := by
  obtain ⟨e0, e1⟩ := idx4_1 t
  funext y
  show V c main_arg6 (((cfg4.win 1).blk t).view.emb y) = V c main_arg6 y
  refine congrArg _ (funext fun a => Fin.ext ?_)
  match a with
  | ⟨0, _⟩ => show win4_1.index t (0 : Fin 2) * 128 + 1 * (y 0).val = (y 0).val; rw [e0]; omega
  | ⟨1, _⟩ => show win4_1.index t (1 : Fin 2) * 128 + 1 * (y 1).val = (y 1).val; rw [e1]; omega

/-- Window 2's block at every point is the whole of the first bias row. -/
theorem iblk4_2_read (c : Dev nD) (t : Fin cfg4.N) :
    (iblk4 V c 2 t : Vec Ideal S1x128 .f32) = (V c main_v42 : Cert.Spec.Arr2 1 128) := by
  obtain ⟨e0, e1⟩ := idx4_2 t
  funext y
  show V c main_v42 (((cfg4.win 2).blk t).view.emb y) = V c main_v42 y
  refine congrArg _ (funext fun a => Fin.ext ?_)
  match a with
  | ⟨0, _⟩ => show win4_2.index t (0 : Fin 2) * 1 + 1 * (y 0).val = (y 0).val; rw [e0]; omega
  | ⟨1, _⟩ => show win4_2.index t (1 : Fin 2) * 128 + 1 * (y 1).val = (y 1).val; rw [e1]; omega

/-- Window 3's block at every point is the whole of the second weight array. -/
theorem iblk4_3_read (c : Dev nD) (t : Fin cfg4.N) :
    (iblk4 V c 3 t : Vec Ideal S64x128 .f32) = (V c main_arg8 : Cert.Spec.Arr2 64 128) := by
  obtain ⟨e0, e1⟩ := idx4_3 t
  funext y
  show V c main_arg8 (((cfg4.win 3).blk t).view.emb y) = V c main_arg8 y
  refine congrArg _ (funext fun a => Fin.ext ?_)
  match a with
  | ⟨0, _⟩ => show win4_3.index t (0 : Fin 2) * 64 + 1 * (y 0).val = (y 0).val; rw [e0]; omega
  | ⟨1, _⟩ => show win4_3.index t (1 : Fin 2) * 128 + 1 * (y 1).val = (y 1).val; rw [e1]; omega

/-- Window 4's block at every point is the whole of the second bias row. -/
theorem iblk4_4_read (c : Dev nD) (t : Fin cfg4.N) :
    (iblk4 V c 4 t : Vec Ideal S1x64 .f32) = (V c main_v43 : Cert.Spec.Arr2 1 64) := by
  obtain ⟨e0, e1⟩ := idx4_4 t
  funext y
  show V c main_v43 (((cfg4.win 4).blk t).view.emb y) = V c main_v43 y
  refine congrArg _ (funext fun a => Fin.ext ?_)
  match a with
  | ⟨0, _⟩ => show win4_4.index t (0 : Fin 2) * 1 + 1 * (y 0).val = (y 0).val; rw [e0]; omega
  | ⟨1, _⟩ => show win4_4.index t (1 : Fin 2) * 64 + 1 * (y 1).val = (y 1).val; rw [e1]; omega

/-- What point `t` writes back is block `t` of `SpecProj.proj` of the arrays the region found. -/
theorem flushed4_eq (c : Dev nD) (t : Fin cfg4.N) :
    (dat4 V c).flushed 5 t = ((cfg4.win 5).blk t).view.read (Elt Ideal)
      (Cert.SpecProj.proj (V c main_v41) (V c main_arg6) (V c main_v42) (V c main_arg8) (V c main_v43)) := by
  show (cfg4.win 5).cut (grid4.coords t) ((dat4 V c).after 5 t) = _
  rw [after4_5]
  unfold out4_5
  rw [View.canon_unit_zero hz4]
  simp only [View.ld_unit_zero (S := S5000x128) hz4, View.ld_unit_zero (S := S128x128) hz4, View.ld_unit_zero (S := S1x128) hz4,
    View.ld_unit_zero (S := S64x128) hz4, View.ld_unit_zero (S := S1x64) hz4]
  obtain ⟨e0, e1⟩ := idx4_5 t
  funext y
  show Gen.k4_pay1 (F := Ideal) (iblk4 V c 0 t) (iblk4 V c 1 t) (iblk4 V c 2 t) (iblk4 V c 3 t) (iblk4 V c 4 t)
      ((cfg4.win 5).xinj (grid4.coords t) y)
    = Cert.SpecProj.proj (V c main_v41) (V c main_arg6) (V c main_v42) (V c main_arg8) (V c main_v43)
      (((cfg4.win 5).blk t).view.emb y)
  refine proj_of_blocks _ _ _ _ _ _ _ _ _ _ t.val (fun y i h0 h1 => iblk4_0_read V c t y i h0 h1) (iblk4_1_read V c t)
    (iblk4_2_read V c t) (iblk4_3_read V c t) (iblk4_4_read V c t) _ _ ?_ ?_
  · show win4_5.index t (0 : Fin 2) * 5000 + 1 * (y 0).val = t.val * 5000 + (y 0).val; rw [e0]; omega
  · show win4_5.index t (1 : Fin 2) * 64 + 1 * (y 1).val = (y 1).val; rw [e1]; omega

/-- An index of the array is in point `t`'s block iff each coordinate is in the block's range on its axis. -/
theorem mem_blk4 (t : Fin cfg4.N) (i : S100000x64.Idx) :
    i ∈ ((cfg4.win 5).blk t).view.set ↔ ∀ a : Fin 2, win4_5.index t a * S5000x64.size a ≤ (i a).val
      ∧ (i a).val < win4_5.index t a * S5000x64.size a + S5000x64.size a := by
  show i ∈ ((View.whole main_v44).slice (win4_5.rect t)).set ↔ _
  rw [View.set_slice_whole, Rect.mem_set_unit]
  exact Iff.rfl

/-- Row `r` is in the block of point `r / 5000`: the twenty blocks of 5000 rows tile the array. -/
theorem cover4 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 20 := N_4
  have ht : (i 0).val / 5000 < cfg4.N := by rw [hN]; omega
  obtain ⟨e0, e1⟩ := idx4_5 ⟨(i 0).val / 5000, ht⟩
  refine ⟨⟨(i 0).val / 5000, ht⟩, flush4_5 _, ?_⟩
  rw [mem_blk4]
  intro a
  match a with
  | ⟨0, _⟩ =>
    show win4_5.index ⟨(i 0).val / 5000, ht⟩ (0 : Fin 2) * 5000 ≤ (i 0).val
      ∧ (i 0).val < win4_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_5.index ⟨(i 0).val / 5000, ht⟩ (1 : Fin 2) * 64 ≤ (i 1).val
      ∧ (i 1).val < win4_5.index ⟨(i 0).val / 5000, ht⟩ (1 : Fin 2) * 64 + 64
    rw [e1]; omega

/-- The array after region 4: `SpecProj.proj` of the arrays the region found. -/
theorem arr4 (c : Dev nD) : (Gen.dat4 (F := Ideal) V c).arrAt 5 cfg4.N
    = Cert.SpecProj.proj (V c main_v41) (V c main_arg6) (V c main_v42) (V c main_arg8) (V c main_v43) :=
  (dat4 V c).arrAt_eq_of_cover 5 _ (fun t _ => flushed4_eq V c t) cover4

end Regions

end Cert.KernelIdeal.KerRegions
end
-- ==== Proof.KerRun.lean ====
/-
  The kernel's program, run from the launch to the return, with its two results named.

  The program is a chain of host stretches and kernel regions. The contents of the buffers at each boundary of the
  chain are a fold from the launch memory: a host stretch applies its operations, a region replaces its output array
  by what its grid of blocks leaves and keeps every other buffer. Walking the fold forward, each buffer a later region
  reads is identified with an array-level function of the ten argument arrays; the last boundary's contents at the two
  result buffers are the two layers' functions of the arguments.
-/
import proofs.«152069_j90555090468876_2_alg».proof.Proof.Gen.KernelIdeal.Frame
import proofs.«152069_j90555090468876_2_alg».proof.Proof.KerVal
import proofs.«152069_j90555090468876_2_alg».proof.Proof.KerHost
import proofs.«152069_j90555090468876_2_alg».proof.Proof.KerRegions
import proofs.«152069_j90555090468876_2_alg».proof.Proof.KerRegion4
set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## Two congruences -/

theorem congr3 {α β γ δ : Sort _} (f : α → β → γ → δ) {a a' : α} {b b' : β} {c c' : γ}
    (ha : a = a') (hb : b = b') (hc : c = c') : f a b c = f a' b' c' := by subst ha hb hc; rfl

theorem congr5 {α β γ δ ε ζ : Sort _} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

/-! ## What each region's grid of blocks leaves in its output array

Each region's output array, as the run finds it, is the region's whole-array function of the contents the region was
entered with. -/

/-- The five regions' arrays, each at any entry contents `V`. -/
structure RegionVals : Prop where
  arr0 : ∀ (V : (c : Dev nD) → (b : Ref sig .tc) → Buf (Elt Ideal) ((c : Thread nD τ).loc b)) (c : Dev nD),
    (dat0 (F := Ideal) V c).arrAt 3 cfg0.N = Cert.Spec.pre (V c main_arg0) (V c main_arg2) (V c main_v15)
  arr1 : ∀ (V : (c : Dev nD) → (b : Ref sig .tc) → Buf (Elt Ideal) ((c : Thread nD τ).loc b)) (c : Dev nD),
    (dat1 (F := Ideal) V c).arrAt 3 cfg1.N = Cert.Spec.postRelu (V c main_v26) (V c main_v15) (V c main_v27)
  arr2 : ∀ (V : (c : Dev nD) → (b : Ref sig .tc) → Buf (Elt Ideal) ((c : Thread nD τ).loc b)) (c : Dev nD),
    (dat2 (F := Ideal) V c).arrAt 3 cfg2.N = Cert.Spec.pre (V c main_v28) (V c main_arg4) (V c main_v15)
  arr3 : ∀ (V : (c : Dev nD) → (b : Ref sig .tc) → Buf (Elt Ideal) ((c : Thread nD τ).loc b)) (c : Dev nD),
    (dat3 (F := Ideal) V c).arrAt 3 cfg3.N = Cert.Spec.post (V c main_v39) (V c main_v15) (V c main_v40)
  arr4 : ∀ (V : (c : Dev nD) → (b : Ref sig .tc) → Buf (Elt Ideal) ((c : Thread nD τ).loc b)) (c : Dev nD),
    (dat4 (F := Ideal) V c).arrAt 5 cfg4.N
      = Cert.SpecProj.proj (V c main_v41) (V c main_arg6) (V c main_v42) (V c main_arg8) (V c main_v43)

/-! ## The buffers at each boundary, walked forward from the launch

`Wk_b` says what buffer `b` holds at boundary `k` of the chain, as a function of the argument arrays as launched. -/

section Walk
variable (c : Dev nD)

/-! ### After the first stretch -/

theorem W1_v3 : W1 m ρ c (Proc.devRef .tc main_v3) = KerVal.rowV (m ((c : Thread nD τ).loc main_arg1)) := KerHost.s0_v3 (W0 m ρ c)
theorem W1_v6 : W1 m ρ c (Proc.devRef .tc main_v6) = KerVal.colV (m ((c : Thread nD τ).loc main_arg1)) := KerHost.s0_v6 (W0 m ρ c)
theorem W1_v12 : W1 m ρ c (Proc.devRef .tc main_v12)
    = cmpf .ogt (KerVal.degV (m ((c : Thread nD τ).loc main_arg1))) (broadcastInDim S100000 ![] bcast_S_S100000 (constant (F := Ideal) S_ .f32 0x00000000#32)) := KerHost.s0_v12 (W0 m ρ c)
theorem W1_v13 : W1 m ρ c (Proc.devRef .tc main_v13) = Host.rsqrt (KerVal.degV (m ((c : Thread nD τ).loc main_arg1))) := KerHost.s0_v13 (W0 m ρ c)
theorem W1_cst2 : W1 m ρ c (Proc.devRef .tc main_cst_2) = constant (F := Ideal) S_ .f32 0x00000000#32 := KerHost.s0_cst2 (W0 m ρ c)
theorem W1_arg0 : W1 m ρ c (Proc.devRef .tc main_arg0) = (m ((c : Thread nD τ).loc main_arg0)) := KerHost.s0_arg0 (W0 m ρ c)
theorem W1_arg2 : W1 m ρ c (Proc.devRef .tc main_arg2) = (m ((c : Thread nD τ).loc main_arg2)) := KerHost.s0_arg2 (W0 m ρ c)
theorem W1_arg3 : W1 m ρ c (Proc.devRef .tc main_arg3) = (m ((c : Thread nD τ).loc main_arg3)) := KerHost.s0_arg3 (W0 m ρ c)
theorem W1_arg4 : W1 m ρ c (Proc.devRef .tc main_arg4) = (m ((c : Thread nD τ).loc main_arg4)) := KerHost.s0_arg4 (W0 m ρ c)
theorem W1_arg5 : W1 m ρ c (Proc.devRef .tc main_arg5) = (m ((c : Thread nD τ).loc main_arg5)) := KerHost.s0_arg5 (W0 m ρ c)
theorem W1_arg6 : W1 m ρ c (Proc.devRef .tc main_arg6) = (m ((c : Thread nD τ).loc main_arg6)) := KerHost.s0_arg6 (W0 m ρ c)
theorem W1_arg7 : W1 m ρ c (Proc.devRef .tc main_arg7) = (m ((c : Thread nD τ).loc main_arg7)) := KerHost.s0_arg7 (W0 m ρ c)
theorem W1_arg8 : W1 m ρ c (Proc.devRef .tc main_arg8) = (m ((c : Thread nD τ).loc main_arg8)) := KerHost.s0_arg8 (W0 m ρ c)
theorem W1_arg9 : W1 m ρ c (Proc.devRef .tc main_arg9) = (m ((c : Thread nD τ).loc main_arg9)) := KerHost.s0_arg9 (W0 m ρ c)

/-! ### After the second stretch: the normalisation factors -/

/-- The factors are the selection, unfolded. -/
theorem dinvV_eq (ei : IVec S2x1600000 32) : KerVal.dinvV ei
    = select (cmpf .ogt (KerVal.degV ei) (broadcastInDim S100000 ![] bcast_S_S100000 (constant (F := Ideal) S_ .f32 0x00000000#32))) (Host.rsqrt (KerVal.degV ei))
        (broadcastInDim S100000 ![] bcast_S_S100000 (constant (F := Ideal) S_ .f32 0x00000000#32)) := by
  unfold KerVal.dinvV; rfl

theorem W2_v14 : W2 m ρ c (Proc.devRef .tc main_v14) = KerVal.dinvV (m ((c : Thread nD τ).loc main_arg1)) := by
  have h := KerHost.s01_v14 (W1 m ρ c)
  rw [W1_v12 m ρ c, W1_v13 m ρ c, W1_cst2 m ρ c] at h
  exact h.trans (dinvV_eq _).symm
theorem W2_v3 : W2 m ρ c (Proc.devRef .tc main_v3) = (KerVal.rowV (m ((c : Thread nD τ).loc main_arg1))) := (KerHost.s01_v3 (W1 m ρ c)).trans (W1_v3 m ρ c)
theorem W2_v6 : W2 m ρ c (Proc.devRef .tc main_v6) = (KerVal.colV (m ((c : Thread nD τ).loc main_arg1))) := (KerHost.s01_v6 (W1 m ρ c)).trans (W1_v6 m ρ c)
theorem W2_arg0 : W2 m ρ c (Proc.devRef .tc main_arg0) = (m ((c : Thread nD τ).loc main_arg0)) := (KerHost.s01_arg0 (W1 m ρ c)).trans (W1_arg0 m ρ c)
theorem W2_arg2 : W2 m ρ c (Proc.devRef .tc main_arg2) = (m ((c : Thread nD τ).loc main_arg2)) := (KerHost.s01_arg2 (W1 m ρ c)).trans (W1_arg2 m ρ c)
theorem W2_arg3 : W2 m ρ c (Proc.devRef .tc main_arg3) = (m ((c : Thread nD τ).loc main_arg3)) := (KerHost.s01_arg3 (W1 m ρ c)).trans (W1_arg3 m ρ c)
theorem W2_arg4 : W2 m ρ c (Proc.devRef .tc main_arg4) = (m ((c : Thread nD τ).loc main_arg4)) := (KerHost.s01_arg4 (W1 m ρ c)).trans (W1_arg4 m ρ c)
theorem W2_arg5 : W2 m ρ c (Proc.devRef .tc main_arg5) = (m ((c : Thread nD τ).loc main_arg5)) := (KerHost.s01_arg5 (W1 m ρ c)).trans (W1_arg5 m ρ c)
theorem W2_arg6 : W2 m ρ c (Proc.devRef .tc main_arg6) = (m ((c : Thread nD τ).loc main_arg6)) := (KerHost.s01_arg6 (W1 m ρ c)).trans (W1_arg6 m ρ c)
theorem W2_arg7 : W2 m ρ c (Proc.devRef .tc main_arg7) = (m ((c : Thread nD τ).loc main_arg7)) := (KerHost.s01_arg7 (W1 m ρ c)).trans (W1_arg7 m ρ c)
theorem W2_arg8 : W2 m ρ c (Proc.devRef .tc main_arg8) = (m ((c : Thread nD τ).loc main_arg8)) := (KerHost.s01_arg8 (W1 m ρ c)).trans (W1_arg8 m ρ c)
theorem W2_arg9 : W2 m ρ c (Proc.devRef .tc main_arg9) = (m ((c : Thread nD τ).loc main_arg9)) := (KerHost.s01_arg9 (W1 m ρ c)).trans (W1_arg9 m ρ c)

/-! ### After the third stretch: the first region's entry -/

theorem W3_v15 : W3 m ρ c (Proc.devRef .tc main_v15) = (KerVal.dinv2 (m ((c : Thread nD τ).loc main_arg1))) := by
  have h := KerHost.s02_v15 (W2 m ρ c)
  rw [W2_v14 m ρ c] at h
  exact h
theorem W3_v3 : W3 m ρ c (Proc.devRef .tc main_v3) = (KerVal.rowV (m ((c : Thread nD τ).loc main_arg1))) := (KerHost.s02_v3 (W2 m ρ c)).trans (W2_v3 m ρ c)
theorem W3_v6 : W3 m ρ c (Proc.devRef .tc main_v6) = (KerVal.colV (m ((c : Thread nD τ).loc main_arg1))) := (KerHost.s02_v6 (W2 m ρ c)).trans (W2_v6 m ρ c)
theorem W3_arg0 : W3 m ρ c (Proc.devRef .tc main_arg0) = (m ((c : Thread nD τ).loc main_arg0)) := (KerHost.s02_arg0 (W2 m ρ c)).trans (W2_arg0 m ρ c)
theorem W3_arg2 : W3 m ρ c (Proc.devRef .tc main_arg2) = (m ((c : Thread nD τ).loc main_arg2)) := (KerHost.s02_arg2 (W2 m ρ c)).trans (W2_arg2 m ρ c)
theorem W3_arg3 : W3 m ρ c (Proc.devRef .tc main_arg3) = (m ((c : Thread nD τ).loc main_arg3)) := (KerHost.s02_arg3 (W2 m ρ c)).trans (W2_arg3 m ρ c)
theorem W3_arg4 : W3 m ρ c (Proc.devRef .tc main_arg4) = (m ((c : Thread nD τ).loc main_arg4)) := (KerHost.s02_arg4 (W2 m ρ c)).trans (W2_arg4 m ρ c)
theorem W3_arg5 : W3 m ρ c (Proc.devRef .tc main_arg5) = (m ((c : Thread nD τ).loc main_arg5)) := (KerHost.s02_arg5 (W2 m ρ c)).trans (W2_arg5 m ρ c)
theorem W3_arg6 : W3 m ρ c (Proc.devRef .tc main_arg6) = (m ((c : Thread nD τ).loc main_arg6)) := (KerHost.s02_arg6 (W2 m ρ c)).trans (W2_arg6 m ρ c)
theorem W3_arg7 : W3 m ρ c (Proc.devRef .tc main_arg7) = (m ((c : Thread nD τ).loc main_arg7)) := (KerHost.s02_arg7 (W2 m ρ c)).trans (W2_arg7 m ρ c)
theorem W3_arg8 : W3 m ρ c (Proc.devRef .tc main_arg8) = (m ((c : Thread nD τ).loc main_arg8)) := (KerHost.s02_arg8 (W2 m ρ c)).trans (W2_arg8 m ρ c)
theorem W3_arg9 : W3 m ρ c (Proc.devRef .tc main_arg9) = (m ((c : Thread nD τ).loc main_arg9)) := (KerHost.s02_arg9 (W2 m ρ c)).trans (W2_arg9 m ρ c)

/-! ### After the first region: the first layer's scaled rows -/

theorem W4_v16 (H : RegionVals) : W4 m ρ c (Proc.devRef .tc main_v16) = (Cert.Spec.pre (m ((c : Thread nD τ).loc main_arg0)) (m ((c : Thread nD τ).loc main_arg2)) (KerVal.dinv2 (m ((c : Thread nD τ).loc main_arg1)))) :=
  (W4_arr m ρ c 3).trans ((H.arr0 (V3 m ρ) c).trans (congr3 Cert.Spec.pre (W3_arg0 m ρ c) (W3_arg2 m ρ c) (W3_v15 m ρ c)))
theorem W4_v15 : W4 m ρ c (Proc.devRef .tc main_v15) = (KerVal.dinv2 (m ((c : Thread nD τ).loc main_arg1))) :=
  ((W4_arr m ρ c 2).trans (((dat0 (V3 m ρ) c).arrAt_in 2 rfl _).trans (A_eq0 (V3 m ρ) c 2))).trans (W3_v15 m ρ c)
theorem W4_v3 : W4 m ρ c (Proc.devRef .tc main_v3) = (KerVal.rowV (m ((c : Thread nD τ).loc main_arg1))) := (W4_of_ne m ρ c main_v3 (by decide)).trans (W3_v3 m ρ c)
theorem W4_v6 : W4 m ρ c (Proc.devRef .tc main_v6) = (KerVal.colV (m ((c : Thread nD τ).loc main_arg1))) := (W4_of_ne m ρ c main_v6 (by decide)).trans (W3_v6 m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)
theorem W4_arg7 : W4 m ρ c (Proc.devRef .tc main_arg7) = (m ((c : Thread nD τ).loc main_arg7)) := (W4_of_ne m ρ c main_arg7 (by decide)).trans (W3_arg7 m ρ c)
theorem W4_arg8 : W4 m ρ c (Proc.devRef .tc main_arg8) = (m ((c : Thread nD τ).loc main_arg8)) := (W4_of_ne m ρ c main_arg8 (by decide)).trans (W3_arg8 m ρ c)
theorem W4_arg9 : W4 m ρ c (Proc.devRef .tc main_arg9) = (m ((c : Thread nD τ).loc main_arg9)) := (W4_of_ne m ρ c main_arg9 (by decide)).trans (W3_arg9 m ρ c)

/-! ### After the fourth stretch: the first layer's aggregation -/

theorem W5_v26 (H : RegionVals) : W5 m ρ c (Proc.devRef .tc main_v26) = (KerVal.aggOf (Cert.Spec.pre (m ((c : Thread nD τ).loc main_arg0)) (m ((c : Thread nD τ).loc main_arg2)) (KerVal.dinv2 (m ((c : Thread nD τ).loc main_arg1)))) (m ((c : Thread nD τ).loc main_arg1))) :=
  (KerHost.s1_v26 (W4 m ρ c)).trans
    (congr3 KerVal.aggWith (W4_v16 m ρ c H) (congrArg KerVal.rowIdxOf (W4_v3 m ρ c)) (congrArg KerVal.colIdxOf (W4_v6 m ρ c)))
theorem W5_v27 : W5 m ρ c (Proc.devRef .tc main_v27) = KerVal.biasRow (m ((c : Thread nD τ).loc main_arg3)) :=
  (KerHost.s1_v27 (W4 m ρ c)).trans (congrArg KerVal.biasRow (W4_arg3 m ρ c))
theorem W5_v15 : W5 m ρ c (Proc.devRef .tc main_v15) = (KerVal.dinv2 (m ((c : Thread nD τ).loc main_arg1))) := (KerHost.s1_v15 (W4 m ρ c)).trans (W4_v15 m ρ c)
theorem W5_v3 : W5 m ρ c (Proc.devRef .tc main_v3) = (KerVal.rowV (m ((c : Thread nD τ).loc main_arg1))) := (KerHost.s1_v3 (W4 m ρ c)).trans (W4_v3 m ρ c)
theorem W5_v6 : W5 m ρ c (Proc.devRef .tc main_v6) = (KerVal.colV (m ((c : Thread nD τ).loc main_arg1))) := (KerHost.s1_v6 (W4 m ρ c)).trans (W4_v6 m ρ c)
theorem W5_arg4 : W5 m ρ c (Proc.devRef .tc main_arg4) = (m ((c : Thread nD τ).loc main_arg4)) := (KerHost.s1_arg4 (W4 m ρ c)).trans (W4_arg4 m ρ c)
theorem W5_arg5 : W5 m ρ c (Proc.devRef .tc main_arg5) = (m ((c : Thread nD τ).loc main_arg5)) := (KerHost.s1_arg5 (W4 m ρ c)).trans (W4_arg5 m ρ c)
theorem W5_arg6 : W5 m ρ c (Proc.devRef .tc main_arg6) = (m ((c : Thread nD τ).loc main_arg6)) := (KerHost.s1_arg6 (W4 m ρ c)).trans (W4_arg6 m ρ c)
theorem W5_arg7 : W5 m ρ c (Proc.devRef .tc main_arg7) = (m ((c : Thread nD τ).loc main_arg7)) := (KerHost.s1_arg7 (W4 m ρ c)).trans (W4_arg7 m ρ c)
theorem W5_arg8 : W5 m ρ c (Proc.devRef .tc main_arg8) = (m ((c : Thread nD τ).loc main_arg8)) := (KerHost.s1_arg8 (W4 m ρ c)).trans (W4_arg8 m ρ c)
theorem W5_arg9 : W5 m ρ c (Proc.devRef .tc main_arg9) = (m ((c : Thread nD τ).loc main_arg9)) := (KerHost.s1_arg9 (W4 m ρ c)).trans (W4_arg9 m ρ c)

/-! ### After the second region: the first layer's output -/

theorem W6_v28 (H : RegionVals) : W6 m ρ c (Proc.devRef .tc main_v28) = (KerVal.z1T (m ((c : Thread nD τ).loc main_arg0)) (m ((c : Thread nD τ).loc main_arg1)) (m ((c : Thread nD τ).loc main_arg2)) (m ((c : Thread nD τ).loc main_arg3))) :=
  (W6_arr m ρ c 3).trans ((H.arr1 (V5 m ρ) c).trans (congr3 Cert.Spec.postRelu (W5_v26 m ρ c H) (W5_v15 m ρ c) (W5_v27 m ρ c)))
theorem W6_v15 : W6 m ρ c (Proc.devRef .tc main_v15) = (KerVal.dinv2 (m ((c : Thread nD τ).loc main_arg1))) :=
  ((W6_arr m ρ c 1).trans (((dat1 (V5 m ρ) c).arrAt_in 1 rfl _).trans (A_eq1 (V5 m ρ) c 1))).trans (W5_v15 m ρ c)
theorem W6_v3 : W6 m ρ c (Proc.devRef .tc main_v3) = (KerVal.rowV (m ((c : Thread nD τ).loc main_arg1))) := (W6_of_ne m ρ c main_v3 (by decide)).trans (W5_v3 m ρ c)
theorem W6_v6 : W6 m ρ c (Proc.devRef .tc main_v6) = (KerVal.colV (m ((c : Thread nD τ).loc main_arg1))) := (W6_of_ne m ρ c main_v6 (by decide)).trans (W5_v6 m ρ c)
theorem W6_arg4 : W6 m ρ c (Proc.devRef .tc main_arg4) = (m ((c : Thread nD τ).loc main_arg4)) := (W6_of_ne m ρ c main_arg4 (by decide)).trans (W5_arg4 m ρ c)
theorem W6_arg5 : W6 m ρ c (Proc.devRef .tc main_arg5) = (m ((c : Thread nD τ).loc main_arg5)) := (W6_of_ne m ρ c main_arg5 (by decide)).trans (W5_arg5 m ρ c)
theorem W6_arg6 : W6 m ρ c (Proc.devRef .tc main_arg6) = (m ((c : Thread nD τ).loc main_arg6)) := (W6_of_ne m ρ c main_arg6 (by decide)).trans (W5_arg6 m ρ c)
theorem W6_arg7 : W6 m ρ c (Proc.devRef .tc main_arg7) = (m ((c : Thread nD τ).loc main_arg7)) := (W6_of_ne m ρ c main_arg7 (by decide)).trans (W5_arg7 m ρ c)
theorem W6_arg8 : W6 m ρ c (Proc.devRef .tc main_arg8) = (m ((c : Thread nD τ).loc main_arg8)) := (W6_of_ne m ρ c main_arg8 (by decide)).trans (W5_arg8 m ρ c)
theorem W6_arg9 : W6 m ρ c (Proc.devRef .tc main_arg9) = (m ((c : Thread nD τ).loc main_arg9)) := (W6_of_ne m ρ c main_arg9 (by decide)).trans (W5_arg9 m ρ c)

/-! ### After the third region: the second layer's scaled rows -/

theorem W7_v29 (H : RegionVals) : W7 m ρ c (Proc.devRef .tc main_v29) = (Cert.Spec.pre (KerVal.z1T (m ((c : Thread nD τ).loc main_arg0)) (m ((c : Thread nD τ).loc main_arg1)) (m ((c : Thread nD τ).loc main_arg2)) (m ((c : Thread nD τ).loc main_arg3))) (m ((c : Thread nD τ).loc main_arg4)) (KerVal.dinv2 (m ((c : Thread nD τ).loc main_arg1)))) :=
  (W7_arr m ρ c 3).trans ((H.arr2 (V6 m ρ) c).trans (congr3 Cert.Spec.pre (W6_v28 m ρ c H) (W6_arg4 m ρ c) (W6_v15 m ρ c)))
theorem W7_v15 : W7 m ρ c (Proc.devRef .tc main_v15) = (KerVal.dinv2 (m ((c : Thread nD τ).loc main_arg1))) :=
  ((W7_arr m ρ c 2).trans (((dat2 (V6 m ρ) c).arrAt_in 2 rfl _).trans (A_eq2 (V6 m ρ) c 2))).trans (W6_v15 m ρ c)
theorem W7_v3 : W7 m ρ c (Proc.devRef .tc main_v3) = (KerVal.rowV (m ((c : Thread nD τ).loc main_arg1))) := (W7_of_ne m ρ c main_v3 (by decide)).trans (W6_v3 m ρ c)
theorem W7_v6 : W7 m ρ c (Proc.devRef .tc main_v6) = (KerVal.colV (m ((c : Thread nD τ).loc main_arg1))) := (W7_of_ne m ρ c main_v6 (by decide)).trans (W6_v6 m ρ c)
theorem W7_arg5 : W7 m ρ c (Proc.devRef .tc main_arg5) = (m ((c : Thread nD τ).loc main_arg5)) := (W7_of_ne m ρ c main_arg5 (by decide)).trans (W6_arg5 m ρ c)
theorem W7_arg6 : W7 m ρ c (Proc.devRef .tc main_arg6) = (m ((c : Thread nD τ).loc main_arg6)) := (W7_of_ne m ρ c main_arg6 (by decide)).trans (W6_arg6 m ρ c)
theorem W7_arg7 : W7 m ρ c (Proc.devRef .tc main_arg7) = (m ((c : Thread nD τ).loc main_arg7)) := (W7_of_ne m ρ c main_arg7 (by decide)).trans (W6_arg7 m ρ c)
theorem W7_arg8 : W7 m ρ c (Proc.devRef .tc main_arg8) = (m ((c : Thread nD τ).loc main_arg8)) := (W7_of_ne m ρ c main_arg8 (by decide)).trans (W6_arg8 m ρ c)
theorem W7_arg9 : W7 m ρ c (Proc.devRef .tc main_arg9) = (m ((c : Thread nD τ).loc main_arg9)) := (W7_of_ne m ρ c main_arg9 (by decide)).trans (W6_arg9 m ρ c)

/-! ### After the fifth stretch: the second layer's aggregation -/

theorem W8_v39 (H : RegionVals) : W8 m ρ c (Proc.devRef .tc main_v39) = (KerVal.aggOf (Cert.Spec.pre (KerVal.z1T (m ((c : Thread nD τ).loc main_arg0)) (m ((c : Thread nD τ).loc main_arg1)) (m ((c : Thread nD τ).loc main_arg2)) (m ((c : Thread nD τ).loc main_arg3))) (m ((c : Thread nD τ).loc main_arg4)) (KerVal.dinv2 (m ((c : Thread nD τ).loc main_arg1)))) (m ((c : Thread nD τ).loc main_arg1))) :=
  (KerHost.s3_v39 (W7 m ρ c)).trans
    (congr3 KerVal.aggWith (W7_v29 m ρ c H) (congrArg KerVal.rowIdxOf (W7_v3 m ρ c)) (congrArg KerVal.colIdxOf (W7_v6 m ρ c)))
theorem W8_v40 : W8 m ρ c (Proc.devRef .tc main_v40) = KerVal.biasRow (m ((c : Thread nD τ).loc main_arg5)) :=
  (KerHost.s3_v40 (W7 m ρ c)).trans (congrArg KerVal.biasRow (W7_arg5 m ρ c))
theorem W8_v15 : W8 m ρ c (Proc.devRef .tc main_v15) = (KerVal.dinv2 (m ((c : Thread nD τ).loc main_arg1))) := (KerHost.s3_v15 (W7 m ρ c)).trans (W7_v15 m ρ c)
theorem W8_arg6 : W8 m ρ c (Proc.devRef .tc main_arg6) = (m ((c : Thread nD τ).loc main_arg6)) := (KerHost.s3_arg6 (W7 m ρ c)).trans (W7_arg6 m ρ c)
theorem W8_arg7 : W8 m ρ c (Proc.devRef .tc main_arg7) = (m ((c : Thread nD τ).loc main_arg7)) := (KerHost.s3_arg7 (W7 m ρ c)).trans (W7_arg7 m ρ c)
theorem W8_arg8 : W8 m ρ c (Proc.devRef .tc main_arg8) = (m ((c : Thread nD τ).loc main_arg8)) := (KerHost.s3_arg8 (W7 m ρ c)).trans (W7_arg8 m ρ c)
theorem W8_arg9 : W8 m ρ c (Proc.devRef .tc main_arg9) = (m ((c : Thread nD τ).loc main_arg9)) := (KerHost.s3_arg9 (W7 m ρ c)).trans (W7_arg9 m ρ c)

/-! ### After the fourth region: the second layer's output, the first result -/

theorem W9_v41 (H : RegionVals) : W9 m ρ c (Proc.devRef .tc main_v41) = (KerVal.zsT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (W9_arr m ρ c 3).trans ((H.arr3 (V8 m ρ) c).trans (congr3 Cert.Spec.post (W8_v39 m ρ c H) (W8_v15 m ρ c) (W8_v40 m ρ c)))
theorem W9_arg6 : W9 m ρ c (Proc.devRef .tc main_arg6) = (m ((c : Thread nD τ).loc main_arg6)) := (W9_of_ne m ρ c main_arg6 (by decide)).trans (W8_arg6 m ρ c)
theorem W9_arg7 : W9 m ρ c (Proc.devRef .tc main_arg7) = (m ((c : Thread nD τ).loc main_arg7)) := (W9_of_ne m ρ c main_arg7 (by decide)).trans (W8_arg7 m ρ c)
theorem W9_arg8 : W9 m ρ c (Proc.devRef .tc main_arg8) = (m ((c : Thread nD τ).loc main_arg8)) := (W9_of_ne m ρ c main_arg8 (by decide)).trans (W8_arg8 m ρ c)
theorem W9_arg9 : W9 m ρ c (Proc.devRef .tc main_arg9) = (m ((c : Thread nD τ).loc main_arg9)) := (W9_of_ne m ρ c main_arg9 (by decide)).trans (W8_arg9 m ρ c)

/-! ### After the last stretch: the projection's entry -/

theorem W10_v42 : W10 m ρ c (Proc.devRef .tc main_v42) = KerVal.biasRow (m ((c : Thread nD τ).loc main_arg7)) :=
  (KerHost.s4_v42 (W9 m ρ c)).trans (congrArg KerVal.biasRow (W9_arg7 m ρ c))
theorem W10_v43 : W10 m ρ c (Proc.devRef .tc main_v43) = KerVal.biasRow64 (m ((c : Thread nD τ).loc main_arg9)) :=
  (KerHost.s4_v43 (W9 m ρ c)).trans (congrArg KerVal.biasRow64 (W9_arg9 m ρ c))
theorem W10_v41 (H : RegionVals) : W10 m ρ c (Proc.devRef .tc main_v41) = (KerVal.zsT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (KerHost.s4_v41 (W9 m ρ c)).trans (W9_v41 m ρ c H)
theorem W10_arg6 : W10 m ρ c (Proc.devRef .tc main_arg6) = (m ((c : Thread nD τ).loc main_arg6)) := (KerHost.s4_arg6 (W9 m ρ c)).trans (W9_arg6 m ρ c)
theorem W10_arg8 : W10 m ρ c (Proc.devRef .tc main_arg8) = (m ((c : Thread nD τ).loc main_arg8)) := (KerHost.s4_arg8 (W9 m ρ c)).trans (W9_arg8 m ρ c)

/-! ### After the last region: the two results -/

theorem W11_v44 (H : RegionVals) : W11 m ρ c (Proc.devRef .tc main_v44) = (KerVal.resT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (W11_arr m ρ c 5).trans ((H.arr4 (V10 m ρ) c).trans
    (congr5 Cert.SpecProj.proj (W10_v41 m ρ c H) (W10_arg6 m ρ c) (W10_v42 m ρ c) (W10_arg8 m ρ c) (W10_v43 m ρ c)))
theorem W11_v41 (H : RegionVals) : W11 m ρ c (Proc.devRef .tc main_v41) = (KerVal.zsT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  ((W11_arr m ρ c 0).trans (((dat4 (V10 m ρ) c).arrAt_in 0 rfl _).trans (A_eq4 (V10 m ρ) c 0))).trans (W10_v41 m ρ c H)

end Walk

/-! ## The run -/

-- the launch theorem's implicit arguments are found by unifying its conclusion with this one, which takes unfolding
-- plain definitions in a metavariable's type
set_option backward.isDefEq.respectTransparency.types false in
/-- From any memory with zero counters every weakly fair execution of the program terminates, nothing faulting, and
    every buffer that outlives the regions ends at the last boundary's contents: the launch over the chain's segments,
    the last thread state read against the final state. -/
theorem run_W11 : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W11 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The kernel's program runs to the end with the first result at the second layer's function of the arguments, the
    second at its projection, and the ten arguments as launched — given the five regions' arrays. -/
theorem run_of (H : RegionVals) :
    θ_run (defs (F := Ideal)) (onTc (τ := τ) (main (F := Ideal))) ⟨m, fun _ => 0, ρ⟩ (fun r => ∀ c : Dev nD,
      r.2.mem ((c.tc : Thread nD τ).loc main_v41) = KerVal.zsT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v44) = KerVal.resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun r h c =>
    ⟨(h c _ (mem_uc main_v41 (by decide))).trans (W11_v41 m ρ c H),
     (h c _ (mem_uc main_v44 (by decide))).trans (W11_v44 m ρ c H),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c)⟩)
    (run_W11 m ρ)

/-- The same with the five regions' arrays supplied. -/
theorem run : θ_run (defs (F := Ideal)) (onTc (τ := τ) (main (F := Ideal))) ⟨m, fun _ => 0, ρ⟩ (fun r => ∀ c : Dev nD,
      r.2.mem ((c.tc : Thread nD τ).loc main_v41) = KerVal.zsT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v44) = KerVal.resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_of m ρ ⟨KerRegions.arr0, KerRegions.arr1, KerRegions.arr2, KerRegions.arr3, KerRegions.arr4⟩

end Cert.KernelIdeal.KerRun

end
-- ==== Proof.RefVal.lean ====
/-
  The reference program's host operations, composed into array-level functions of its arguments over the
  extended reals.

  The edge list is completed with one self loop per node (`rowV`, `colV`); a node's degree is the number of
  edges arriving at it (`degV`), and its normalisation factor is the inverse square root of the degree, zero at
  a node of degree zero (`dinvV`). An edge weighs the product of the factors of its two ends (`ewV`). One
  graph-convolution layer maps every node's feature row linearly, sums over each node's incoming edges the
  weighted mapped rows of the edges' sources, and adds the bias (`layer`). Two layers, the first clipped below
  at zero, give the node embeddings (`zsT`); a two-layer perceptron with an exponential-linear activation and a
  row-wise log-softmax gives the class scores (`projChain`, `resT`).

  Every definition is the composition of the program's operations in the program's order, with the program's
  own dimension records and side conditions.
-/
import proofs.«152069_j90555090468876_2_alg».proof.ReferenceIdeal
import Idealize.ShloMosaic.PureOps.Ideal

noncomputable section

namespace Cert.ReferenceIdeal.RefVal

open Cert.ReferenceIdeal Idealize.ShloMosaic
open Cert.ReferenceIdeal.Facts₀ Cert.ReferenceIdeal.Facts

variable [Cert.ReferenceIdeal.Facts]

/-! ## The edge lists and the normalisation -/

/-- The source node of every edge (row 0 of the edge array), then every node once: the self loops. -/
def rowV (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
     ⟨S100000, iotaInDim S100000 32 0⟩]
    concatenates_S1600000_S100000_S1700000_d0

/-- The destination node of every edge (row 1 of the edge array), then every node once. -/
def colV (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩,
     ⟨S100000, iotaInDim S100000 32 0⟩]
    concatenates_S1600000_S100000_S1700000_d0

/-- The destinations as a one-column index array: where an edge's contribution is added. -/
def colIdx (ei : IVec S2x1600000 32) : IVec S1700000x1 32 :=
  broadcastInDim S1700000x1 ![0] bcast_S1700000_S1700000x1_0 (colV ei)

/-- The degree of every node: one added at the destination of every edge, from zero. -/
def degV (ei : IVec S2x1600000 32) : FVec Ideal S100000 .f32 :=
  Host.scatterAdd scatter_S100000_S1700000x1_S1700000_n_0_0_1
    (broadcastInDim S100000 ![] bcast_S_S100000 (constant (F := Ideal) S_ .f32 0x00000000#32))
    (colIdx ei)
    (broadcastInDim S1700000 ![] bcast_S_S1700000 (constant (F := Ideal) S_ .f32 0x3F800000#32))

/-- The normalisation factor of every node: the inverse square root of its degree where the degree is
    positive, zero elsewhere. -/
def dinvV (ei : IVec S2x1600000 32) : FVec Ideal S100000 .f32 :=
  select
    (cmpf .ogt (degV ei) (broadcastInDim S100000 ![] bcast_S_S100000 (constant (F := Ideal) S_ .f32 0x00000000#32)))
    (Host.rsqrt (degV ei))
    (broadcastInDim S100000 ![] bcast_S_S100000 (id (constant (F := Ideal) S_ .f32 0x00000000#32)))

/-- The sources as a one-column index array, a negative index counted from the end. -/
def rowIdx (ei : IVec S2x1600000 32) : IVec S1700000x1 32 :=
  broadcastInDim S1700000x1 ![0] bcast_S1700000_S1700000x1_0
    (select
      (cmpi .slt (rowV ei) (broadcastInDim S1700000 ![] bcast_S_S1700000 (constantI S_ 32 0#32)))
      (addi (rowV ei) (broadcastInDim S1700000 ![] bcast_S_S1700000 (constantI S_ 32 100000#32)))
      (rowV ei))

/-- The destinations as a one-column index array, a negative index counted from the end. -/
def colNIdx (ei : IVec S2x1600000 32) : IVec S1700000x1 32 :=
  broadcastInDim S1700000x1 ![0] bcast_S1700000_S1700000x1_0
    (select
      (cmpi .slt (colV ei) (broadcastInDim S1700000 ![] bcast_S_S1700000 (constantI S_ 32 0#32)))
      (addi (colV ei) (broadcastInDim S1700000 ![] bcast_S_S1700000 (constantI S_ 32 100000#32)))
      (colV ei))

/-- The weight of every edge: its source's factor, times one, times its destination's factor. -/
def ewV (ei : IVec S2x1600000 32) : FVec Ideal S1700000 .f32 :=
  mulf
    (mulf (Host.gather gather_S100000_S1700000x1_S1700000_n_0_n_n_0_1_1 (dinvV ei) (rowIdx ei))
      (broadcastInDim S1700000 ![] bcast_S_S1700000 (constant (F := Ideal) S_ .f32 0x3F800000#32)))
    (Host.gather gather_S100000_S1700000x1_S1700000_n_0_n_n_0_1_1 (dinvV ei) (colNIdx ei))

/-! ## The layers -/

/-- One graph-convolution layer: `z · Wᵀ` row by row; for every edge the mapped row of its source, scaled by the
    edge's weight; these summed at the edge's destination, from zero; plus the bias in every row. -/
def layer (z : FVec Ideal S100000x128 .f32) (W : FVec Ideal S128x128 .f32) (b : FVec Ideal S128 .f32)
    (ei : IVec S2x1600000 32) : FVec Ideal S100000x128 .f32 :=
  addf
    (Host.scatterAdd scatter_S100000x128_S1700000x1_S1700000x128_1_0_0_1
      (broadcastInDim S100000x128 ![] bcast_S_S100000x128 (constant (F := Ideal) S_ .f32 0x00000000#32))
      (colIdx ei)
      (mulf
        (broadcastInDim S1700000x128 ![0, 1] bcast_S1700000x1_S1700000x128_0_1
          (broadcastInDim S1700000x1 ![0] bcast_S1700000_S1700000x1_0 (ewV ei)))
        (Host.gather gather_S100000x128_S1700000x1_S1700000x128_1_0_n_n_0_1_1128
          (Host.dotGeneral dot_S100000x128_S128x128_S100000x128_1_0_0_1_n_n none z
            (transpose S128x128 [1, 0] W transposes_S128x128_S128x128_1_0))
          (rowIdx ei))))
    (broadcastInDim S100000x128 ![0, 1] bcast_S1x128_S100000x128_0_1
      (broadcastInDim S1x128 ![1] bcast_S128_S1x128_1 b))

/-- The first layer's output, clipped below at zero. -/
def z1T (x : FVec Ideal S100000x128 .f32) (ei : IVec S2x1600000 32) (W1 : FVec Ideal S128x128 .f32)
    (b1 : FVec Ideal S128 .f32) : FVec Ideal S100000x128 .f32 :=
  maximumf (layer x W1 b1 ei)
    (broadcastInDim S100000x128 ![] bcast_S_S100000x128 (constant (F := Ideal) S_ .f32 0x00000000#32))

/-- The node embeddings: the second layer over the clipped first. -/
def zsT (x : FVec Ideal S100000x128 .f32) (ei : IVec S2x1600000 32) (W1 : FVec Ideal S128x128 .f32)
    (b1 : FVec Ideal S128 .f32) (W2 : FVec Ideal S128x128 .f32) (b2 : FVec Ideal S128 .f32) :
    FVec Ideal S100000x128 .f32 :=
  layer (z1T x ei W1 b1) W2 b2 ei

/-! ## The projection -/

/-- The first linear map of the projection: `zs · fcW1ᵀ + fcb1`. -/
def lin1 (zs : FVec Ideal S100000x128 .f32) (fcW1 : FVec Ideal S128x128 .f32) (fcb1 : FVec Ideal S128 .f32) :
    FVec Ideal S100000x128 .f32 :=
  addf
    (Host.dotGeneral dot_S100000x128_S128x128_S100000x128_1_0_0_1_n_n none zs
      (transpose S128x128 [1, 0] fcW1 transposes_S128x128_S128x128_1_0))
    (broadcastInDim S100000x128 ![0, 1] bcast_S1x128_S100000x128_0_1
      (broadcastInDim S1x128 ![1] bcast_S128_S1x128_1 fcb1))

/-- The exponential-linear activation: `y` where `y > 0`, and elsewhere `1 · (exp y' − 1)` with `y'` the
    entry where it is not positive, zero where it is. -/
def eluV (y : FVec Ideal S100000x128 .f32) : FVec Ideal S100000x128 .f32 :=
  select
    (cmpf .ogt y (broadcastInDim S100000x128 ![] bcast_S_S100000x128 (constant (F := Ideal) S_ .f32 0x00000000#32)))
    y
    (mulf
      (broadcastInDim S100000x128 ![] bcast_S_S100000x128 (constant (F := Ideal) S_ .f32 0x3F800000#32))
      (Host.expm1
        (select
          (cmpf .ogt y
            (broadcastInDim S100000x128 ![] bcast_S_S100000x128 (constant (F := Ideal) S_ .f32 0x00000000#32)))
          (broadcastInDim S100000x128 ![] bcast_S_S100000x128 (id (constant (F := Ideal) S_ .f32 0x00000000#32)))
          y)))

/-- The second linear map of the projection: `h · fcW2ᵀ + fcb2`. -/
def lin2 (h : FVec Ideal S100000x128 .f32) (fcW2 : FVec Ideal S64x128 .f32) (fcb2 : FVec Ideal S64 .f32) :
    FVec Ideal S100000x64 .f32 :=
  addf
    (Host.dotGeneral dot_S100000x128_S128x64_S100000x64_1_0_0_1_n_n none h
      (transpose S128x64 [1, 0] fcW2 transposes_S64x128_S128x64_1_0))
    (broadcastInDim S100000x64 ![0, 1] bcast_S1x64_S100000x64_0_1
      (broadcastInDim S1x64 ![1] bcast_S64_S1x64_1 fcb2))

/-- A row's entries shifted by the row's maximum (the maximum taken from `−∞`, and once more against `−∞`). -/
def shiftV (y : FVec Ideal S100000x64 .f32) : FVec Ideal S100000x64 .f32 :=
  subf y
    (broadcastInDim S100000x64 ![0, 1] bcast_S100000x1_S100000x64_0_1
      (broadcastInDim S100000x1 ![0] bcast_S100000_S100000x1_0
        (maximumf
          (broadcastInDim S100000 ![] bcast_S_S100000 (constant (F := Ideal) S_ .f32 0xFF800000#32))
          (Host.reduce FloatOps.maximumf y (constant (F := Ideal) S_ .f32 0xFF800000#32)
            reducesTo_S100000x64_S100000_d1 h_S_))))

/-- The row-wise log-softmax: the shifted entries minus the logarithm of the sum of their exponentials. -/
def logSoftmaxV (y : FVec Ideal S100000x64 .f32) : FVec Ideal S100000x64 .f32 :=
  subf (shiftV y)
    (broadcastInDim S100000x64 ![0, 1] bcast_S100000x1_S100000x64_0_1
      (Host.log
        (broadcastInDim S100000x1 ![0] bcast_S100000_S100000x1_0
          (Host.reduceAdd (Host.exp (shiftV y)) (constant (F := Ideal) S_ .f32 0x00000000#32)
            reducesTo_S100000x64_S100000_d1 h_S_))))

/-- The projection of the embeddings to class scores. -/
def projChain (zs : FVec Ideal S100000x128 .f32) (fcW1 : FVec Ideal S128x128 .f32) (fcb1 : FVec Ideal S128 .f32)
    (fcW2 : FVec Ideal S64x128 .f32) (fcb2 : FVec Ideal S64 .f32) : FVec Ideal S100000x64 .f32 :=
  logSoftmaxV (lin2 (eluV (lin1 zs fcW1 fcb1)) fcW2 fcb2)

/-- The class scores of the whole network. -/
def resT (x : FVec Ideal S100000x128 .f32) (ei : IVec S2x1600000 32) (W1 : FVec Ideal S128x128 .f32)
    (b1 : FVec Ideal S128 .f32) (W2 : FVec Ideal S128x128 .f32) (b2 : FVec Ideal S128 .f32)
    (fcW1 : FVec Ideal S128x128 .f32) (fcb1 : FVec Ideal S128 .f32) (fcW2 : FVec Ideal S64x128 .f32)
    (fcb2 : FVec Ideal S64 .f32) : FVec Ideal S100000x64 .f32 :=
  projChain (zsT x ei W1 b1 W2 b2) fcW1 fcb1 fcW2 fcb2

end Cert.ReferenceIdeal.RefVal

end
-- ==== Proof.RefOps.lean ====
/-
  The reference program's @main as a straight line of host operations.

  @main runs its first sixty statements and then its last thirty-five; the functions it calls (the select
  behind the normalisation factor, the clipping at zero, the exponential-linear activation with its two selects,
  the log-softmax) are written out at their call sites, each value of a called function in the buffer the call
  names for it (a called function's operation moves its operands and its result between the function's types
  and the buffers' own, which are the same types: the identity). `ops0` and `ops1` list the operations of the two stretches in order, and @main is the first list
  run, then the second.
-/
import proofs.«152069_j90555090468876_2_alg».proof.ReferenceIdeal
import Idealize.ShloMosaic.Lib.StableHlo.Run

noncomputable section

namespace Cert.ReferenceIdeal.RefOps

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts] {F : FTy → Type} [FloatOps F]

/-- The 62 operations of @main's first stretch: the edge lists, the degrees and the normalisation
    factors (the select of the called function written out), the edge weights, and the first layer up to its
    bias. -/
abbrev ops0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.unary main_cst_2 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v12 main_v13 main_call0_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v7 main_v22 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v6 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v25 (broadcastInDim S1700000 ![] bcast_S_S1700000 : (⟨S_, .i32⟩ : BufTy).Contents (Elt F) → (⟨S1700000, .i32⟩ : BufTy).Contents (Elt F)),
    StableHlo.binary main_v6 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)),
    StableHlo.unary main_arg2 main_v31 ((transpose S128x128 [1, 0] · transposes_S128x128_S128x128_1_0) : (⟨S128x128, .f32⟩ : BufTy).Contents (Elt F) → (⟨S128x128, .f32⟩ : BufTy).Contents (Elt F)),
    StableHlo.binary main_arg0 main_v31 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v30 main_v33 (broadcastInDim S1700000x1 ![0] bcast_S1700000_S1700000x1_0 : (⟨S1700000, .f32⟩ : BufTy).Contents (Elt F) → (⟨S1700000x1, .f32⟩ : BufTy).Contents (Elt F)),
    StableHlo.nullary main_c_6 (constantI S_ 32 0#32),
    StableHlo.unary main_c_6 main_v34 (broadcastInDim S1700000 ![] bcast_S_S1700000 : (⟨S_, .i32⟩ : BufTy).Contents (Elt F) → (⟨S1700000, .i32⟩ : BufTy).Contents (Elt F)),
    StableHlo.binary main_v3 main_v34 main_v35 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v36 (broadcastInDim S1700000 ![] bcast_S_S1700000 : (⟨S_, .i32⟩ : BufTy).Contents (Elt F) → (⟨S1700000, .i32⟩ : BufTy).Contents (Elt F)),
    StableHlo.binary main_v3 main_v36 main_v37 (addi : (⟨S1700000, .i32⟩ : BufTy).Contents (Elt F) → (⟨S1700000, .i32⟩ : BufTy).Contents (Elt F) → (⟨S1700000, .i32⟩ : BufTy).Contents (Elt F)),
    StableHlo.ternary main_v35 main_v37 main_v3 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v38 main_v39 (broadcastInDim S1700000x1 ![0] bcast_S1700000_S1700000x1_0 : (⟨S1700000, .i32⟩ : BufTy).Contents (Elt F) → (⟨S1700000x1, .i32⟩ : BufTy).Contents (Elt F)),
    StableHlo.binary main_v32 main_v39 main_v40 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v33 main_v41 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v41 main_v40 main_v42 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v43 (broadcastInDim S100000x128 ![] bcast_S_S100000x128 : (⟨S_, .f32⟩ : BufTy).Contents (Elt F) → (⟨S100000x128, .f32⟩ : BufTy).Contents (Elt F)),
    StableHlo.unary main_v6 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)) ]

/-- The 64 operations of @main's second stretch: the clipping at zero, the second layer, and the
    projection with its activation and its log-softmax written out. -/
abbrev ops1 : List (HloOp τ sig (Elt F)) :=
  [ StableHlo.nullary main_call1_cst (constant S_ .f32 0x00000000#32 : (⟨S_, .f32⟩ : BufTy).Contents (Elt F)),
    StableHlo.unary main_call1_cst main_call1_v0 (broadcastInDim S100000x128 ![] bcast_S_S100000x128 : (⟨S_, .f32⟩ : BufTy).Contents (Elt F) → (⟨S100000x128, .f32⟩ : BufTy).Contents (Elt F)),
    StableHlo.binary main_v48 main_call1_v0 main_v49 (maximumf : (⟨S100000x128, .f32⟩ : BufTy).Contents (Elt F) → (⟨S100000x128, .f32⟩ : BufTy).Contents (Elt F) → (⟨S100000x128, .f32⟩ : BufTy).Contents (Elt F)),
    StableHlo.unary main_arg4 main_v50 ((transpose S128x128 [1, 0] · transposes_S128x128_S128x128_1_0) : (⟨S128x128, .f32⟩ : BufTy).Contents (Elt F) → (⟨S128x128, .f32⟩ : BufTy).Contents (Elt F)),
    StableHlo.binary main_v49 main_v50 main_v51 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v30 main_v52 (broadcastInDim S1700000x1 ![0] bcast_S1700000_S1700000x1_0 : (⟨S1700000, .f32⟩ : BufTy).Contents (Elt F) → (⟨S1700000x1, .f32⟩ : BufTy).Contents (Elt F)),
    StableHlo.nullary main_c_9 (constantI S_ 32 0#32),
    StableHlo.unary main_c_9 main_v53 (broadcastInDim S1700000 ![] bcast_S_S1700000 : (⟨S_, .i32⟩ : BufTy).Contents (Elt F) → (⟨S1700000, .i32⟩ : BufTy).Contents (Elt F)),
    StableHlo.binary main_v3 main_v53 main_v54 (cmpi .slt : (⟨S1700000, .i32⟩ : BufTy).Contents (Elt F) → (⟨S1700000, .i32⟩ : BufTy).Contents (Elt F) → (⟨S1700000, .i1⟩ : BufTy).Contents (Elt F)),
    StableHlo.nullary main_c_10 (constantI S_ 32 100000#32),
    StableHlo.unary main_c_10 main_v55 (broadcastInDim S1700000 ![] bcast_S_S1700000 : (⟨S_, .i32⟩ : BufTy).Contents (Elt F) → (⟨S1700000, .i32⟩ : BufTy).Contents (Elt F)),
    StableHlo.binary main_v3 main_v55 main_v56 (addi : (⟨S1700000, .i32⟩ : BufTy).Contents (Elt F) → (⟨S1700000, .i32⟩ : BufTy).Contents (Elt F) → (⟨S1700000, .i32⟩ : BufTy).Contents (Elt F)),
    StableHlo.ternary main_v54 main_v56 main_v3 main_v57 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v57 main_v58 (broadcastInDim S1700000x1 ![0] bcast_S1700000_S1700000x1_0 : (⟨S1700000, .i32⟩ : BufTy).Contents (Elt F) → (⟨S1700000x1, .i32⟩ : BufTy).Contents (Elt F)),
    StableHlo.binary main_v51 main_v58 main_v59 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v52 main_v60 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v60 main_v59 main_v61 (mulf : (⟨S1700000x128, .f32⟩ : BufTy).Contents (Elt F) → (⟨S1700000x128, .f32⟩ : BufTy).Contents (Elt F) → (⟨S1700000x128, .f32⟩ : BufTy).Contents (Elt F)),
    StableHlo.nullary main_cst_11 (constant S_ .f32 0x00000000#32),
    StableHlo.unary main_cst_11 main_v62 (broadcastInDim S100000x128 ![] bcast_S_S100000x128 : (⟨S_, .f32⟩ : BufTy).Contents (Elt F) → (⟨S100000x128, .f32⟩ : BufTy).Contents (Elt F)),
    StableHlo.unary main_v6 main_v63 (broadcastInDim S1700000x1 ![0] bcast_S1700000_S1700000x1_0 : (⟨S1700000, .i32⟩ : BufTy).Contents (Elt F) → (⟨S1700000x1, .i32⟩ : BufTy).Contents (Elt F)),
    StableHlo.ternary main_v62 main_v63 main_v61 main_v64 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg5 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)),
    StableHlo.unary main_arg6 main_v68 ((transpose S128x128 [1, 0] · transposes_S128x128_S128x128_1_0) : (⟨S128x128, .f32⟩ : BufTy).Contents (Elt F) → (⟨S128x128, .f32⟩ : BufTy).Contents (Elt F)),
    StableHlo.binary main_v67 main_v68 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S100000x128 ![0, 1] bcast_S1x128_S100000x128_0_1 : (⟨S1x128, .f32⟩ : BufTy).Contents (Elt F) → (⟨S100000x128, .f32⟩ : BufTy).Contents (Elt F)),
    StableHlo.binary main_v69 main_v71 main_v72 (addf : (⟨S100000x128, .f32⟩ : BufTy).Contents (Elt F) → (⟨S100000x128, .f32⟩ : BufTy).Contents (Elt F) → (⟨S100000x128, .f32⟩ : BufTy).Contents (Elt F)),
    StableHlo.nullary main_call2_cst (constant S_ .f32 0x00000000#32 : (⟨S_, .f32⟩ : BufTy).Contents (Elt F)),
    StableHlo.unary main_call2_cst main_call2_v0 (broadcastInDim S100000x128 ![] bcast_S_S100000x128 : (⟨S_, .f32⟩ : BufTy).Contents (Elt F) → (⟨S100000x128, .f32⟩ : BufTy).Contents (Elt F)),
    StableHlo.binary main_v72 main_call2_v0 main_call2_v1 (cmpf .ogt : (⟨S100000x128, .f32⟩ : BufTy).Contents (Elt F) → (⟨S100000x128, .f32⟩ : BufTy).Contents (Elt F) → (⟨S100000x128, .i1⟩ : BufTy).Contents (Elt F)),
    StableHlo.nullary main_call2_cst_0 (constant S_ .f32 0x00000000#32 : (⟨S_, .f32⟩ : BufTy).Contents (Elt F)),
    StableHlo.unary main_call2_cst_0 main_call2_v2 (broadcastInDim S100000x128 ![] bcast_S_S100000x128 : (⟨S_, .f32⟩ : BufTy).Contents (Elt F) → (⟨S100000x128, .f32⟩ : BufTy).Contents (Elt F)),
    StableHlo.binary main_v72 main_call2_v2 main_call2_v3 (cmpf .ogt : (⟨S100000x128, .f32⟩ : BufTy).Contents (Elt F) → (⟨S100000x128, .f32⟩ : BufTy).Contents (Elt F) → (⟨S100000x128, .i1⟩ : BufTy).Contents (Elt F)),
    StableHlo.nullary main_call2_cst_1 (constant S_ .f32 0x00000000#32 : (⟨S_, .f32⟩ : BufTy).Contents (Elt F)),
    StableHlo.unary main_call2_cst_1 main_call2_call0_v0 (id : (⟨S_, .f32⟩ : BufTy).Contents (Elt F) → (⟨S_, .f32⟩ : BufTy).Contents (Elt F)),
    StableHlo.unary main_call2_call0_v0 main_call2_call0_v1 (broadcastInDim S100000x128 ![] bcast_S_S100000x128 : (⟨S_, .f32⟩ : BufTy).Contents (Elt F) → (⟨S100000x128, .f32⟩ : BufTy).Contents (Elt F)),
    StableHlo.ternary main_call2_v3 main_call2_call0_v1 main_v72 main_call2_v4 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)),
    StableHlo.unary main_call2_v4 main_call2_v5 (Host.expm1 : (⟨S100000x128, .f32⟩ : BufTy).Contents (Elt F) → (⟨S100000x128, .f32⟩ : BufTy).Contents (Elt F)),
    StableHlo.nullary main_call2_cst_2 (constant S_ .f32 0x3F800000#32 : (⟨S_, .f32⟩ : BufTy).Contents (Elt F)),
    StableHlo.unary main_call2_cst_2 main_call2_v6 (broadcastInDim S100000x128 ![] bcast_S_S100000x128 : (⟨S_, .f32⟩ : BufTy).Contents (Elt F) → (⟨S100000x128, .f32⟩ : BufTy).Contents (Elt F)),
    StableHlo.binary main_call2_v6 main_call2_v5 main_call2_v7 (mulf : (⟨S100000x128, .f32⟩ : BufTy).Contents (Elt F) → (⟨S100000x128, .f32⟩ : BufTy).Contents (Elt F) → (⟨S100000x128, .f32⟩ : BufTy).Contents (Elt F)),
    StableHlo.ternary main_call2_v1 main_v72 main_call2_v7 main_v73 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)),
    StableHlo.unary main_arg8 main_v74 ((transpose S128x64 [1, 0] · transposes_S64x128_S128x64_1_0) : (⟨S64x128, .f32⟩ : BufTy).Contents (Elt F) → (⟨S128x64, .f32⟩ : BufTy).Contents (Elt F)),
    StableHlo.binary main_v73 main_v74 main_v75 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg9 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v75 main_v77 main_v78 (addf : (⟨S100000x64, .f32⟩ : BufTy).Contents (Elt F) → (⟨S100000x64, .f32⟩ : BufTy).Contents (Elt F) → (⟨S100000x64, .f32⟩ : BufTy).Contents (Elt F)),
    StableHlo.nullary main_call3_cst (constant S_ .f32 0xFF800000#32 : (⟨S_, .f32⟩ : BufTy).Contents (Elt F)),
    StableHlo.binary main_v78 main_call3_cst main_call3_v0 ((fun x v => Host.reduce FloatOps.maximumf x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.nullary main_call3_cst_0 (constant S_ .f32 0xFF800000#32 : (⟨S_, .f32⟩ : BufTy).Contents (Elt F)),
    StableHlo.unary main_call3_cst_0 main_call3_v1 (broadcastInDim S100000 ![] bcast_S_S100000 : (⟨S_, .f32⟩ : BufTy).Contents (Elt F) → (⟨S100000, .f32⟩ : BufTy).Contents (Elt F)),
    StableHlo.binary main_call3_v1 main_call3_v0 main_call3_v2 (maximumf : (⟨S100000, .f32⟩ : BufTy).Contents (Elt F) → (⟨S100000, .f32⟩ : BufTy).Contents (Elt F) → (⟨S100000, .f32⟩ : BufTy).Contents (Elt F)),
    StableHlo.unary main_call3_v2 main_call3_v3 (broadcastInDim S100000x1 ![0] bcast_S100000_S100000x1_0 : (⟨S100000, .f32⟩ : BufTy).Contents (Elt F) → (⟨S100000x1, .f32⟩ : BufTy).Contents (Elt F)),
    StableHlo.unary main_call3_v3 main_call3_v4 (broadcastInDim S100000x64 ![0, 1] bcast_S100000x1_S100000x64_0_1 : (⟨S100000x1, .f32⟩ : BufTy).Contents (Elt F) → (⟨S100000x64, .f32⟩ : BufTy).Contents (Elt F)),
    StableHlo.binary main_v78 main_call3_v4 main_call3_v5 (subf : (⟨S100000x64, .f32⟩ : BufTy).Contents (Elt F) → (⟨S100000x64, .f32⟩ : BufTy).Contents (Elt F) → (⟨S100000x64, .f32⟩ : BufTy).Contents (Elt F)),
    StableHlo.unary main_call3_v5 main_call3_v6 (Host.exp : (⟨S100000x64, .f32⟩ : BufTy).Contents (Elt F) → (⟨S100000x64, .f32⟩ : BufTy).Contents (Elt F)),
    StableHlo.nullary main_call3_cst_1 (constant S_ .f32 0x00000000#32 : (⟨S_, .f32⟩ : BufTy).Contents (Elt F)),
    StableHlo.binary main_call3_v6 main_call3_cst_1 main_call3_v7 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call3_v7 main_call3_v8 (broadcastInDim S100000x1 ![0] bcast_S100000_S100000x1_0 : (⟨S100000, .f32⟩ : BufTy).Contents (Elt F) → (⟨S100000x1, .f32⟩ : BufTy).Contents (Elt F)),
    StableHlo.unary main_call3_v8 main_call3_v9 (Host.log : (⟨S100000x1, .f32⟩ : BufTy).Contents (Elt F) → (⟨S100000x1, .f32⟩ : BufTy).Contents (Elt F)),
    StableHlo.unary main_call3_v9 main_call3_v10 (broadcastInDim S100000x64 ![0, 1] bcast_S100000x1_S100000x64_0_1 : (⟨S100000x1, .f32⟩ : BufTy).Contents (Elt F) → (⟨S100000x64, .f32⟩ : BufTy).Contents (Elt F)),
    StableHlo.binary main_call3_v5 main_call3_v10 main_v79 (subf : (⟨S100000x64, .f32⟩ : BufTy).Contents (Elt F) → (⟨S100000x64, .f32⟩ : BufTy).Contents (Elt F) → (⟨S100000x64, .f32⟩ : BufTy).Contents (Elt F)) ]

set_option maxRecDepth 8192 in
/-- The first stretch is its list run in order: the called function unfolded at its call, the sequencing
    re-associated. -/
theorem part0_eq (c : Dev nD) : main_part0 (F := F) c = seq ops0 := by
  simp only [main_part0, fn_where.body, seq, bind_assoc, pure_bind] <;> rfl

/-- The second stretch's operations as the called functions state them: over the calls' typed buffer records. -/
abbrev ops1T : List (HloOp τ sig (Elt F)) :=
  [ StableHlo.TRef.nullary main_call1.cst (constant S_ .f32 0x00000000#32),
    StableHlo.TRef.unary main_call1.cst main_call1.v0 (broadcastInDim S100000x128 ![] bcast_S_S100000x128),
    StableHlo.TRef.binary (.of main_v48 : StableHlo.TRef sig ⟨S100000x128, .f32⟩) main_call1.v0 main_call1.v1 maximumf,
    StableHlo.unary main_arg4 main_v50 ((transpose S128x128 [1, 0] · transposes_S128x128_S128x128_1_0) : (⟨S128x128, .f32⟩ : BufTy).Contents (Elt F) → (⟨S128x128, .f32⟩ : BufTy).Contents (Elt F)),
    StableHlo.binary main_v49 main_v50 main_v51 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v30 main_v52 (broadcastInDim S1700000x1 ![0] bcast_S1700000_S1700000x1_0 : (⟨S1700000, .f32⟩ : BufTy).Contents (Elt F) → (⟨S1700000x1, .f32⟩ : BufTy).Contents (Elt F)),
    StableHlo.nullary main_c_9 (constantI S_ 32 0#32),
    StableHlo.unary main_c_9 main_v53 (broadcastInDim S1700000 ![] bcast_S_S1700000 : (⟨S_, .i32⟩ : BufTy).Contents (Elt F) → (⟨S1700000, .i32⟩ : BufTy).Contents (Elt F)),
    StableHlo.binary main_v3 main_v53 main_v54 (cmpi .slt : (⟨S1700000, .i32⟩ : BufTy).Contents (Elt F) → (⟨S1700000, .i32⟩ : BufTy).Contents (Elt F) → (⟨S1700000, .i1⟩ : BufTy).Contents (Elt F)),
    StableHlo.nullary main_c_10 (constantI S_ 32 100000#32),
    StableHlo.unary main_c_10 main_v55 (broadcastInDim S1700000 ![] bcast_S_S1700000 : (⟨S_, .i32⟩ : BufTy).Contents (Elt F) → (⟨S1700000, .i32⟩ : BufTy).Contents (Elt F)),
    StableHlo.binary main_v3 main_v55 main_v56 (addi : (⟨S1700000, .i32⟩ : BufTy).Contents (Elt F) → (⟨S1700000, .i32⟩ : BufTy).Contents (Elt F) → (⟨S1700000, .i32⟩ : BufTy).Contents (Elt F)),
    StableHlo.ternary main_v54 main_v56 main_v3 main_v57 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v57 main_v58 (broadcastInDim S1700000x1 ![0] bcast_S1700000_S1700000x1_0 : (⟨S1700000, .i32⟩ : BufTy).Contents (Elt F) → (⟨S1700000x1, .i32⟩ : BufTy).Contents (Elt F)),
    StableHlo.binary main_v51 main_v58 main_v59 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v52 main_v60 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v60 main_v59 main_v61 (mulf : (⟨S1700000x128, .f32⟩ : BufTy).Contents (Elt F) → (⟨S1700000x128, .f32⟩ : BufTy).Contents (Elt F) → (⟨S1700000x128, .f32⟩ : BufTy).Contents (Elt F)),
    StableHlo.nullary main_cst_11 (constant S_ .f32 0x00000000#32),
    StableHlo.unary main_cst_11 main_v62 (broadcastInDim S100000x128 ![] bcast_S_S100000x128 : (⟨S_, .f32⟩ : BufTy).Contents (Elt F) → (⟨S100000x128, .f32⟩ : BufTy).Contents (Elt F)),
    StableHlo.unary main_v6 main_v63 (broadcastInDim S1700000x1 ![0] bcast_S1700000_S1700000x1_0 : (⟨S1700000, .i32⟩ : BufTy).Contents (Elt F) → (⟨S1700000x1, .i32⟩ : BufTy).Contents (Elt F)),
    StableHlo.ternary main_v62 main_v63 main_v61 main_v64 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg5 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)),
    StableHlo.unary main_arg6 main_v68 ((transpose S128x128 [1, 0] · transposes_S128x128_S128x128_1_0) : (⟨S128x128, .f32⟩ : BufTy).Contents (Elt F) → (⟨S128x128, .f32⟩ : BufTy).Contents (Elt F)),
    StableHlo.binary main_v67 main_v68 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S100000x128 ![0, 1] bcast_S1x128_S100000x128_0_1 : (⟨S1x128, .f32⟩ : BufTy).Contents (Elt F) → (⟨S100000x128, .f32⟩ : BufTy).Contents (Elt F)),
    StableHlo.binary main_v69 main_v71 main_v72 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v72 : StableHlo.TRef sig ⟨S100000x128, .f32⟩) main_call2.v0 main_call2.v1 (cmpf .ogt),
    StableHlo.TRef.nullary main_call2.cst_0 (constant S_ .f32 0x00000000#32),
    StableHlo.TRef.unary main_call2.cst_0 main_call2.v2 (broadcastInDim S100000x128 ![] bcast_S_S100000x128),
    StableHlo.TRef.binary (.of main_v72 : StableHlo.TRef sig ⟨S100000x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x128 ![] bcast_S_S100000x128),
    StableHlo.TRef.ternary main_call2.v3 main_call2.call0.v1 (.of main_v72 : StableHlo.TRef sig ⟨S100000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x128 ![] bcast_S_S100000x128),
    StableHlo.TRef.binary main_call2.v6 main_call2.v5 main_call2.v7 mulf,
    StableHlo.TRef.ternary main_call2.v1 (.of main_v72 : StableHlo.TRef sig ⟨S100000x128, .f32⟩) main_call2.v7 main_call2.call1.v0 select,
    StableHlo.unary main_arg8 main_v74 ((transpose S128x64 [1, 0] · transposes_S64x128_S128x64_1_0) : (⟨S64x128, .f32⟩ : BufTy).Contents (Elt F) → (⟨S128x64, .f32⟩ : BufTy).Contents (Elt F)),
    StableHlo.binary main_v73 main_v74 main_v75 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg9 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v75 main_v77 main_v78 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0xFF800000#32),
    StableHlo.TRef.binary (.of main_v78 : StableHlo.TRef sig ⟨S100000x64, .f32⟩) main_call3.cst main_call3.v0 (fun x v => Host.reduce FloatOps.maximumf x v reducesTo_S100000x64_S100000_d1 h_S_),
    StableHlo.TRef.nullary main_call3.cst_0 (constant S_ .f32 0xFF800000#32),
    StableHlo.TRef.unary main_call3.cst_0 main_call3.v1 (broadcastInDim S100000 ![] bcast_S_S100000),
    StableHlo.TRef.binary main_call3.v1 main_call3.v0 main_call3.v2 maximumf,
    StableHlo.TRef.unary main_call3.v2 main_call3.v3 (broadcastInDim S100000x1 ![0] bcast_S100000_S100000x1_0),
    StableHlo.TRef.unary main_call3.v3 main_call3.v4 (broadcastInDim S100000x64 ![0, 1] bcast_S100000x1_S100000x64_0_1),
    StableHlo.TRef.binary (.of main_v78 : StableHlo.TRef sig ⟨S100000x64, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S100000x64_S100000_d1 h_S_),
    StableHlo.TRef.unary main_call3.v7 main_call3.v8 (broadcastInDim S100000x1 ![0] bcast_S100000_S100000x1_0),
    StableHlo.TRef.unary main_call3.v8 main_call3.v9 Host.log,
    StableHlo.TRef.unary main_call3.v9 main_call3.v10 (broadcastInDim S100000x64 ![0, 1] bcast_S100000x1_S100000x64_0_1),
    StableHlo.TRef.binary main_call3.v5 main_call3.v10 main_call3.v11 subf ]

set_option maxRecDepth 8192 in
/-- The second stretch is that list run in order. -/
theorem part1T_eq (c : Dev nD) : main_part1 (F := F) c = seq ops1T := by
  simp only [main_part1, fn_relu.body, fn_elu.body, fn_where_0.body, fn_where_1.body, fn_log_softmax.body, seq,
    bind_assoc, pure_bind]

attribute [local irreducible] Host.reduce in
set_option maxRecDepth 8192 in
/-- Operation by operation the two spellings of the second stretch agree: a typed record's buffer is the literal
    buffer, and the move between a function's types and the buffer's own is the identity. -/
theorem ops1T_eq : (ops1T : List (HloOp τ sig (Elt F))) = ops1 := by
  iterate 64 refine congrArg₂ List.cons rfl ?_
  rfl

/-- The second stretch is its list run in order. -/
theorem part1_eq (c : Dev nD) : main_part1 (F := F) c = seq ops1 := by
  rw [part1T_eq, ops1T_eq]

/-- @main is the two lists, one after the other. -/
theorem main_eq (c : Dev nD) : main (F := F) c = seq (ops0 ++ ops1) := by
  rw [seq_append, ← part0_eq c, ← part1_eq c]
  rfl

/-- The seven operations of the first stretch that build the two edge lists. -/
abbrev opsE : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The rest of the first stretch. -/
abbrev opsN : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.unary main_cst_2 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v12 main_v13 main_call0_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v7 main_v22 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v6 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v25 (broadcastInDim S1700000 ![] bcast_S_S1700000 : (⟨S_, .i32⟩ : BufTy).Contents (Elt F) → (⟨S1700000, .i32⟩ : BufTy).Contents (Elt F)),
    StableHlo.binary main_v6 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)),
    StableHlo.unary main_arg2 main_v31 ((transpose S128x128 [1, 0] · transposes_S128x128_S128x128_1_0) : (⟨S128x128, .f32⟩ : BufTy).Contents (Elt F) → (⟨S128x128, .f32⟩ : BufTy).Contents (Elt F)),
    StableHlo.binary main_arg0 main_v31 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v30 main_v33 (broadcastInDim S1700000x1 ![0] bcast_S1700000_S1700000x1_0 : (⟨S1700000, .f32⟩ : BufTy).Contents (Elt F) → (⟨S1700000x1, .f32⟩ : BufTy).Contents (Elt F)),
    StableHlo.nullary main_c_6 (constantI S_ 32 0#32),
    StableHlo.unary main_c_6 main_v34 (broadcastInDim S1700000 ![] bcast_S_S1700000 : (⟨S_, .i32⟩ : BufTy).Contents (Elt F) → (⟨S1700000, .i32⟩ : BufTy).Contents (Elt F)),
    StableHlo.binary main_v3 main_v34 main_v35 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v36 (broadcastInDim S1700000 ![] bcast_S_S1700000 : (⟨S_, .i32⟩ : BufTy).Contents (Elt F) → (⟨S1700000, .i32⟩ : BufTy).Contents (Elt F)),
    StableHlo.binary main_v3 main_v36 main_v37 (addi : (⟨S1700000, .i32⟩ : BufTy).Contents (Elt F) → (⟨S1700000, .i32⟩ : BufTy).Contents (Elt F) → (⟨S1700000, .i32⟩ : BufTy).Contents (Elt F)),
    StableHlo.ternary main_v35 main_v37 main_v3 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v38 main_v39 (broadcastInDim S1700000x1 ![0] bcast_S1700000_S1700000x1_0 : (⟨S1700000, .i32⟩ : BufTy).Contents (Elt F) → (⟨S1700000x1, .i32⟩ : BufTy).Contents (Elt F)),
    StableHlo.binary main_v32 main_v39 main_v40 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v33 main_v41 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v41 main_v40 main_v42 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v43 (broadcastInDim S100000x128 ![] bcast_S_S100000x128 : (⟨S_, .f32⟩ : BufTy).Contents (Elt F) → (⟨S100000x128, .f32⟩ : BufTy).Contents (Elt F)),
    StableHlo.unary main_v6 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)) ]

theorem ops0_split : (ops0 : List (HloOp τ sig (Elt F))) = opsE ++ opsN := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    unary_bufs_sub .., binary_bufs_sub ..⟩

set_option maxRecDepth 8192 in
theorem ops1_sub : (ops1 : List (HloOp τ sig (Elt F))).Forall fun op => op.bufs ⊆ tcRefs τ sig :=
  ⟨nullary_bufs_sub .., unary_bufs_sub .., binary_bufs_sub .., unary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub ..⟩

/-- Every operation of @main touches TensorCore buffers only. -/
theorem ops_sub : (ops0 ++ ops1 : List (HloOp τ sig (Elt F))).Forall fun op => op.bufs ⊆ tcRefs τ sig :=
  List.forall_iff_forall_mem.mpr fun op h => by
    rcases List.mem_append.mp h with h | h
    exacts [List.forall_iff_forall_mem.mp ops0_sub op h, List.forall_iff_forall_mem.mp ops1_sub op h]

set_option maxRecDepth 8192 in
theorem fresh0 : ∀ op ∈ (ops0 : List (HloOp τ sig (Elt F))), op.fresh = ∅ := by
  intro _ h; (repeat (cases h with | head => rfl | tail _ h => ?_)); exact nomatch h

set_option maxRecDepth 8192 in
theorem fresh1 : ∀ op ∈ (ops1 : List (HloOp τ sig (Elt F))), op.fresh = ∅ := by
  intro _ h; (repeat (cases h with | head => rfl | tail _ h => ?_)); exact nomatch h

/-- No operation of @main leaves a result undetermined. -/
theorem fresh : ∀ op ∈ (ops0 ++ ops1 : List (HloOp τ sig (Elt F))), op.fresh = ∅ := fun op h => by
  rcases List.mem_append.mp h with h | h
  exacts [fresh0 op h, fresh1 op h]

end Cert.ReferenceIdeal.RefOps

end
-- ==== Proof.RefRun.lean ====
/-
  The reference program's run, read back: every weakly fair execution of its @main terminates with the node
  embeddings and the class scores at the composed functions `RefVal.zsT` and `RefVal.resT` of the arguments, and
  the arguments unchanged.

  @main's operations are read in three stretches, each from ANY buffer contents: the seven that build the two
  edge lists; the rest of @main's first sixty statements (degrees, normalisation, edge weights, first layer),
  which read the edge lists from their buffers; and the last thirty-five (clipping, second layer, projection),
  which read the edge lists, the edge weights and the first layer from theirs. A stretch's result is stated over
  the contents it starts from, so the three compose by rewriting, and what is left is the unfolding of
  `RefVal`'s definitions.
-/
import proofs.«152069_j90555090468876_2_alg».proof.Proof.RefVal
import proofs.«152069_j90555090468876_2_alg».proof.Proof.RefOps

noncomputable section

namespace Cert.ReferenceIdeal.RefRun

open Cert.ReferenceIdeal Cert.ReferenceIdeal.RefOps Idealize.ShloMosaic Idealize.ShloMosaic.TcCoe Idealize.SL.Sem
  Idealize.ShloMosaic.StableHlo
open Cert.ReferenceIdeal.Facts₀ Cert.ReferenceIdeal.Facts

variable [Cert.ReferenceIdeal.Facts]

/-! ## The pieces of a layer over any edge data

The second layer reads the edge lists and the edge weights the first stretch of @main left in their buffers; the
same composition of operations as `RefVal.layer`, with those three arrays as arguments. -/

/-- A node-index vector as a one-column index array, a negative index counted from the end. -/
def normIdx (r : IVec S1700000 32) : IVec S1700000x1 32 :=
  broadcastInDim S1700000x1 ![0] bcast_S1700000_S1700000x1_0
    (select
      (cmpi .slt r (broadcastInDim S1700000 ![] bcast_S_S1700000 (constantI S_ 32 0#32)))
      (addi r (broadcastInDim S1700000 ![] bcast_S_S1700000 (constantI S_ 32 100000#32)))
      r)

/-- One layer over given edge weights `ew`, sources `r` and destinations `c`. -/
def layerAt (z : FVec Ideal S100000x128 .f32) (W : FVec Ideal S128x128 .f32) (b : FVec Ideal S128 .f32)
    (ew : FVec Ideal S1700000 .f32) (r c : IVec S1700000 32) : FVec Ideal S100000x128 .f32 :=
  addf
    (Host.scatterAdd scatter_S100000x128_S1700000x1_S1700000x128_1_0_0_1
      (broadcastInDim S100000x128 ![] bcast_S_S100000x128 (constant (F := Ideal) S_ .f32 0x00000000#32))
      (broadcastInDim S1700000x1 ![0] bcast_S1700000_S1700000x1_0 c)
      (mulf
        (broadcastInDim S1700000x128 ![0, 1] bcast_S1700000x1_S1700000x128_0_1
          (broadcastInDim S1700000x1 ![0] bcast_S1700000_S1700000x1_0 ew))
        (Host.gather gather_S100000x128_S1700000x1_S1700000x128_1_0_n_n_0_1_1128
          (Host.dotGeneral dot_S100000x128_S128x128_S100000x128_1_0_0_1_n_n none z
            (transpose S128x128 [1, 0] W transposes_S128x128_S128x128_1_0))
          (normIdx r))))
    (broadcastInDim S100000x128 ![0, 1] bcast_S1x128_S100000x128_0_1
      (broadcastInDim S1x128 ![1] bcast_S128_S1x128_1 b))

/-- `RefVal.layer` is `layerAt` at the edge data of the edge array. -/
theorem layer_eq (z : FVec Ideal S100000x128 .f32) (W : FVec Ideal S128x128 .f32) (b : FVec Ideal S128 .f32)
    (ei : IVec S2x1600000 32) :
    RefVal.layer z W b ei = layerAt z W b (RefVal.ewV ei) (RefVal.rowV ei) (RefVal.colV ei) := rfl

/-! ## The normalisation and the edge weights over any edge lists

The operations after the two edge lists are built read them from their buffers; the same compositions as
`RefVal.degV` … `RefVal.ewV`, with the source vector `r` and the destination vector `c` as arguments. -/

/-- The degrees over the destinations `c`. -/
def degAt (c : IVec S1700000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 c)
    (broadcastInDim S1700000 ![] bcast_S_S1700000 (constant (F := Ideal) S_ .f32 0x3F800000#32))

/-- The normalisation factors over the destinations `c`. -/
def dinvAt (c : IVec S1700000 32) : FVec Ideal S100000 .f32 :=
  select
    (cmpf .ogt (degAt c) (broadcastInDim S100000 ![] bcast_S_S100000 (constant (F := Ideal) S_ .f32 0x00000000#32)))
    (Host.rsqrt (degAt c))
    (broadcastInDim S100000 ![] bcast_S_S100000 (id (constant (F := Ideal) S_ .f32 0x00000000#32)))

/-- The edge weights over the sources `r` and the destinations `c`. -/
def ewAt (r c : IVec S1700000 32) : FVec Ideal S1700000 .f32 :=
  mulf
    (mulf (Host.gather gather_S100000_S1700000x1_S1700000_n_0_n_n_0_1_1 (dinvAt c) (normIdx r))
      (broadcastInDim S1700000 ![] bcast_S_S1700000 (constant (F := Ideal) S_ .f32 0x3F800000#32)))
    (Host.gather gather_S100000_S1700000x1_S1700000_n_0_n_n_0_1_1 (dinvAt c) (normIdx c))

/-- `RefVal.ewV` is `ewAt` at the edge lists of the edge array. -/
theorem ew_eq (ei : IVec S2x1600000 32) : RefVal.ewV ei = ewAt (RefVal.rowV ei) (RefVal.colV ei) := rfl

/-! ## The edge lists, from any contents -/

set_option maxRecDepth 8192 in
set_option maxHeartbeats 4000000 in
/-- After the first seven operations the source vector's buffer holds `rowV` of the edge array. -/
theorem rowE (V : Valuation τ sig (Elt Ideal)) :
    after (opsE (F := Ideal)) V (main_v3 : DevRef τ sig) = RefVal.rowV (V (main_arg1 : DevRef τ sig)) := by
  after_results_simp <;> rfl

set_option maxRecDepth 8192 in
set_option maxHeartbeats 4000000 in
/-- … and the destination vector's buffer holds `colV`. -/
theorem colE (V : Valuation τ sig (Elt Ideal)) :
    after (opsE (F := Ideal)) V (main_v6 : DevRef τ sig) = RefVal.colV (V (main_arg1 : DevRef τ sig)) := by
  after_results_simp <;> rfl

set_option maxRecDepth 8192 in
set_option maxHeartbeats 4000000 in
theorem arg0_E (V : Valuation τ sig (Elt Ideal)) :
    after (opsE (F := Ideal)) V (main_arg0 : DevRef τ sig) = V (main_arg0 : DevRef τ sig) := by
  after_results_simp <;> rfl

set_option maxRecDepth 8192 in
set_option maxHeartbeats 4000000 in
theorem arg1_E (V : Valuation τ sig (Elt Ideal)) :
    after (opsE (F := Ideal)) V (main_arg1 : DevRef τ sig) = V (main_arg1 : DevRef τ sig) := by
  after_results_simp <;> rfl

set_option maxRecDepth 8192 in
set_option maxHeartbeats 4000000 in
theorem arg2_E (V : Valuation τ sig (Elt Ideal)) :
    after (opsE (F := Ideal)) V (main_arg2 : DevRef τ sig) = V (main_arg2 : DevRef τ sig) := by
  after_results_simp <;> rfl

set_option maxRecDepth 8192 in
set_option maxHeartbeats 4000000 in
theorem arg3_E (V : Valuation τ sig (Elt Ideal)) :
    after (opsE (F := Ideal)) V (main_arg3 : DevRef τ sig) = V (main_arg3 : DevRef τ sig) := by
  after_results_simp <;> rfl

set_option maxRecDepth 8192 in
set_option maxHeartbeats 4000000 in
theorem arg4_E (V : Valuation τ sig (Elt Ideal)) :
    after (opsE (F := Ideal)) V (main_arg4 : DevRef τ sig) = V (main_arg4 : DevRef τ sig) := by
  after_results_simp <;> rfl

set_option maxRecDepth 8192 in
set_option maxHeartbeats 4000000 in
theorem arg5_E (V : Valuation τ sig (Elt Ideal)) :
    after (opsE (F := Ideal)) V (main_arg5 : DevRef τ sig) = V (main_arg5 : DevRef τ sig) := by
  after_results_simp <;> rfl

set_option maxRecDepth 8192 in
set_option maxHeartbeats 4000000 in
theorem arg6_E (V : Valuation τ sig (Elt Ideal)) :
    after (opsE (F := Ideal)) V (main_arg6 : DevRef τ sig) = V (main_arg6 : DevRef τ sig) := by
  after_results_simp <;> rfl

set_option maxRecDepth 8192 in
set_option maxHeartbeats 4000000 in
theorem arg7_E (V : Valuation τ sig (Elt Ideal)) :
    after (opsE (F := Ideal)) V (main_arg7 : DevRef τ sig) = V (main_arg7 : DevRef τ sig) := by
  after_results_simp <;> rfl

set_option maxRecDepth 8192 in
set_option maxHeartbeats 4000000 in
theorem arg8_E (V : Valuation τ sig (Elt Ideal)) :
    after (opsE (F := Ideal)) V (main_arg8 : DevRef τ sig) = V (main_arg8 : DevRef τ sig) := by
  after_results_simp <;> rfl

set_option maxRecDepth 8192 in
set_option maxHeartbeats 4000000 in
theorem arg9_E (V : Valuation τ sig (Elt Ideal)) :
    after (opsE (F := Ideal)) V (main_arg9 : DevRef τ sig) = V (main_arg9 : DevRef τ sig) := by
  after_results_simp <;> rfl

/-! ## The rest of the first stretch, from any contents -/

set_option maxRecDepth 8192 in
set_option maxHeartbeats 4000000 in
/-- The edge weights' buffer holds `ewAt` of the two edge-list buffers. -/
theorem ewN (W : Valuation τ sig (Elt Ideal)) :
    after (opsN (F := Ideal)) W (main_v30 : DevRef τ sig) = ewAt (W (main_v3 : DevRef τ sig)) (W (main_v6 : DevRef τ sig)) := by
  after_results_simp <;> rfl

set_option maxRecDepth 8192 in
set_option maxHeartbeats 4000000 in
/-- The first layer's buffer holds `layerAt` of the features, the first weights and the edge data. -/
theorem layerN (W : Valuation τ sig (Elt Ideal)) :
    after (opsN (F := Ideal)) W (main_v48 : DevRef τ sig)
      = layerAt (W (main_arg0 : DevRef τ sig)) (W (main_arg2 : DevRef τ sig)) (W (main_arg3 : DevRef τ sig))
          (ewAt (W (main_v3 : DevRef τ sig)) (W (main_v6 : DevRef τ sig))) (W (main_v3 : DevRef τ sig)) (W (main_v6 : DevRef τ sig)) := by
  after_results_simp <;> rfl

set_option maxRecDepth 8192 in
set_option maxHeartbeats 4000000 in
theorem row_N (W : Valuation τ sig (Elt Ideal)) :
    after (opsN (F := Ideal)) W (main_v3 : DevRef τ sig) = W (main_v3 : DevRef τ sig) := by
  after_results_simp <;> rfl

set_option maxRecDepth 8192 in
set_option maxHeartbeats 4000000 in
theorem col_N (W : Valuation τ sig (Elt Ideal)) :
    after (opsN (F := Ideal)) W (main_v6 : DevRef τ sig) = W (main_v6 : DevRef τ sig) := by
  after_results_simp <;> rfl

set_option maxRecDepth 8192 in
set_option maxHeartbeats 4000000 in
theorem arg0_N (W : Valuation τ sig (Elt Ideal)) :
    after (opsN (F := Ideal)) W (main_arg0 : DevRef τ sig) = W (main_arg0 : DevRef τ sig) := by
  after_results_simp <;> rfl

set_option maxRecDepth 8192 in
set_option maxHeartbeats 4000000 in
theorem arg1_N (W : Valuation τ sig (Elt Ideal)) :
    after (opsN (F := Ideal)) W (main_arg1 : DevRef τ sig) = W (main_arg1 : DevRef τ sig) := by
  after_results_simp <;> rfl

set_option maxRecDepth 8192 in
set_option maxHeartbeats 4000000 in
theorem arg2_N (W : Valuation τ sig (Elt Ideal)) :
    after (opsN (F := Ideal)) W (main_arg2 : DevRef τ sig) = W (main_arg2 : DevRef τ sig) := by
  after_results_simp <;> rfl

set_option maxRecDepth 8192 in
set_option maxHeartbeats 4000000 in
theorem arg3_N (W : Valuation τ sig (Elt Ideal)) :
    after (opsN (F := Ideal)) W (main_arg3 : DevRef τ sig) = W (main_arg3 : DevRef τ sig) := by
  after_results_simp <;> rfl

set_option maxRecDepth 8192 in
set_option maxHeartbeats 4000000 in
theorem arg4_N (W : Valuation τ sig (Elt Ideal)) :
    after (opsN (F := Ideal)) W (main_arg4 : DevRef τ sig) = W (main_arg4 : DevRef τ sig) := by
  after_results_simp <;> rfl

set_option maxRecDepth 8192 in
set_option maxHeartbeats 4000000 in
theorem arg5_N (W : Valuation τ sig (Elt Ideal)) :
    after (opsN (F := Ideal)) W (main_arg5 : DevRef τ sig) = W (main_arg5 : DevRef τ sig) := by
  after_results_simp <;> rfl

set_option maxRecDepth 8192 in
set_option maxHeartbeats 4000000 in
theorem arg6_N (W : Valuation τ sig (Elt Ideal)) :
    after (opsN (F := Ideal)) W (main_arg6 : DevRef τ sig) = W (main_arg6 : DevRef τ sig) := by
  after_results_simp <;> rfl

set_option maxRecDepth 8192 in
set_option maxHeartbeats 4000000 in
theorem arg7_N (W : Valuation τ sig (Elt Ideal)) :
    after (opsN (F := Ideal)) W (main_arg7 : DevRef τ sig) = W (main_arg7 : DevRef τ sig) := by
  after_results_simp <;> rfl

set_option maxRecDepth 8192 in
set_option maxHeartbeats 4000000 in
theorem arg8_N (W : Valuation τ sig (Elt Ideal)) :
    after (opsN (F := Ideal)) W (main_arg8 : DevRef τ sig) = W (main_arg8 : DevRef τ sig) := by
  after_results_simp <;> rfl

set_option maxRecDepth 8192 in
set_option maxHeartbeats 4000000 in
theorem arg9_N (W : Valuation τ sig (Elt Ideal)) :
    after (opsN (F := Ideal)) W (main_arg9 : DevRef τ sig) = W (main_arg9 : DevRef τ sig) := by
  after_results_simp <;> rfl

/-! ## The second stretch, from any contents -/

set_option maxRecDepth 8192 in
set_option maxHeartbeats 4000000 in
/-- After the second stretch the embeddings' buffer holds the second layer over the clipped contents of the
    first layer's buffer, with the edge data read from the buffers the first stretch wrote. -/
theorem zs1 (W : Valuation τ sig (Elt Ideal)) :
    after (ops1 (F := Ideal)) W (main_v67 : DevRef τ sig)
      = layerAt
        (maximumf (W (main_v48 : DevRef τ sig))
          (broadcastInDim S100000x128 ![] bcast_S_S100000x128 (constant (F := Ideal) S_ .f32 0x00000000#32)))
        (W (main_arg4 : DevRef τ sig)) (W (main_arg5 : DevRef τ sig)) (W (main_v30 : DevRef τ sig)) (W (main_v3 : DevRef τ sig)) (W (main_v6 : DevRef τ sig)) := by
  after_results_simp <;> rfl

attribute [local irreducible] Host.reduce in
set_option maxRecDepth 8192 in
set_option maxHeartbeats 4000000 in
/-- … and the scores' buffer holds the projection of those embeddings. -/
theorem res1 (W : Valuation τ sig (Elt Ideal)) :
    after (ops1 (F := Ideal)) W (main_v79 : DevRef τ sig)
      = RefVal.projChain
          (layerAt
        (maximumf (W (main_v48 : DevRef τ sig))
          (broadcastInDim S100000x128 ![] bcast_S_S100000x128 (constant (F := Ideal) S_ .f32 0x00000000#32)))
        (W (main_arg4 : DevRef τ sig)) (W (main_arg5 : DevRef τ sig)) (W (main_v30 : DevRef τ sig)) (W (main_v3 : DevRef τ sig)) (W (main_v6 : DevRef τ sig)))
          (W (main_arg6 : DevRef τ sig)) (W (main_arg7 : DevRef τ sig)) (W (main_arg8 : DevRef τ sig)) (W (main_arg9 : DevRef τ sig)) := by
  after_results_simp <;> rfl

/-! The second stretch writes no argument. -/

set_option maxRecDepth 8192 in
set_option maxHeartbeats 4000000 in
theorem arg0_1 (W : Valuation τ sig (Elt Ideal)) :
    after (ops1 (F := Ideal)) W (main_arg0 : DevRef τ sig) = W (main_arg0 : DevRef τ sig) := by
  after_results_simp <;> rfl

set_option maxRecDepth 8192 in
set_option maxHeartbeats 4000000 in
theorem arg1_1 (W : Valuation τ sig (Elt Ideal)) :
    after (ops1 (F := Ideal)) W (main_arg1 : DevRef τ sig) = W (main_arg1 : DevRef τ sig) := by
  after_results_simp <;> rfl

set_option maxRecDepth 8192 in
set_option maxHeartbeats 4000000 in
theorem arg2_1 (W : Valuation τ sig (Elt Ideal)) :
    after (ops1 (F := Ideal)) W (main_arg2 : DevRef τ sig) = W (main_arg2 : DevRef τ sig) := by
  after_results_simp <;> rfl

set_option maxRecDepth 8192 in
set_option maxHeartbeats 4000000 in
theorem arg3_1 (W : Valuation τ sig (Elt Ideal)) :
    after (ops1 (F := Ideal)) W (main_arg3 : DevRef τ sig) = W (main_arg3 : DevRef τ sig) := by
  after_results_simp <;> rfl

set_option maxRecDepth 8192 in
set_option maxHeartbeats 4000000 in
theorem arg4_1 (W : Valuation τ sig (Elt Ideal)) :
    after (ops1 (F := Ideal)) W (main_arg4 : DevRef τ sig) = W (main_arg4 : DevRef τ sig) := by
  after_results_simp <;> rfl

set_option maxRecDepth 8192 in
set_option maxHeartbeats 4000000 in
theorem arg5_1 (W : Valuation τ sig (Elt Ideal)) :
    after (ops1 (F := Ideal)) W (main_arg5 : DevRef τ sig) = W (main_arg5 : DevRef τ sig) := by
  after_results_simp <;> rfl

set_option maxRecDepth 8192 in
set_option maxHeartbeats 4000000 in
theorem arg6_1 (W : Valuation τ sig (Elt Ideal)) :
    after (ops1 (F := Ideal)) W (main_arg6 : DevRef τ sig) = W (main_arg6 : DevRef τ sig) := by
  after_results_simp <;> rfl

set_option maxRecDepth 8192 in
set_option maxHeartbeats 4000000 in
theorem arg7_1 (W : Valuation τ sig (Elt Ideal)) :
    after (ops1 (F := Ideal)) W (main_arg7 : DevRef τ sig) = W (main_arg7 : DevRef τ sig) := by
  after_results_simp <;> rfl

set_option maxRecDepth 8192 in
set_option maxHeartbeats 4000000 in
theorem arg8_1 (W : Valuation τ sig (Elt Ideal)) :
    after (ops1 (F := Ideal)) W (main_arg8 : DevRef τ sig) = W (main_arg8 : DevRef τ sig) := by
  after_results_simp <;> rfl

set_option maxRecDepth 8192 in
set_option maxHeartbeats 4000000 in
theorem arg9_1 (W : Valuation τ sig (Elt Ideal)) :
    after (ops1 (F := Ideal)) W (main_arg9 : DevRef τ sig) = W (main_arg9 : DevRef τ sig) := by
  after_results_simp <;> rfl

/-! ## @main, from any contents -/

/-- Two lines run one after the other: the contents after the second, from the contents after the first. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- @main's operations are the edge lists' seven, the rest of the first stretch, then the second stretch. -/
theorem after_main (V : Valuation τ sig (Elt Ideal)) :
    after (ops0 ++ ops1 (F := Ideal)) V = after ops1 (after opsN (after opsE V)) := by
  rw [after_app, ops0_split, after_app]

/-- After @main the embeddings' buffer holds `zsT` of the arguments. -/
theorem zs_eq (V : Valuation τ sig (Elt Ideal)) :
    after (ops0 ++ ops1 (F := Ideal)) V (main_v67 : DevRef τ sig)
      = RefVal.zsT (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [after_main, zs1, layerN, ewN, row_N, col_N, arg4_N, arg5_N, rowE, colE, arg0_E, arg2_E, arg3_E, arg4_E, arg5_E]
  rfl

/-- After @main the scores' buffer holds `resT` of the arguments. -/
theorem res_eq (V : Valuation τ sig (Elt Ideal)) :
    after (ops0 ++ ops1 (F := Ideal)) V (main_v79 : DevRef τ sig)
      = RefVal.resT (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [after_main, res1, layerN, ewN, row_N, col_N, arg4_N, arg5_N, arg6_N, arg7_N, arg8_N, arg9_N, rowE, colE, arg0_E,
    arg2_E, arg3_E, arg4_E, arg5_E, arg6_E, arg7_E, arg8_E, arg9_E]
  rfl

/-- @main leaves argument 0 as it found it. -/
theorem arg0_eq (V : Valuation τ sig (Elt Ideal)) :
    after (ops0 ++ ops1 (F := Ideal)) V (main_arg0 : DevRef τ sig) = V (main_arg0 : DevRef τ sig) := by
  rw [after_main, arg0_1, arg0_N, arg0_E]

/-- @main leaves argument 1 as it found it. -/
theorem arg1_eq (V : Valuation τ sig (Elt Ideal)) :
    after (ops0 ++ ops1 (F := Ideal)) V (main_arg1 : DevRef τ sig) = V (main_arg1 : DevRef τ sig) := by
  rw [after_main, arg1_1, arg1_N, arg1_E]

/-- @main leaves argument 2 as it found it. -/
theorem arg2_eq (V : Valuation τ sig (Elt Ideal)) :
    after (ops0 ++ ops1 (F := Ideal)) V (main_arg2 : DevRef τ sig) = V (main_arg2 : DevRef τ sig) := by
  rw [after_main, arg2_1, arg2_N, arg2_E]

/-- @main leaves argument 3 as it found it. -/
theorem arg3_eq (V : Valuation τ sig (Elt Ideal)) :
    after (ops0 ++ ops1 (F := Ideal)) V (main_arg3 : DevRef τ sig) = V (main_arg3 : DevRef τ sig) := by
  rw [after_main, arg3_1, arg3_N, arg3_E]

/-- @main leaves argument 4 as it found it. -/
theorem arg4_eq (V : Valuation τ sig (Elt Ideal)) :
    after (ops0 ++ ops1 (F := Ideal)) V (main_arg4 : DevRef τ sig) = V (main_arg4 : DevRef τ sig) := by
  rw [after_main, arg4_1, arg4_N, arg4_E]

/-- @main leaves argument 5 as it found it. -/
theorem arg5_eq (V : Valuation τ sig (Elt Ideal)) :
    after (ops0 ++ ops1 (F := Ideal)) V (main_arg5 : DevRef τ sig) = V (main_arg5 : DevRef τ sig) := by
  rw [after_main, arg5_1, arg5_N, arg5_E]

/-- @main leaves argument 6 as it found it. -/
theorem arg6_eq (V : Valuation τ sig (Elt Ideal)) :
    after (ops0 ++ ops1 (F := Ideal)) V (main_arg6 : DevRef τ sig) = V (main_arg6 : DevRef τ sig) := by
  rw [after_main, arg6_1, arg6_N, arg6_E]

/-- @main leaves argument 7 as it found it. -/
theorem arg7_eq (V : Valuation τ sig (Elt Ideal)) :
    after (ops0 ++ ops1 (F := Ideal)) V (main_arg7 : DevRef τ sig) = V (main_arg7 : DevRef τ sig) := by
  rw [after_main, arg7_1, arg7_N, arg7_E]

/-- @main leaves argument 8 as it found it. -/
theorem arg8_eq (V : Valuation τ sig (Elt Ideal)) :
    after (ops0 ++ ops1 (F := Ideal)) V (main_arg8 : DevRef τ sig) = V (main_arg8 : DevRef τ sig) := by
  rw [after_main, arg8_1, arg8_N, arg8_E]

/-- @main leaves argument 9 as it found it. -/
theorem arg9_eq (V : Valuation τ sig (Elt Ideal)) :
    after (ops0 ++ ops1 (F := Ideal)) V (main_arg9 : DevRef τ sig) = V (main_arg9 : DevRef τ sig) := by
  rw [after_main, arg9_1, arg9_N, arg9_E]

/-! ## The run -/

/-- On every device, from any memory with zero counters: every weakly fair execution of the reference's @main
    terminates, with the embeddings' buffer at `zsT` of the arguments' launch contents, the scores' buffer at
    `resT` of them, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v67)
          = RefVal.zsT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v79)
          = RefVal.resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
      ⟨(h c main_v67).trans (zs_eq (launchContents m c)),
       (h c main_v79).trans (res_eq (launchContents m c)),
       (h c main_arg0).trans (arg0_eq (launchContents m c)),
       (h c main_arg1).trans (arg1_eq (launchContents m c)),
       (h c main_arg2).trans (arg2_eq (launchContents m c)),
       (h c main_arg3).trans (arg3_eq (launchContents m c)),
       (h c main_arg4).trans (arg4_eq (launchContents m c)),
       (h c main_arg5).trans (arg5_eq (launchContents m c)),
       (h c main_arg6).trans (arg6_eq (launchContents m c)),
       (h c main_arg7).trans (arg7_eq (launchContents m c)),
       (h c main_arg8).trans (arg8_eq (launchContents m c)),
       (h c main_arg9).trans (arg9_eq (launchContents m c))⟩)
    (run_seq scopedRefs_eq scopedSems_eq defs main (fun _ => ops0 ++ ops1) main_eq (fun _ => ops_sub) m ρ
      (fun _ => fresh))

end Cert.ReferenceIdeal.RefRun

end
-- ==== Proof.GS.lean ====
/-
  Gathering rows by an index vector and scatter-adding rows by another, read at an index, and the one algebraic
  law the two programs differ by.

  A row gather reads, for edge `e`, the operand's row at the edge's index word read signed and clamped into the node
  range; a scatter-add adds update row `e` into the row its index word names, read signed and NOT clamped (an update
  outside the range is dropped). So the entry `(c, j)` of a scatter-add is the operand's entry plus the sum of the
  updates' entries `(e, j)` over the edges `e` whose word is `c`. If every such update carries the common factor
  `dv c`, a nonnegative real, the factor moves out of the sum: the extended reals distribute over sums for a
  nonnegative finite factor.
-/
import proofs.«152069_j90555090468876_2_alg».proof.KernelIdeal
import proofs.«152069_j90555090468876_2_alg».proof.ReferenceIdeal
import Idealize.ShloMosaic.Lib.ValueIdx
import Idealize.ShloMosaic.Lib.IdealHost
import Idealize.ShloMosaic.PureOps.Ideal.Laws

noncomputable section

open scoped BigOperators

namespace Cert.GS

open Idealize.ShloMosaic Idealize.ShloMosaic.ValueIdx

/-- A start index word read signed and clamped into the node range `[0, 99999]`. -/
def clampRow (w : BitVec 32) : Fin 100000 := ⟨min w.toInt.toNat 99999, by omega⟩

/-- A word that reads as the node `c` clamps to `c`. -/
theorem clampRow_of_toInt (w : BitVec 32) (c : Fin 100000) (h : w.toInt = (c.val : Int)) : clampRow w = c := by
  apply Fin.ext
  show min w.toInt.toNat 99999 = c.val
  rw [h]; have := c.isLt; omega

abbrev SN : Shape := ⟨1, ![100000]⟩
abbrev SNC : Shape := ⟨2, ![100000, 128]⟩
abbrev SE1 : Shape := ⟨2, ![1700000, 1]⟩
abbrev SE : Shape := ⟨1, ![1700000]⟩
abbrev SEC : Shape := ⟨2, ![1700000, 128]⟩

/-- The row gather's dimension numbers: rows of a two-axis operand, one index word per edge. -/
abbrev g2 : GatherDims SNC SE1 SEC where
  offsetDims := [1]
  collapsedSliceDims := [0]
  operandBatchingDims := []
  startIndicesBatchingDims := []
  startIndexMap := [0]
  indexVectorDim := 1
  sliceSizes := ![1, 128]
  wf := by decide

/-- The entry gather's dimension numbers: entries of a vector, one index word per edge. -/
abbrev g1 : GatherDims SN SE1 SE where
  offsetDims := []
  collapsedSliceDims := [0]
  operandBatchingDims := []
  startIndicesBatchingDims := []
  startIndexMap := [0]
  indexVectorDim := 1
  sliceSizes := ![1]
  wf := by decide

/-- The row scatter's dimension numbers. -/
abbrev s2 : ScatterDims SNC SE1 SEC where
  updateWindowDims := [1]
  insertedWindowDims := [0]
  scatterDimsToOperandDims := [0]
  indexVectorDim := 1
  wf := by decide

theorem g2_eq_ker [Cert.KernelIdeal.Facts] :
    Cert.KernelIdeal.gather_S100000x128_S1700000x1_S1700000x128_1_0_n_n_0_1_1128 = g2 := rfl
theorem s2_eq_ker [Cert.KernelIdeal.Facts] :
    Cert.KernelIdeal.scatter_S100000x128_S1700000x1_S1700000x128_1_0_0_1 = s2 := rfl
theorem g2_eq_ref [Cert.ReferenceIdeal.Facts] :
    Cert.ReferenceIdeal.gather_S100000x128_S1700000x1_S1700000x128_1_0_n_n_0_1_1128 = g2 := rfl
theorem g1_eq_ref [Cert.ReferenceIdeal.Facts] :
    Cert.ReferenceIdeal.gather_S100000_S1700000x1_S1700000_n_0_n_n_0_1_1 = g1 := rfl
theorem s2_eq_ref [Cert.ReferenceIdeal.Facts] :
    Cert.ReferenceIdeal.scatter_S100000x128_S1700000x1_S1700000x128_1_0_0_1 = s2 := rfl

/-- The row gather reads row `clampRow (idx[e, 0])`, column `j`. -/
theorem g2_operandIdx (idx : IVec SE1 32) (e : Fin 1700000) (j : Fin 128) :
    g2.operandIdx (ix2 e j) idx = ix2 (clampRow (idx (ix2 e (0 : Fin 1)))) j := by
  funext a; refine Fin.ext ?_
  match a with
  | ⟨0, _⟩ =>
    show g2.start (ix2 e j) idx 0 + g2.batchCoord (ix2 e j) 0 + g2.offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ g2.startIndexMap from List.mem_singleton.mpr rfl)]
    have hsi : g2.siIdx (ix2 e j) ⟨List.idxOf (0 : Fin 2) g2.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show g2.start (ix2 e j) idx 1 + g2.batchCoord (ix2 e j) 1 + g2.offCoord (ix2 e j) 1 = _
    rw [GatherDims.batchCoord_eq_zero _ _ _ List.not_mem_nil]
    unfold GatherDims.start
    rw [dif_neg (by decide)]
    simp only [Nat.add_zero, Nat.zero_add]
    rfl

/-- The entry gather reads entry `clampRow (idx[e, 0])`. -/
theorem g1_operandIdx (idx : IVec SE1 32) (e : Fin 1700000) :
    g1.operandIdx (ix1 e) idx = ix1 (clampRow (idx (ix2 e (0 : Fin 1)))) := by
  funext a; refine Fin.ext ?_
  match a with
  | ⟨0, _⟩ =>
    show g1.start (ix1 e) idx 0 + g1.batchCoord (ix1 e) 0 + g1.offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ g1.startIndexMap from List.mem_singleton.mpr rfl)]
    have hsi : g1.siIdx (ix1 e) ⟨List.idxOf (0 : Fin 1) g1.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

theorem gather2_apply {α : Type} (x : SNC.Idx → α) (idx : IVec SE1 32) (e : Fin 1700000) (j : Fin 128) :
    Host.gather g2 x idx (ix2 e j) = x (ix2 (clampRow (idx (ix2 e (0 : Fin 1)))) j) := by
  unfold Host.gather; rw [g2_operandIdx]

theorem gather1_apply {α : Type} (x : SN.Idx → α) (idx : IVec SE1 32) (e : Fin 1700000) :
    Host.gather g1 x idx (ix1 e) = x (ix1 (clampRow (idx (ix2 e (0 : Fin 1))))) := by
  unfold Host.gather; rw [g1_operandIdx]

/-- Update entry `(e, j')` lands on operand entry `(c, j)` exactly when edge `e`'s word reads as `c` and the
    columns agree. -/
theorem s2_resultIdx_some (idx : IVec SE1 32) (e : Fin 1700000) (j' : Fin 128) (c : Fin 100000) (j : Fin 128)
    (h : s2.resultIdx? (ix2 e j') idx = some (ix2 c j)) :
    (idx (ix2 e (0 : Fin 1))).toInt = (c.val : Int) ∧ j' = j := by
  have hsi : s2.siIdx (ix2 e j') ⟨List.idxOf (0 : Fin 2) s2.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : s2.start (ix2 e j') idx 0 = (idx (ix2 e (0 : Fin 1))).toInt := by
    unfold ScatterDims.start
    rw [dif_pos (show (0 : Fin 2) ∈ s2.scatterDimsToOperandDims from List.mem_singleton.mpr rfl), hsi]
  have hw0 : s2.window (ix2 e j') 0 = 0 := by
    unfold ScatterDims.window; rw [dif_neg (by decide)]
  have hs1 : s2.start (ix2 e j') idx 1 = 0 := by
    unfold ScatterDims.start; rw [dif_neg (by decide)]
  have hw1 : s2.window (ix2 e j') 1 = j'.val := by
    unfold ScatterDims.window; rw [dif_pos (by decide)]; rfl
  unfold ScatterDims.resultIdx? at h
  split at h
  · rename_i hall
    have h' := Option.some.inj h
    have e0 := congrArg (fun f => (f 0).val) h'
    have e1 := congrArg (fun f => (f 1).val) h'
    simp only [hs0, hw0, hs1, hw1] at e0 e1
    have b0 := (hall 0).1
    rw [hs0, hw0] at b0
    constructor
    · have : ((idx (ix2 e (0 : Fin 1))).toInt + ((0 : Nat) : Int)).toNat = c.val := e0
      omega
    · apply Fin.ext
      have : ((0 : Int) + (j'.val : Int)).toNat = j.val := e1
      omega
  · exact absurd h (by simp)

/-- A nonnegative finite factor moves out of a finite sum of extended reals. -/
theorem sum_mul_of_nonneg {ι : Type} (S : Finset ι) (g : ι → EReal) (x : EReal) (h0 : 0 ≤ x) (ht : x ≠ ⊤) :
    (∑ u ∈ S, g u) * x = ∑ u ∈ S, g u * x := by
  classical
  induction S using Finset.induction_on with
  | empty => simp
  | insert a S ha ih =>
    rw [Finset.sum_insert ha, Finset.sum_insert ha, EReal.right_distrib_of_nonneg_of_ne_top h0 ht, ih]

/-- THE LAW. Scatter-adding, from zero, updates that each carry the factor `dv c` of the row `c` they land on is
    scatter-adding the updates without the factor and scaling row `c` of the result by `dv c`. -/
theorem scatter_scale (idxC : IVec SE1 32) (f g : SEC.Idx → EReal) (dv : Fin 100000 → EReal)
    (hd : ∀ n, 0 ≤ dv n ∧ dv n ≠ ⊤)
    (hfg : ∀ (e : Fin 1700000) (j : Fin 128) (c : Fin 100000),
      (idxC (ix2 e (0 : Fin 1))).toInt = (c.val : Int) → f (ix2 e j) = g (ix2 e j) * dv c)
    (c : Fin 100000) (j : Fin 128) :
    Ideal.hostScatterAdd s2 (fun _ => (0 : EReal)) idxC f (ix2 c j)
      = Ideal.hostScatterAdd s2 (fun _ => (0 : EReal)) idxC g (ix2 c j) * dv c := by
  unfold Ideal.hostScatterAdd
  rw [zero_add, zero_add, sum_mul_of_nonneg _ _ _ (hd c).1 (hd c).2]
  refine Finset.sum_congr rfl fun u hu => ?_
  obtain ⟨e, j', rfl⟩ : ∃ (e : Fin 1700000) (j' : Fin 128), u = ix2 e j' := ⟨u 0, u 1, eq_ix2 u⟩
  have hu' := (Finset.mem_filter.mp hu).2
  obtain ⟨hc, rfl⟩ := s2_resultIdx_some idxC e j' c j hu'
  exact hfg e j' c hc

/-- `where(x > 0, rsqrt x, 0)` is a nonnegative real whatever `x` is: the reciprocal root of a positive real, zero at
    `+∞`, and zero where the comparison fails. -/
theorem dinv_entry (x z : EReal) (hz : z = 0) :
    0 ≤ Scalar.select (Ideal.cmp .ogt x z) (Ideal.rsqrt x) z ∧ Scalar.select (Ideal.cmp .ogt x z) (Ideal.rsqrt x) z ≠ ⊤ := by
  subst hz
  unfold Scalar.select Ideal.cmp
  by_cases h : (0 : EReal) < x
  · simp only [h, decide_true, BitVec.ofBool_true, if_true]
    induction x using EReal.rec with
    | bot => exact absurd h (by simp)
    | top => rw [Ideal.rsqrt_top]; exact ⟨le_refl _, EReal.zero_ne_top⟩
    | coe r =>
      have hr : 0 < r := by exact_mod_cast h
      have h1 : ¬ r < 0 := not_lt.mpr hr.le
      have h2 : ¬ r = 0 := ne_of_gt hr
      rw [Ideal.rsqrt_coe, if_neg h1, if_neg h2]
      refine ⟨?_, EReal.coe_ne_top _⟩
      exact_mod_cast inv_nonneg.mpr (Real.sqrt_nonneg r)
  · simp [h]

end Cert.GS

end
-- ==== Proof.Layer.lean ====
/-
  One message-passing layer, read at an entry, on the reference's side and on the kernel's.
-/
import proofs.«152069_j90555090468876_2_alg».proof.Proof.Spec
import proofs.«152069_j90555090468876_2_alg».proof.Proof.GS
import Idealize.ShloMosaic.Lib.Pipeline.Value
import Idealize.ShloMosaic.Lib.KernelVsHost

noncomputable section

open scoped BigOperators

namespace Cert.Layer

open Idealize.ShloMosaic Idealize.ShloMosaic.ValueIdx Cert.GS Cert.Spec

abbrev SW : Shape := ⟨2, ![128, 128]⟩
abbrev SB : Shape := ⟨1, ![128]⟩
abbrev S1B : Shape := ⟨2, ![1, 128]⟩
abbrev S0 : Shape := ⟨0, ![]⟩

/-- The dense map's dimension numbers: rows of the left operand against columns of the right. -/
abbrev dd : DotDims SNC SW SNC where
  lhsContracting := [1]
  rhsContracting := [0]
  lhsNonContracting := [0]
  rhsNonContracting := [1]
  lhsBatch := []
  rhsBatch := []
  wf := by decide

theorem dd_lhsIdx (r : Fin 100000) (j : Fin 128) (q : dd.contr.Idx) :
    dd.lhsIdx (ix2 r j) q = ix2 r (⟨(q ⟨0, by decide⟩).val, (q ⟨0, by decide⟩).isLt⟩ : Fin 128) := by
  funext a; refine Fin.ext ?_
  match a with
  | ⟨0, _⟩ =>
    show (dd.lhsIdx (ix2 r j) q (0 : Fin 2)).val = r.val
    unfold DotDims.lhsIdx
    rw [dif_neg List.not_mem_nil, dif_pos (List.mem_singleton.mpr rfl)]
    rfl
  | ⟨1, _⟩ =>
    exact dd.lhsIdx_val_of_single (cl := 1) rfl (ix2 r j) q

theorem dd_rhsIdx (r : Fin 100000) (j : Fin 128) (q : dd.contr.Idx) :
    dd.rhsIdx (ix2 r j) q = ix2 (⟨(q ⟨0, by decide⟩).val, (q ⟨0, by decide⟩).isLt⟩ : Fin 128) j := by
  funext a; refine Fin.ext ?_
  match a with
  | ⟨0, _⟩ =>
    exact dd.rhsIdx_val_of_single (cr := 0) rfl (ix2 r j) q
  | ⟨1, _⟩ =>
    show (dd.rhsIdx (ix2 r j) q (1 : Fin 2)).val = j.val
    unfold DotDims.rhsIdx
    rw [dif_neg List.not_mem_nil, dif_pos (List.mem_singleton.mpr rfl)]
    rfl

/-- The host's dense map at an entry: the row of the left operand against the column of the right. -/
theorem dot_apply (prec : Option ContractPrecision) (sched : HostSchedule) (lhs : FVec Ideal SNC .f32)
    (rhs : FVec Ideal SW .f32) (r : Fin 100000) (j : Fin 128) :
    FloatOps.dotGeneral dd prec sched lhs rhs (ix2 r j) = ∑ k : Fin 128, lhs (ix2 r k) * rhs (ix2 k j) := by
  rw [Ideal.dotGeneral_apply, ← Equiv.sum_comp (contrEquiv1 dd 128 rfl rfl).symm]
  refine Finset.sum_congr rfl fun k _ => ?_
  rw [dd_lhsIdx, dd_rhsIdx]
  have hk : (⟨(((contrEquiv1 dd 128 rfl rfl).symm k) ⟨0, by decide⟩).val,
      (((contrEquiv1 dd 128 rfl rfl).symm k) ⟨0, by decide⟩).isLt⟩ : Fin 128) = k :=
    Fin.ext (contrEquiv1_symm_val dd 128 rfl rfl k)
  rw [hk]

/-- A scalar constant broadcast to any shape reads the constant's value everywhere. -/
theorem bcast_const_apply {t : Shape} (h : S0.BroadcastsInDim t (![] : Fin 0 → Fin t.rank)) (w : BitVec 32) (i : t.Idx) :
    (broadcastInDim t ![] h (constant (F := Ideal) S0 .f32 w) : FVec Ideal t .f32) i = Ideal.ofBits .f32 w := by
  rw [broadcastInDim_apply _ h _ i ix0 (fun a => a.elim0)]
  rfl

/-- A vector laid along every row, read at an entry: the vector's entry at the column. -/
theorem bcast_row_apply (hb1B : SB.BroadcastsInDim S1B (![1] : Fin 1 → Fin S1B.rank))
    (hbNB : S1B.BroadcastsInDim SNC (![0, 1] : Fin 2 → Fin SNC.rank)) (b : FVec Ideal SB .f32)
    (c : Fin 100000) (j : Fin 128) :
    (broadcastInDim SNC ![0, 1] hbNB (broadcastInDim S1B ![1] hb1B b) : FVec Ideal SNC .f32) (ix2 c j) = b (ix1 j) := by
  rw [broadcastInDim_apply _ hbNB _ (ix2 c j) (ix2 (0 : Fin 1) j) (fun a => by
    match a with
    | ⟨0, _⟩ => rfl
    | ⟨1, _⟩ => rfl)]
  rw [broadcastInDim_apply _ hb1B _ (ix2 (0 : Fin 1) j) (ix1 j) (fun a => by
    match a with
    | ⟨0, _⟩ => rfl)]

/-- A per-edge factor laid along every column, read at an entry: the edge's factor. -/
theorem bcast_col_apply (hbE1 : SE.BroadcastsInDim SE1 (![0] : Fin 1 → Fin SE1.rank))
    (hbEC : SE1.BroadcastsInDim SEC (![0, 1] : Fin 2 → Fin SEC.rank)) (ew : FVec Ideal SE .f32)
    (e : Fin 1700000) (j : Fin 128) :
    (broadcastInDim SEC ![0, 1] hbEC (broadcastInDim SE1 ![0] hbE1 ew) : FVec Ideal SEC .f32) (ix2 e j) = ew (ix1 e) := by
  rw [broadcastInDim_apply _ hbEC _ (ix2 e j) (ix2 e (0 : Fin 1)) (fun a => by
    match a with
    | ⟨0, _⟩ => rfl
    | ⟨1, _⟩ => rfl)]
  rw [broadcastInDim_apply _ hbE1 _ (ix2 e (0 : Fin 1)) (ix1 e) (fun a => by
    match a with
    | ⟨0, _⟩ => rfl)]

/-- The transposed weight at `(k, j)` is the weight at `(j, k)`. -/
theorem transpose_W_apply (ht : SW.Transposes [1, 0] SW) (W : FVec Ideal SW .f32) (k j : Fin 128) :
    (transpose SW [1, 0] W ht : FVec Ideal SW .f32) (ix2 k j) = W (ix2 j k) := by
  rw [transpose_apply _ W ht (ix2 k j) (ix2 j k) (fun b => by
    match b with
    | ⟨0, _⟩ => rfl
    | ⟨1, _⟩ => rfl)]

/-- The host's scatter-add at the ideal instance is the exact sum. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

theorem postRow_eq (a sr bj : EReal) : Cert.Spec.postRow a sr bj = a * sr + bj := rfl

/-- ONE LAYER, BOTH WAYS. The reference scatter-adds the rows `ew e · (z Wᵀ)[row e]` by `col e` and adds the bias;
    the kernel scales `z Wᵀ` by the source factor before gathering, scatter-adds the bare rows, and scales by the
    destination factor before adding the bias. With `ew e = (dv (row e) · 1) · dv (col e)` and every factor a
    nonnegative real the two arrays are equal: the destination factor is common to the updates that land on a row. -/
theorem layer_eq (hb0 hb0' : S0.BroadcastsInDim SNC (![] : Fin 0 → Fin SNC.rank))
    (hbE1 : SE.BroadcastsInDim SE1 (![0] : Fin 1 → Fin SE1.rank))
    (hbEC : SE1.BroadcastsInDim SEC (![0, 1] : Fin 2 → Fin SEC.rank))
    (hb1B : SB.BroadcastsInDim S1B (![1] : Fin 1 → Fin S1B.rank))
    (hbNB : S1B.BroadcastsInDim SNC (![0, 1] : Fin 2 → Fin SNC.rank))
    (ht : SW.Transposes [1, 0] SW)
    (z : FVec Ideal SNC .f32) (W : FVec Ideal SW .f32) (b : FVec Ideal SB .f32) (dv : FVec Ideal SN .f32)
    (ew : FVec Ideal SE .f32) (idxR idxC idxCN : IVec SE1 32)
    (hd : ∀ n, 0 ≤ dv n ∧ dv n ≠ ⊤)
    (hcn : ∀ (e : Fin 1700000) (c : Fin 100000), (idxC (ix2 e (0 : Fin 1))).toInt = (c.val : Int) →
      clampRow (idxCN (ix2 e (0 : Fin 1))) = c)
    (hew : ∀ e : Fin 1700000, ew (ix1 e) = (dv (ix1 (clampRow (idxR (ix2 e (0 : Fin 1))))) * 1)
      * dv (ix1 (clampRow (idxCN (ix2 e (0 : Fin 1)))))) :
    addf (Host.scatterAdd s2 (broadcastInDim SNC ![] hb0 (constant (F := Ideal) S0 .f32 0x00000000#32)) idxC
        (mulf (broadcastInDim SEC ![0, 1] hbEC (broadcastInDim SE1 ![0] hbE1 ew))
          (Host.gather g2 (Host.dotGeneral dd none z (transpose SW [1, 0] W ht)) idxR)))
      (broadcastInDim SNC ![0, 1] hbNB (broadcastInDim S1B ![1] hb1B b))
    = Cert.Spec.post (Host.scatterAdd s2 (broadcastInDim SNC ![] hb0' (constant (F := Ideal) S0 .f32 0x00000000#32)) idxC
        (Host.gather g2 (Cert.Spec.pre z W (Cert.Spec.colOf dv)) idxR)) (Cert.Spec.colOf dv) (Cert.Spec.rowOf b) := by
  have hz : ∀ h : S0.BroadcastsInDim SNC (![] : Fin 0 → Fin SNC.rank),
      (broadcastInDim SNC ![] h (constant (F := Ideal) S0 .f32 0x00000000#32) : FVec Ideal SNC .f32) = fun _ => (0 : EReal) := by
    intro h; funext i; rw [bcast_const_apply, Ideal.ofBits_zero_f32]
  funext i
  obtain ⟨c, j, rfl⟩ : ∃ (c : Fin 100000) (j : Fin 128), i = ix2 c j := ⟨i 0, i 1, eq_ix2 i⟩
  rw [Cert.Spec.post_ix2, addf_apply, bcast_row_apply, hz hb0]
  rw [Cert.Spec.colOf_ix2, Cert.Spec.rowOf_ix2]
  rw [postRow_eq, scatterAdd_ideal, scatterAdd_ideal]
  rw [scatter_scale idxC _ (Host.gather g2 (Cert.Spec.pre z W (Cert.Spec.colOf dv)) idxR) (fun n => dv (ix1 n))
    (fun n => hd (ix1 n)) (fun e j' c' hc => ?_) c j]
  rw [mulf_apply, bcast_col_apply, gather2_apply, gather2_apply, Cert.Spec.pre_ix2, hew e, hcn e c' hc]
  unfold Host.dotGeneral Cert.Spec.preRow
  rw [dot_apply, Cert.Spec.colOf_ix2]
  have hs : (∑ k : Fin 128, z (ix2 (clampRow (idxR (ix2 e (0 : Fin 1)))) k) * (transpose SW [1, 0] W ht : FVec Ideal SW .f32) (ix2 k j'))
      = ∑ k : Fin 128, z (ix2 (clampRow (idxR (ix2 e (0 : Fin 1)))) k) * W (ix2 j' k) :=
    Finset.sum_congr rfl fun k _ => by rw [transpose_W_apply]
  rw [hs, mul_one]
  generalize (∑ k : Fin 128, z (ix2 (clampRow (idxR (ix2 e (0 : Fin 1)))) k) * W (ix2 j' k)) = S
  generalize dv (ix1 (clampRow (idxR (ix2 e (0 : Fin 1))))) = a
  generalize dv (ix1 c') = d
  show a * d * S = S * a * d
  rw [mul_comm (a * d) S, mul_assoc]

end Cert.Layer

end
-- ==== Proof.ProjRef.lean ====
/-
  The reference's projection head, read at one entry.

  The reference computes the head by whole-array host operations: a contraction with the transposed first weight
  matrix plus the first bias broadcast down the rows; the exponential linear unit, spelt with two selections on
  the comparison `a > 0` (the inner one feeds `exp · − 1` the value `0` where `a > 0`, the outer one keeps
  `a` there, and the product with `1` is the factor itself); the second contraction and bias; and the
  logarithm of the softmax along each row, whose row maximum is taken once more against minus infinity. Each
  operation is read at an entry `(r, o)`; together they give the row-wise specification `projRow` of row `r`.
-/
import proofs.«152069_j90555090468876_2_alg».proof.ReferenceIdeal
import proofs.«152069_j90555090468876_2_alg».proof.Proof.SpecProj
import Idealize.ShloMosaic.Lib.ValueLayout
import Idealize.ShloMosaic.Lib.IdealHost
import Idealize.ShloMosaic.PureOps.Ideal.Laws

noncomputable section

open scoped BigOperators

namespace Cert.ReferenceIdeal.ProjRef

open Idealize.ShloMosaic Idealize.ShloMosaic.ValueIdx Cert.ReferenceIdeal Cert.Spec Cert.SpecProj

/-! ## Broadcasts read at an entry -/

section Layout
variable {α : Type}

/-- A vector `[b]` broadcast to one row `[1, b]` reads, at `(u, k)`, the vector at `k`. -/
theorem bcast_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply _ h x (ix2 u k) (ix1 k) fun ax => ?_
  match ax with
  | ⟨0, _⟩ =>
    show k.val = if b = 1 then 0 else k.val
    split
    · have := k.isLt; omega
    · rfl

/-- One row `[1, b]` broadcast down `a` rows reads, at `(p, k)`, the row at `k`. -/
theorem bcast_1b_ab_apply {a b : ℕ} (x : (⟨2, ![1, b]⟩ : Shape).Idx → α)
    (h : (⟨2, ![1, b]⟩ : Shape).BroadcastsInDim ⟨2, ![a, b]⟩ ![0, 1]) (p : Fin a) (k : Fin b) :
    broadcastInDim ⟨2, ![a, b]⟩ ![0, 1] h x (ix2 p k) = x (ix2 (0 : Fin 1) k) := by
  refine broadcastInDim_apply _ h x (ix2 p k) (ix2 (0 : Fin 1) k) fun ax => ?_
  match ax with
  | ⟨0, _⟩ => rfl
  | ⟨1, _⟩ =>
    show k.val = if b = 1 then 0 else k.val
    split
    · have := k.isLt; omega
    · rfl

/-- A vector `[a]` broadcast to one column `[a, 1]` reads, at `(p, u)`, the vector at `p`. -/
theorem bcast_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- One column `[a, 1]` broadcast along `b` columns reads, at `(p, c)`, the column at `p`. -/
theorem bcast_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The bit pattern of minus infinity is the bottom element. -/
theorem ofBits_negInf_f32 : Ideal.ofBits .f32 0xFF800000#32 = ⊥ := by simp [Ideal.ofBits, Ideal.ieee]

/-- The unit as the reference spells it: where the comparison bit is set both selections keep `a`; elsewhere the
    inner selection passes `a` to `exp · − 1` and the factor `1` drops. -/
theorem elu_ref (x : EReal) :
    Scalar.select (FloatOps.cmpf (F := Ideal) (φ := .f32) .ogt x 0) x
      (1 * (Ideal.exp (Scalar.select (FloatOps.cmpf (F := Ideal) (φ := .f32) .ogt x 0) 0 x) - 1)) = elu x := by
  unfold elu
  rcases BitVec.eq_zero_or_eq_one (FloatOps.cmpf (F := Ideal) (φ := .f32) .ogt x 0) with h | h
  · simp only [h, select_zero, one_mul]
  · simp only [h, select_one]

variable [Cert.ReferenceIdeal.Facts]
open Facts₀ Facts

/-! ## The two contractions read at an entry -/

/-- The first contraction's dimension numbers. -/
abbrev D1 : DotDims S100000x128 S128x128 S100000x128 := dot_S100000x128_S128x128_S100000x128_1_0_0_1_n_n
/-- The second contraction's dimension numbers. -/
abbrev D2 : DotDims S100000x128 S128x64 S100000x64 := dot_S100000x128_S128x64_S100000x64_1_0_0_1_n_n

theorem lhs1_0 (i : S100000x128.Idx) (q : D1.contr.Idx) : (D1.lhsIdx i q 0).val = (i 0).val := by
  unfold DotDims.lhsIdx
  rw [dif_neg (show ¬(0 : Fin S100000x128.rank) ∈ D1.lhsBatch from List.not_mem_nil),
    dif_pos (show (0 : Fin S100000x128.rank) ∈ D1.lhsNonContracting from List.mem_singleton.mpr rfl)]
  rfl
theorem lhs1_1 (i : S100000x128.Idx) (q : D1.contr.Idx) : (D1.lhsIdx i q 1).val = (q ⟨0, (show 0 < D1.contr.rank from Nat.one_pos)⟩).val :=
  D1.lhsIdx_val_of_single rfl i q
theorem rhs1_0 (i : S100000x128.Idx) (q : D1.contr.Idx) : (D1.rhsIdx i q 0).val = (q ⟨0, (show 0 < D1.contr.rank from Nat.one_pos)⟩).val :=
  D1.rhsIdx_val_of_single rfl i q
theorem rhs1_1 (i : S100000x128.Idx) (q : D1.contr.Idx) : (D1.rhsIdx i q 1).val = (i 1).val := by
  unfold DotDims.rhsIdx
  rw [dif_neg (show ¬(1 : Fin S128x128.rank) ∈ D1.rhsBatch from List.not_mem_nil),
    dif_pos (show (1 : Fin S128x128.rank) ∈ D1.rhsNonContracting from List.mem_singleton.mpr rfl)]
  rfl

/-- The first contraction at `(r, k)`: the sum over the contracted coordinate. -/
theorem dot1_at (lhs : FVec Ideal S100000x128 .f32) (rhs : FVec Ideal S128x128 .f32) (r : Fin 100000) (k : Fin 128) :
    Host.dotGeneral D1 none lhs rhs (ix2 r k) = ∑ i : Fin 128, lhs (ix2 r i) * rhs (ix2 i k) := by
  simp only [Host.dotGeneral]
  rw [Ideal.dotGeneral_apply, ← Equiv.sum_comp (contrEquiv1 D1 128 rfl rfl).symm]
  refine Finset.sum_congr rfl fun i _ => ?_
  have hk := contrEquiv1_symm_val D1 128 rfl rfl i
  have el : D1.lhsIdx (ix2 r k) ((contrEquiv1 D1 128 rfl rfl).symm i) = ix2 r i := funext fun a => Fin.ext (by
    match a with
    | ⟨0, _⟩ => exact lhs1_0 _ _
    | ⟨1, _⟩ => exact (lhs1_1 _ _).trans hk)
  have er : D1.rhsIdx (ix2 r k) ((contrEquiv1 D1 128 rfl rfl).symm i) = ix2 i k := funext fun a => Fin.ext (by
    match a with
    | ⟨0, _⟩ => exact (rhs1_0 _ _).trans hk
    | ⟨1, _⟩ => exact rhs1_1 _ _)
  rw [el, er]

theorem lhs2_0 (i : S100000x64.Idx) (q : D2.contr.Idx) : (D2.lhsIdx i q 0).val = (i 0).val := by
  unfold DotDims.lhsIdx
  rw [dif_neg (show ¬(0 : Fin S100000x128.rank) ∈ D2.lhsBatch from List.not_mem_nil),
    dif_pos (show (0 : Fin S100000x128.rank) ∈ D2.lhsNonContracting from List.mem_singleton.mpr rfl)]
  rfl
theorem lhs2_1 (i : S100000x64.Idx) (q : D2.contr.Idx) : (D2.lhsIdx i q 1).val = (q ⟨0, (show 0 < D2.contr.rank from Nat.one_pos)⟩).val :=
  D2.lhsIdx_val_of_single rfl i q
theorem rhs2_0 (i : S100000x64.Idx) (q : D2.contr.Idx) : (D2.rhsIdx i q 0).val = (q ⟨0, (show 0 < D2.contr.rank from Nat.one_pos)⟩).val :=
  D2.rhsIdx_val_of_single rfl i q
theorem rhs2_1 (i : S100000x64.Idx) (q : D2.contr.Idx) : (D2.rhsIdx i q 1).val = (i 1).val := by
  unfold DotDims.rhsIdx
  rw [dif_neg (show ¬(1 : Fin S128x64.rank) ∈ D2.rhsBatch from List.not_mem_nil),
    dif_pos (show (1 : Fin S128x64.rank) ∈ D2.rhsNonContracting from List.mem_singleton.mpr rfl)]
  rfl

/-- The second contraction at `(r, o)`. -/
theorem dot2_at (lhs : FVec Ideal S100000x128 .f32) (rhs : FVec Ideal S128x64 .f32) (r : Fin 100000) (o : Fin 64) :
    Host.dotGeneral D2 none lhs rhs (ix2 r o) = ∑ k : Fin 128, lhs (ix2 r k) * rhs (ix2 k o) := by
  simp only [Host.dotGeneral]
  rw [Ideal.dotGeneral_apply, ← Equiv.sum_comp (contrEquiv1 D2 128 rfl rfl).symm]
  refine Finset.sum_congr rfl fun k _ => ?_
  have hk := contrEquiv1_symm_val D2 128 rfl rfl k
  have el : D2.lhsIdx (ix2 r o) ((contrEquiv1 D2 128 rfl rfl).symm k) = ix2 r k := funext fun a => Fin.ext (by
    match a with
    | ⟨0, _⟩ => exact lhs2_0 _ _
    | ⟨1, _⟩ => exact (lhs2_1 _ _).trans hk)
  have er : D2.rhsIdx (ix2 r o) ((contrEquiv1 D2 128 rfl rfl).symm k) = ix2 k o := funext fun a => Fin.ext (by
    match a with
    | ⟨0, _⟩ => exact (rhs2_0 _ _).trans hk
    | ⟨1, _⟩ => exact rhs2_1 _ _)
  rw [el, er]

/-! ## The four stages on whole arrays -/

/-- The first affine map. -/
def rPre (zs : FVec Ideal S100000x128 .f32) (fcW1 : FVec Ideal S128x128 .f32) (fcb1 : FVec Ideal S128 .f32) :
    FVec Ideal S100000x128 .f32 :=
  addf (Host.dotGeneral dot_S100000x128_S128x128_S100000x128_1_0_0_1_n_n none zs
      (transpose S128x128 [1, 0] fcW1 transposes_S128x128_S128x128_1_0))
    (broadcastInDim S100000x128 ![0, 1] bcast_S1x128_S100000x128_0_1 (broadcastInDim S1x128 ![1] bcast_S128_S1x128_1 fcb1))

/-- The exponential linear unit, with its two selections. -/
def rElu (a : FVec Ideal S100000x128 .f32) : FVec Ideal S100000x128 .f32 :=
  select (cmpf .ogt a (broadcastInDim S100000x128 ![] bcast_S_S100000x128 (constant (F := Ideal) S_ .f32 0x00000000#32))) a
    (mulf (broadcastInDim S100000x128 ![] bcast_S_S100000x128 (constant (F := Ideal) S_ .f32 0x3F800000#32))
      (Host.expm1 (select
        (cmpf .ogt a (broadcastInDim S100000x128 ![] bcast_S_S100000x128 (constant (F := Ideal) S_ .f32 0x00000000#32)))
        (broadcastInDim S100000x128 ![] bcast_S_S100000x128 (id (constant (F := Ideal) S_ .f32 0x00000000#32))) a)))

/-- The second affine map. -/
def rLogit (h : FVec Ideal S100000x128 .f32) (fcW2 : FVec Ideal S64x128 .f32) (fcb2 : FVec Ideal S64 .f32) :
    FVec Ideal S100000x64 .f32 :=
  addf (Host.dotGeneral dot_S100000x128_S128x64_S100000x64_1_0_0_1_n_n none h
      (transpose S128x64 [1, 0] fcW2 transposes_S64x128_S128x64_1_0))
    (broadcastInDim S100000x64 ![0, 1] bcast_S1x64_S100000x64_0_1 (broadcastInDim S1x64 ![1] bcast_S64_S1x64_1 fcb2))

/-- Each row minus its maximum (taken once more against minus infinity). -/
def rShift (y : FVec Ideal S100000x64 .f32) : FVec Ideal S100000x64 .f32 :=
  subf y (broadcastInDim S100000x64 ![0, 1] bcast_S100000x1_S100000x64_0_1
    (broadcastInDim S100000x1 ![0] bcast_S100000_S100000x1_0
      (maximumf (broadcastInDim S100000 ![] bcast_S_S100000 (constant (F := Ideal) S_ .f32 0xFF800000#32))
        (Host.reduce FloatOps.maximumf y (constant (F := Ideal) S_ .f32 0xFF800000#32) reducesTo_S100000x64_S100000_d1 h_S_))))

/-- Each row minus the logarithm of the sum of its exponentials. -/
def rNorm (z : FVec Ideal S100000x64 .f32) : FVec Ideal S100000x64 .f32 :=
  subf z (broadcastInDim S100000x64 ![0, 1] bcast_S100000x1_S100000x64_0_1
    (Host.log (broadcastInDim S100000x1 ![0] bcast_S100000_S100000x1_0
      (Host.reduceAdd (Host.exp z) (constant (F := Ideal) S_ .f32 0x00000000#32) reducesTo_S100000x64_S100000_d1 h_S_))))

/-- The reference's projection head: its host operations in their printed order, from the aggregated features
    `zs` and the four parameter arrays to the result. -/
def chain (zs : FVec Ideal S100000x128 .f32) (fcW1 : FVec Ideal S128x128 .f32) (fcb1 : FVec Ideal S128 .f32)
    (fcW2 : FVec Ideal S64x128 .f32) (fcb2 : FVec Ideal S64 .f32) : FVec Ideal S100000x64 .f32 :=
  have v68 : FVec Ideal S128x128 .f32 := transpose S128x128 [1, 0] fcW1 transposes_S128x128_S128x128_1_0
  have v69 : FVec Ideal S100000x128 .f32 := Host.dotGeneral dot_S100000x128_S128x128_S100000x128_1_0_0_1_n_n none zs v68
  have v70 : FVec Ideal S1x128 .f32 := broadcastInDim S1x128 ![1] bcast_S128_S1x128_1 fcb1
  have v71 : FVec Ideal S100000x128 .f32 := broadcastInDim S100000x128 ![0, 1] bcast_S1x128_S100000x128_0_1 v70
  have v72 : FVec Ideal S100000x128 .f32 := addf v69 v71
  have e_cst : FVec Ideal S_ .f32 := constant S_ .f32 0x00000000#32
  have e_v0 : FVec Ideal S100000x128 .f32 := broadcastInDim S100000x128 ![] bcast_S_S100000x128 e_cst
  have e_v1 : IVec S100000x128 1 := cmpf .ogt v72 e_v0
  have e_cst_0 : FVec Ideal S_ .f32 := constant S_ .f32 0x00000000#32
  have e_v2 : FVec Ideal S100000x128 .f32 := broadcastInDim S100000x128 ![] bcast_S_S100000x128 e_cst_0
  have e_v3 : IVec S100000x128 1 := cmpf .ogt v72 e_v2
  have e_cst_1 : FVec Ideal S_ .f32 := constant S_ .f32 0x00000000#32
  have w_v0 : FVec Ideal S_ .f32 := id e_cst_1
  have w_v1 : FVec Ideal S100000x128 .f32 := broadcastInDim S100000x128 ![] bcast_S_S100000x128 w_v0
  have w_v2 : FVec Ideal S100000x128 .f32 := select e_v3 w_v1 v72
  have e_v5 : FVec Ideal S100000x128 .f32 := Host.expm1 w_v2
  have e_cst_2 : FVec Ideal S_ .f32 := constant S_ .f32 0x3F800000#32
  have e_v6 : FVec Ideal S100000x128 .f32 := broadcastInDim S100000x128 ![] bcast_S_S100000x128 e_cst_2
  have e_v7 : FVec Ideal S100000x128 .f32 := mulf e_v6 e_v5
  have v73 : FVec Ideal S100000x128 .f32 := select e_v1 v72 e_v7
  have v74 : FVec Ideal S128x64 .f32 := transpose S128x64 [1, 0] fcW2 transposes_S64x128_S128x64_1_0
  have v75 : FVec Ideal S100000x64 .f32 := Host.dotGeneral dot_S100000x128_S128x64_S100000x64_1_0_0_1_n_n none v73 v74
  have v76 : FVec Ideal S1x64 .f32 := broadcastInDim S1x64 ![1] bcast_S64_S1x64_1 fcb2
  have v77 : FVec Ideal S100000x64 .f32 := broadcastInDim S100000x64 ![0, 1] bcast_S1x64_S100000x64_0_1 v76
  have v78 : FVec Ideal S100000x64 .f32 := addf v75 v77
  have l_cst : FVec Ideal S_ .f32 := constant S_ .f32 0xFF800000#32
  have l_v0 : FVec Ideal S100000 .f32 := Host.reduce FloatOps.maximumf v78 l_cst reducesTo_S100000x64_S100000_d1 h_S_
  have l_cst_0 : FVec Ideal S_ .f32 := constant S_ .f32 0xFF800000#32
  have l_v1 : FVec Ideal S100000 .f32 := broadcastInDim S100000 ![] bcast_S_S100000 l_cst_0
  have l_v2 : FVec Ideal S100000 .f32 := maximumf l_v1 l_v0
  have l_v3 : FVec Ideal S100000x1 .f32 := broadcastInDim S100000x1 ![0] bcast_S100000_S100000x1_0 l_v2
  have l_v4 : FVec Ideal S100000x64 .f32 := broadcastInDim S100000x64 ![0, 1] bcast_S100000x1_S100000x64_0_1 l_v3
  have l_v5 : FVec Ideal S100000x64 .f32 := subf v78 l_v4
  have l_v6 : FVec Ideal S100000x64 .f32 := Host.exp l_v5
  have l_cst_1 : FVec Ideal S_ .f32 := constant S_ .f32 0x00000000#32
  have l_v7 : FVec Ideal S100000 .f32 := Host.reduceAdd l_v6 l_cst_1 reducesTo_S100000x64_S100000_d1 h_S_
  have l_v8 : FVec Ideal S100000x1 .f32 := broadcastInDim S100000x1 ![0] bcast_S100000_S100000x1_0 l_v7
  have l_v9 : FVec Ideal S100000x1 .f32 := Host.log l_v8
  have l_v10 : FVec Ideal S100000x64 .f32 := broadcastInDim S100000x64 ![0, 1] bcast_S100000x1_S100000x64_0_1 l_v9
  have l_v11 : FVec Ideal S100000x64 .f32 := subf l_v5 l_v10
  l_v11

/-- The chain is the composition of the stages. -/
theorem chain_eq (zs : FVec Ideal S100000x128 .f32) (fcW1 : FVec Ideal S128x128 .f32) (fcb1 : FVec Ideal S128 .f32)
    (fcW2 : FVec Ideal S64x128 .f32) (fcb2 : FVec Ideal S64 .f32) :
    chain zs fcW1 fcb1 fcW2 fcb2 = rNorm (rShift (rLogit (rElu (rPre zs fcW1 fcb1)) fcW2 fcb2)) := rfl

/-! ## Each stage read at an entry -/

theorem rPre_at (zs : FVec Ideal S100000x128 .f32) (fcW1 : FVec Ideal S128x128 .f32) (fcb1 : FVec Ideal S128 .f32)
    (r : Fin 100000) (k : Fin 128) :
    rPre zs fcW1 fcb1 (ix2 r k) = preact (fun i => zs (ix2 r i)) fcW1 (rowOf fcb1) k := by
  unfold rPre preact
  rw [addf_apply, dot1_at, bcast_1b_ab_apply, bcast_b_1b_apply, rowOf_ix2]
  refine congrArg (· + fcb1 (ix1 k)) (Finset.sum_congr rfl fun i _ => ?_)
  rw [transpose_ix2_apply]

theorem rElu_at (a : FVec Ideal S100000x128 .f32) (r : Fin 100000) (k : Fin 128) :
    rElu a (ix2 r k) = elu (a (ix2 r k)) := by
  refine Eq.trans ?_ (elu_ref (a (ix2 r k)))
  unfold rElu
  show Scalar.select (FloatOps.cmpf .ogt (a (ix2 r k)) (Ideal.ofBits .f32 0x00000000#32)) (a (ix2 r k))
      (Ideal.ofBits .f32 0x3F800000#32 * (Ideal.exp (Scalar.select
        (FloatOps.cmpf .ogt (a (ix2 r k)) (Ideal.ofBits .f32 0x00000000#32)) (Ideal.ofBits .f32 0x00000000#32) (a (ix2 r k))) - 1)) = _
  rw [Ideal.ofBits_zero_f32, Ideal.ofBits_one_f32]

theorem rLogit_at (h : FVec Ideal S100000x128 .f32) (fcW2 : FVec Ideal S64x128 .f32) (fcb2 : FVec Ideal S64 .f32)
    (r : Fin 100000) (o : Fin 64) :
    rLogit h fcW2 fcb2 (ix2 r o) = logit (fun k => h (ix2 r k)) fcW2 (rowOf fcb2) o := by
  unfold rLogit logit
  rw [addf_apply, dot2_at, bcast_1b_ab_apply, bcast_b_1b_apply, rowOf_ix2]
  refine congrArg (· + fcb2 (ix1 o)) (Finset.sum_congr rfl fun k _ => ?_)
  rw [transpose_ix2_apply]

/-- The index over a row index `r` with `k` inserted on the reduced axis is `(r, k)`. -/
theorem lift_row (h : S100000x64.Reduces [1] S100000) (r : Fin 100000) (k : Fin 64) : h.lift (ix1 r) k = ix2 r k :=
  funext fun a => Fin.ext (by
    match a with
    | ⟨0, _⟩ => rfl
    | ⟨1, _⟩ => rfl)

theorem reduces_row : S100000x64.Reduces [1] S100000 := by decide

/-- A row's maximum, as the reference reduces it, is the fold of `max` over the row from the bottom element. -/
theorem rmax_at (y : FVec Ideal S100000x64 .f32) (r : Fin 100000) :
    Host.reduce FloatOps.maximumf y (constant (F := Ideal) S_ .f32 0xFF800000#32) reducesTo_S100000x64_S100000_d1 h_S_ (ix1 r)
      = rowMax (fun o => y (ix2 r o)) := by
  refine (Host.reduce_eq_fold_single FloatOps.maximumf y _ reducesTo_S100000x64_S100000_d1 reduces_row h_S_ (ix1 r)).trans ?_
  unfold rowMax
  show (Finset.univ : Finset (Fin 64)).fold max (Ideal.ofBits .f32 0xFF800000#32) (fun k => y (reduces_row.lift (ix1 r) k)) = _
  rw [ofBits_negInf_f32]
  exact congrArg (fun f => (Finset.univ : Finset (Fin 64)).fold max ⊥ f) (funext fun k => congrArg y (lift_row reduces_row r k))

/-- A row's sum, as the reference reduces it from zero, is the sum over the row's entries. -/
theorem rsum_at (y : FVec Ideal S100000x64 .f32) (r : Fin 100000) :
    Host.reduceAdd y (constant (F := Ideal) S_ .f32 0x00000000#32) reducesTo_S100000x64_S100000_d1 h_S_ (ix1 r)
      = ∑ o : Fin 64, y (ix2 r o) := by
  rw [hostReduceAdd_apply]
  refine (Ideal.hostReduceAdd_single reducesTo_S100000x64_S100000_d1 reduces_row y _ (ix1 r)).trans ?_
  show Ideal.ofBits .f32 0x00000000#32 + _ = _
  rw [Ideal.ofBits_zero_f32, zero_add]
  exact Finset.sum_congr rfl fun k _ => congrArg y (lift_row reduces_row r k)

theorem rShift_at (y : FVec Ideal S100000x64 .f32) (r : Fin 100000) (o : Fin 64) :
    rShift y (ix2 r o) = y (ix2 r o) - rowMax (fun o' => y (ix2 r o')) := by
  unfold rShift
  rw [subf_apply, bcast_a1_ab_apply, bcast_a_a1_apply, maximumf_apply, rmax_at, broadcastInDim_scalar_apply]
  show y (ix2 r o) - max (Ideal.ofBits .f32 0xFF800000#32) _ = _
  rw [ofBits_negInf_f32, max_eq_right bot_le]

/-- The host's logarithm and exponential at an entry are the extended reals'. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

theorem rNorm_at (z : FVec Ideal S100000x64 .f32) (r : Fin 100000) (o : Fin 64) :
    rNorm z (ix2 r o) = z (ix2 r o) - Ideal.log (∑ o' : Fin 64, Ideal.exp (z (ix2 r o'))) := by
  unfold rNorm
  rw [subf_apply, bcast_a1_ab_apply, hostLog_apply, bcast_a_a1_apply, rsum_at]
  exact congrArg (fun s => z (ix2 r o) - Ideal.log s) (Finset.sum_congr rfl fun o' _ => hostExp_apply z _)

/-! ## The chain at an entry -/

/-- Entry `(r, o)` of the reference's head is the row-wise projection of row `r` of `zs`, at `o`. -/
theorem chain_at (zs : FVec Ideal S100000x128 .f32) (fcW1 : FVec Ideal S128x128 .f32) (fcb1 : FVec Ideal S128 .f32)
    (fcW2 : FVec Ideal S64x128 .f32) (fcb2 : FVec Ideal S64 .f32) (r : Fin 100000) (o : Fin 64) :
    chain zs fcW1 fcb1 fcW2 fcb2 (ix2 r o)
      = Cert.SpecProj.projRow (fun k => zs (ix2 r k)) fcW1 (Cert.Spec.rowOf fcb1) fcW2 (Cert.Spec.rowOf fcb2) o := by
  have hh : (fun k => rElu (rPre zs fcW1 fcb1) (ix2 r k)) = hidden (fun k => zs (ix2 r k)) fcW1 (rowOf fcb1) :=
    funext fun k => by rw [rElu_at, rPre_at]; rfl
  have hy : ∀ o' : Fin 64, rLogit (rElu (rPre zs fcW1 fcb1)) fcW2 fcb2 (ix2 r o')
      = logit (hidden (fun k => zs (ix2 r k)) fcW1 (rowOf fcb1)) fcW2 (rowOf fcb2) o' := fun o' => by rw [rLogit_at, hh]
  have hz : ∀ o' : Fin 64, rShift (rLogit (rElu (rPre zs fcW1 fcb1)) fcW2 fcb2) (ix2 r o')
      = logit (hidden (fun k => zs (ix2 r k)) fcW1 (rowOf fcb1)) fcW2 (rowOf fcb2) o'
        - rowMax (logit (hidden (fun k => zs (ix2 r k)) fcW1 (rowOf fcb1)) fcW2 (rowOf fcb2)) := fun o' => by
    rw [rShift_at, hy o', show (fun o'' => rLogit (rElu (rPre zs fcW1 fcb1)) fcW2 fcb2 (ix2 r o''))
      = logit (hidden (fun k => zs (ix2 r k)) fcW1 (rowOf fcb1)) fcW2 (rowOf fcb2) from funext hy]
  rw [chain_eq, rNorm_at]
  unfold projRow logSoftmaxRow
  rw [hz o]
  exact congrArg (fun s => _ - Ideal.log s) (Finset.sum_congr rfl fun o' _ => by rw [hz o'])

end Cert.ReferenceIdeal.ProjRef

end
-- ==== Proof.BridgeFacts.lean ====
/-
  Small facts that join the two programs' array-level values.

  The normalisation factor of a node is a nonnegative real whatever the degree is; an edge's destination word,
  when it reads as a node, is unchanged by the wrap of negative words and clamps to that node; an edge's weight
  is the product of the factors at its two clamped ends (with a factor one between them); the two programs
  build the same index arrays and the same factors; a vector recast as one column or one row reads the vector;
  clipping the shifted, scaled aggregate below at zero is the clipped row-wise form; and the reference's
  projection is the same composition of operations under either of its two spellings.
-/
import proofs.«152069_j90555090468876_2_alg».proof.Proof.RefVal
import proofs.«152069_j90555090468876_2_alg».proof.Proof.KerVal
import proofs.«152069_j90555090468876_2_alg».proof.Proof.GS
import proofs.«152069_j90555090468876_2_alg».proof.Proof.ProjRef
import Idealize.ShloMosaic.Lib.ValueLayout
import Idealize.ShloMosaic.Lib.IdealHost
import Idealize.ShloMosaic.PureOps.Ideal.Laws

noncomputable section

open scoped BigOperators

namespace Cert.BridgeFacts

open Idealize.ShloMosaic Idealize.ShloMosaic.ValueIdx Cert.Spec

/-! ## A vector recast as one column, or as one row -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- A vector cast to one column is the vector read as a column. -/
theorem shapeCast_col {n : ℕ} (d : FVec Ideal (⟨1, ![n]⟩ : Shape) .f32) (h : (⟨1, ![n]⟩ : Shape).ShapeCasts ⟨2, ![n, 1]⟩) :
    shapeCast ⟨2, ![n, 1]⟩ d h = colOf d := by
  funext i
  obtain ⟨p, u, rfl⟩ : ∃ (p : Fin n) (u : Fin 1), i = ix2 p u := ⟨i 0, i 1, eq_ix2 i⟩
  rw [shapeCast_a_a1_apply, colOf_ix2]

/-- A vector cast to one row is the vector read as a row. -/
theorem shapeCast_row {n : ℕ} (b : FVec Ideal (⟨1, ![n]⟩ : Shape) .f32) (h : (⟨1, ![n]⟩ : Shape).ShapeCasts ⟨2, ![1, n]⟩) :
    shapeCast ⟨2, ![1, n]⟩ b h = rowOf b := by
  funext i
  obtain ⟨u, j, rfl⟩ : ∃ (u : Fin 1) (j : Fin n), i = ix2 u j := ⟨i 0, i 1, eq_ix2 i⟩
  rw [shapeCast_a_1a_apply, rowOf_ix2]

/-! ## The normalisation factors -/

/-- The host's inverse square root at an entry is the extended reals'. -/
theorem hostRsqrt_apply {s : Shape} (x : FVec Ideal s .f32) (i : s.Idx) : Host.rsqrt x i = Ideal.rsqrt (x i) := rfl

/-- A selection between the inverse square root of `d` and an array that reads zero, on the comparison of `d` with
    an array that reads zero, is a nonnegative real at every entry. -/
theorem dinv_sel {s : Shape} (d Z Z' : FVec Ideal s .f32) (n : s.Idx) (hZ : Z n = 0) (hZ' : Z' n = 0) :
    0 ≤ select (cmpf .ogt d Z) (Host.rsqrt d) Z' n ∧ select (cmpf .ogt d Z) (Host.rsqrt d) Z' n ≠ ⊤ := by
  rw [select_apply, cmpf_apply, Ideal.cmpf_def, hostRsqrt_apply, hZ, hZ']
  exact Cert.GS.dinv_entry (d n) 0 rfl

/-- The zero constant broadcast to any shape reads zero. -/
theorem bcast_zero {T : Shape} (h : (⟨0, ![]⟩ : Shape).BroadcastsInDim T ![]) (n : T.Idx) :
    broadcastInDim T ![] h (constant (F := Ideal) ⟨0, ![]⟩ .f32 0x00000000#32) n = 0 := by
  rw [broadcastInDim_scalar_apply, constant_apply, Ideal.ofBits_zero_f32]

/-- Every normalisation factor is a nonnegative real. -/
theorem dinv_fin [Cert.ReferenceIdeal.Facts] (ei : IVec Cert.ReferenceIdeal.S2x1600000 32) (n : Cert.ReferenceIdeal.S100000.Idx) :
    0 ≤ ReferenceIdeal.RefVal.dinvV ei n ∧ ReferenceIdeal.RefVal.dinvV ei n ≠ ⊤ := by
  unfold ReferenceIdeal.RefVal.dinvV
  generalize ReferenceIdeal.RefVal.degV ei = d
  exact dinv_sel d _ _ n (bcast_zero _ n) (bcast_zero _ n)

/-! ## The edges' index words -/

/-- Where an edge's destination word reads as the node `c`, the word with negative values wrapped clamps to `c`. -/
theorem colN_of_col [Cert.ReferenceIdeal.Facts] (ei : IVec Cert.ReferenceIdeal.S2x1600000 32) (e : Fin 1700000) (c : Fin 100000)
    (h : (ReferenceIdeal.RefVal.colIdx ei (ix2 e (0 : Fin 1))).toInt = (c.val : Int)) :
    Cert.GS.clampRow (ReferenceIdeal.RefVal.colNIdx ei (ix2 e (0 : Fin 1))) = c := by
  unfold ReferenceIdeal.RefVal.colIdx at h
  unfold ReferenceIdeal.RefVal.colNIdx
  generalize ReferenceIdeal.RefVal.colV ei = cv at h ⊢
  rw [Cert.ReferenceIdeal.ProjRef.bcast_a_a1_apply] at h ⊢
  show Cert.GS.clampRow (Scalar.select (IntOp.cmpi .slt (cv (ix1 e)) 0#32) (IntOp.addi (cv (ix1 e)) 100000#32) (cv (ix1 e))) = c
  have hs : (cv (ix1 e)).slt 0#32 = false := by
    unfold BitVec.slt
    rw [h]
    simp
  have hbit : IntOp.cmpi .slt (cv (ix1 e)) 0#32 = 0#1 := by
    show BitVec.ofBool ((cv (ix1 e)).slt 0#32) = 0#1
    rw [hs]; rfl
  rw [hbit, select_zero]
  exact Cert.GS.clampRow_of_toInt _ c h

/-- An edge's weight: the factor at its clamped source, times one, times the factor at its clamped destination. -/
theorem ew_at [Cert.ReferenceIdeal.Facts] (ei : IVec Cert.ReferenceIdeal.S2x1600000 32) (e : Fin 1700000) :
    ReferenceIdeal.RefVal.ewV ei (ix1 e)
      = (ReferenceIdeal.RefVal.dinvV ei (ix1 (Cert.GS.clampRow (ReferenceIdeal.RefVal.rowIdx ei (ix2 e (0 : Fin 1))))) * 1)
        * ReferenceIdeal.RefVal.dinvV ei (ix1 (Cert.GS.clampRow (ReferenceIdeal.RefVal.colNIdx ei (ix2 e (0 : Fin 1))))) := by
  unfold ReferenceIdeal.RefVal.ewV
  generalize ReferenceIdeal.RefVal.dinvV ei = dv
  generalize ReferenceIdeal.RefVal.rowIdx ei = ri
  generalize ReferenceIdeal.RefVal.colNIdx ei = ci
  rw [mulf_apply, mulf_apply, Cert.GS.g1_eq_ref, Cert.GS.gather1_apply, Cert.GS.gather1_apply, broadcastInDim_scalar_apply]
  show (_ * Ideal.ofBits .f32 0x3F800000#32) * _ = _
  rw [Ideal.ofBits_one_f32]

/-! ## The two programs' index arrays and factors are the same arrays -/

theorem ker_dinvV_eq [Cert.ReferenceIdeal.Facts] [Cert.KernelIdeal.Facts] (ei : IVec Cert.ReferenceIdeal.S2x1600000 32) :
    KernelIdeal.KerVal.dinvV ei = ReferenceIdeal.RefVal.dinvV ei := rfl

theorem ker_rowIdx_eq [Cert.ReferenceIdeal.Facts] [Cert.KernelIdeal.Facts] (ei : IVec Cert.ReferenceIdeal.S2x1600000 32) :
    KernelIdeal.KerVal.rowIdx ei = ReferenceIdeal.RefVal.rowIdx ei := rfl

theorem ker_colIdx_eq [Cert.ReferenceIdeal.Facts] [Cert.KernelIdeal.Facts] (ei : IVec Cert.ReferenceIdeal.S2x1600000 32) :
    KernelIdeal.KerVal.colIdx ei = ReferenceIdeal.RefVal.colIdx ei := rfl

/-! ## The recast vectors -/

theorem dinv2_eq [Cert.KernelIdeal.Facts] (ei : IVec Cert.KernelIdeal.S2x1600000 32) :
    KernelIdeal.KerVal.dinv2 ei = colOf (KernelIdeal.KerVal.dinvV ei) := by
  unfold KernelIdeal.KerVal.dinv2
  exact shapeCast_col _ _

theorem biasRow_eq [Cert.KernelIdeal.Facts] (b : FVec Ideal Cert.KernelIdeal.S128 .f32) : KernelIdeal.KerVal.biasRow b = rowOf b := by
  unfold KernelIdeal.KerVal.biasRow
  exact shapeCast_row _ _

theorem biasRow64_eq [Cert.KernelIdeal.Facts] (b : FVec Ideal Cert.KernelIdeal.S64 .f32) : KernelIdeal.KerVal.biasRow64 b = rowOf b := by
  unfold KernelIdeal.KerVal.biasRow64
  exact shapeCast_row _ _

/-! ## Clipping below at zero -/

/-- The entrywise maximum of the shifted, scaled aggregate with the zero array is the clipped row-wise form. -/
theorem relu_post (A : Arr2 100000 128) (s : Arr2 100000 1) (b : Arr2 1 128)
    (h0 : Cert.ReferenceIdeal.S_.BroadcastsInDim Cert.ReferenceIdeal.S100000x128 (![] : Fin 0 → Fin Cert.ReferenceIdeal.S100000x128.rank)) :
    maximumf (post A s b) (broadcastInDim Cert.ReferenceIdeal.S100000x128 ![] h0
      (constant (F := Ideal) Cert.ReferenceIdeal.S_ .f32 0x00000000#32)) = postRelu A s b := by
  funext i
  rw [maximumf_apply, broadcastInDim_scalar_apply]
  show max (post A s b i) (Ideal.ofBits .f32 0x00000000#32) = _
  rw [Ideal.ofBits_zero_f32]
  rfl

/-! ## The reference's projection, under its two spellings -/

theorem projChain_eq [Cert.ReferenceIdeal.Facts] (zs : FVec Ideal Cert.ReferenceIdeal.S100000x128 .f32)
    (fcW1 : FVec Ideal Cert.ReferenceIdeal.S128x128 .f32) (fcb1 : FVec Ideal Cert.ReferenceIdeal.S128 .f32)
    (fcW2 : FVec Ideal Cert.ReferenceIdeal.S64x128 .f32) (fcb2 : FVec Ideal Cert.ReferenceIdeal.S64 .f32) :
    ReferenceIdeal.RefVal.projChain zs fcW1 fcb1 fcW2 fcb2 = Cert.ReferenceIdeal.ProjRef.chain zs fcW1 fcb1 fcW2 fcb2 := rfl

end Cert.BridgeFacts

end
-- ==== Proof.Bridge.lean ====
/-
  The two programs compute the same arrays.

  Each of the reference's two layers is the kernel's three steps (scale by the source factor, aggregate, scale by the
  destination factor and add the bias): the layer law. The projection is the same row-wise function on both sides.
-/
import proofs.«152069_j90555090468876_2_alg».proof.Proof.RefVal
import proofs.«152069_j90555090468876_2_alg».proof.Proof.KerVal
import proofs.«152069_j90555090468876_2_alg».proof.Proof.Layer
import proofs.«152069_j90555090468876_2_alg».proof.Proof.ProjRef
import proofs.«152069_j90555090468876_2_alg».proof.Proof.BridgeFacts

noncomputable section

namespace Cert.Bridge

open Idealize.ShloMosaic Idealize.ShloMosaic.ValueIdx

variable [Cert.ReferenceIdeal.Facts] [Cert.KernelIdeal.Facts]

theorem dd_eq_ref : Cert.ReferenceIdeal.dot_S100000x128_S128x128_S100000x128_1_0_0_1_n_n = Cert.Layer.dd := rfl

/-- One layer of the reference is the kernel's scale, aggregate, scale-and-shift. -/
theorem layer_bridge (z : FVec Ideal Cert.ReferenceIdeal.S100000x128 .f32) (W : FVec Ideal Cert.ReferenceIdeal.S128x128 .f32)
    (b : FVec Ideal Cert.ReferenceIdeal.S128 .f32) (ei : IVec Cert.ReferenceIdeal.S2x1600000 32) :
    Cert.ReferenceIdeal.RefVal.layer z W b ei
      = Cert.Spec.post (Cert.KernelIdeal.KerVal.aggOf (Cert.Spec.pre z W (Cert.KernelIdeal.KerVal.dinv2 ei)) ei)
          (Cert.KernelIdeal.KerVal.dinv2 ei) (Cert.KernelIdeal.KerVal.biasRow b) := by
  rw [Cert.BridgeFacts.dinv2_eq, Cert.BridgeFacts.biasRow_eq, Cert.KernelIdeal.KerVal.aggOf_eq,
    Cert.BridgeFacts.ker_dinvV_eq, Cert.BridgeFacts.ker_rowIdx_eq, Cert.BridgeFacts.ker_colIdx_eq,
    Cert.ReferenceIdeal.RefVal.layer, Cert.GS.s2_eq_ref, Cert.GS.g2_eq_ref, Cert.GS.s2_eq_ker, Cert.GS.g2_eq_ker, dd_eq_ref]
  rw [Cert.Layer.layer_eq _ _ _ _ _ _ _ z W b (Cert.ReferenceIdeal.RefVal.dinvV ei) (Cert.ReferenceIdeal.RefVal.ewV ei)
    (Cert.ReferenceIdeal.RefVal.rowIdx ei) (Cert.ReferenceIdeal.RefVal.colIdx ei) (Cert.ReferenceIdeal.RefVal.colNIdx ei)
    (Cert.BridgeFacts.dinv_fin ei) (Cert.BridgeFacts.colN_of_col ei) (Cert.BridgeFacts.ew_at ei)]

/-- The first layer's clipped output is the same array in both programs. -/
theorem z1_eq (x : FVec Ideal Cert.ReferenceIdeal.S100000x128 .f32) (ei : IVec Cert.ReferenceIdeal.S2x1600000 32)
    (W1 : FVec Ideal Cert.ReferenceIdeal.S128x128 .f32) (b1 : FVec Ideal Cert.ReferenceIdeal.S128 .f32) :
    Cert.ReferenceIdeal.RefVal.z1T x ei W1 b1 = Cert.KernelIdeal.KerVal.z1T x ei W1 b1 := by
  rw [Cert.ReferenceIdeal.RefVal.z1T, Cert.KernelIdeal.KerVal.z1T, layer_bridge, Cert.BridgeFacts.relu_post]

/-- The node embeddings are the same array in both programs. -/
theorem zs_eq (x : FVec Ideal Cert.ReferenceIdeal.S100000x128 .f32) (ei : IVec Cert.ReferenceIdeal.S2x1600000 32)
    (W1 : FVec Ideal Cert.ReferenceIdeal.S128x128 .f32) (b1 : FVec Ideal Cert.ReferenceIdeal.S128 .f32)
    (W2 : FVec Ideal Cert.ReferenceIdeal.S128x128 .f32) (b2 : FVec Ideal Cert.ReferenceIdeal.S128 .f32) :
    Cert.ReferenceIdeal.RefVal.zsT x ei W1 b1 W2 b2 = Cert.KernelIdeal.KerVal.zsT x ei W1 b1 W2 b2 := by
  rw [Cert.ReferenceIdeal.RefVal.zsT, Cert.KernelIdeal.KerVal.zsT, z1_eq, layer_bridge]

/-- The class scores are the same array in both programs: the projection is one row-wise function of the embeddings. -/
theorem res_eq (x : FVec Ideal Cert.ReferenceIdeal.S100000x128 .f32) (ei : IVec Cert.ReferenceIdeal.S2x1600000 32)
    (W1 : FVec Ideal Cert.ReferenceIdeal.S128x128 .f32) (b1 : FVec Ideal Cert.ReferenceIdeal.S128 .f32)
    (W2 : FVec Ideal Cert.ReferenceIdeal.S128x128 .f32) (b2 : FVec Ideal Cert.ReferenceIdeal.S128 .f32)
    (fcW1 : FVec Ideal Cert.ReferenceIdeal.S128x128 .f32) (fcb1 : FVec Ideal Cert.ReferenceIdeal.S128 .f32)
    (fcW2 : FVec Ideal Cert.ReferenceIdeal.S64x128 .f32) (fcb2 : FVec Ideal Cert.ReferenceIdeal.S64 .f32) :
    Cert.ReferenceIdeal.RefVal.resT x ei W1 b1 W2 b2 fcW1 fcb1 fcW2 fcb2
      = Cert.KernelIdeal.KerVal.resT x ei W1 b1 W2 b2 fcW1 fcb1 fcW2 fcb2 := by
  rw [Cert.ReferenceIdeal.RefVal.resT, Cert.KernelIdeal.KerVal.resT, zs_eq, Cert.BridgeFacts.projChain_eq]
  funext i
  obtain ⟨r, o, rfl⟩ : ∃ (r : Fin 100000) (o : Fin 64), i = ix2 r o := ⟨i 0, i 1, eq_ix2 i⟩
  rw [Cert.ReferenceIdeal.ProjRef.chain_at, Cert.SpecProj.proj_ix2, Cert.BridgeFacts.biasRow_eq, Cert.BridgeFacts.biasRow64_eq]

end Cert.Bridge

end
-- ==== Proof.lean ====
/-
  Two graph-convolution layers and a projection head: the tiled kernel program against the plain reference, equal
  over the extended reals.

  THE PROGRAMS. Both complete the edge list with one self loop per node, count every node's incoming edges and take
  `dinv = where(deg > 0, 1/√deg, 0)`. The reference weighs edge `e` by `ew e = dinv[row e] · 1 · dinv[col e]` and
  computes a layer as `b + ∑ over the edges e arriving at c of ew e · (z Wᵀ)[row e]`. The kernel scales the rows of
  `z Wᵀ` by the SOURCE factor in a tiled matrix product, sums the bare gathered rows at the destinations on the host,
  and scales row `c` of the sum by the DESTINATION factor `dinv[c]` while adding the bias (and clipping at zero in
  the first layer) in a second tiled region. The projection head (a dense map, an exponential-linear activation, a
  second dense map and a row-wise log-softmax) is one tiled region against the reference's host operations.

  THE LAW. Every update that lands on row `c` carries the factor `dinv[c]`, and `dinv[c]` is a nonnegative REAL
  whatever the degree is (the reciprocal root of a positive real, zero at `+∞`, zero where the comparison fails),
  so it moves out of the sum: the extended reals distribute over a finite sum for a nonnegative finite factor. No
  finiteness of the features or the weights is needed, and the precondition is never opened. A change of float
  format is the identity, a matrix product into a zero accumulator is the host's dense map, and a lane reduction
  is the host's reduction.

  THE PARTS. Each tiled region's twenty blocks are restrictions of one whole-array function of the arrays the
  region finds (Proof/KerRegions.lean, Proof/KerRegion4.lean); the kernel program's run ends with its two results
  at those functions composed with the host operations between the regions (Proof/KerVal.lean, Proof/KerRun.lean);
  the reference's run ends at the composition of its host operations (Proof/RefVal.lean, Proof/RefRun.lean); the two
  compositions are equal (Proof/GS.lean: gather and scatter-add at an index and the law; Proof/Layer.lean: one layer
  both ways; Proof/ProjKernel.lean, Proof/ProjRef.lean: the projection row by row; Proof/Bridge.lean). The
  idealization rewrote nothing, so `preserves` is trivial; the three frames are the generated frame runs and the
  reference's run with its results dropped.
-/
import proofs.«152069_j90555090468876_2_alg».proof.Defs
import proofs.«152069_j90555090468876_2_alg».proof.Proof.Gen.Kernel
import proofs.«152069_j90555090468876_2_alg».proof.Proof.Gen.Kernel.Skeleton
import proofs.«152069_j90555090468876_2_alg».proof.Proof.Gen.Kernel.Launch
import proofs.«152069_j90555090468876_2_alg».proof.Proof.Gen.Kernel.Points
import proofs.«152069_j90555090468876_2_alg».proof.Proof.Gen.Kernel.Frame
import proofs.«152069_j90555090468876_2_alg».proof.Proof.Gen.KernelIdeal
import proofs.«152069_j90555090468876_2_alg».proof.Proof.Gen.KernelIdeal.Skeleton
import proofs.«152069_j90555090468876_2_alg».proof.Proof.Gen.KernelIdeal.Launch
import proofs.«152069_j90555090468876_2_alg».proof.Proof.Gen.KernelIdeal.Points
import proofs.«152069_j90555090468876_2_alg».proof.Proof.Gen.KernelIdeal.Frame
import proofs.«152069_j90555090468876_2_alg».proof.Proof.Gen.ReferenceIdeal
import proofs.«152069_j90555090468876_2_alg».proof.Proof.Gen.Pre_finite_inputs
import proofs.«152069_j90555090468876_2_alg».proof.Proof.KerRun
import proofs.«152069_j90555090468876_2_alg».proof.Proof.RefRun
import proofs.«152069_j90555090468876_2_alg».proof.Proof.Bridge
import Idealize.ShloMosaic.Adequacy
import Idealize.ShloMosaic.Init

noncomputable section

namespace Cert.Proof

open Idealize.ShloMosaic Idealize.SL.Sem

/-- The word-level kernel program runs, faults nowhere and leaves its arguments: the generated frame run. -/
theorem frame_p : Cert.frame_Kernel := fun m ρ _ => Cert.Kernel.Gen.frame m ρ

/-- The same for the idealized kernel program. -/
theorem frame_pi : Cert.frame_KernelIdeal := fun m ρ _ => Cert.KernelIdeal.Gen.frame m ρ

/-- The reference runs and leaves its arguments: its run with the two results dropped. -/
theorem frame_ri : Cert.frame_ReferenceIdeal := fun m ρ _ =>
  (θ_run Cert.ReferenceIdeal.defs _ _).mono (fun _ h c => (h c).2.2) (Cert.ReferenceIdeal.RefRun.run m ρ)

/-- From memories agreeing on the arguments both programs end with the same two arrays: the kernel program's are
    the functions of Proof/KerVal.lean of its arguments, the reference's those of Proof/RefVal.lean, and these are
    equal functions (Proof/Bridge.lean). -/
theorem algebraic : Cert.algebraic_KernelIdeal_ReferenceIdeal := by
  intro m ρ m' ρ' _ hagree
  refine ⟨_, _, Cert.KernelIdeal.KerRun.run m ρ, ?_⟩
  refine (θ_run Cert.ReferenceIdeal.defs _ _).mono (fun _ h c => ⟨(h c).1.trans ?_, (h c).2.1.trans ?_, (h c).2.2⟩)
    (Cert.ReferenceIdeal.RefRun.run m' ρ')
  · rw [(hagree c).1, (hagree c).2.1, (hagree c).2.2.1, (hagree c).2.2.2.1, (hagree c).2.2.2.2.1, (hagree c).2.2.2.2.2.1]
    exact Cert.Bridge.zs_eq _ _ _ _ _ _
  · rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    exact Cert.Bridge.res_eq _ _ _ _ _ _ _ _ _ _

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
